-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x16x128 : Shape := ⟨4, ![64, 64, 16, 128]⟩
abbrev S64x64x3x1 : Shape := ⟨4, ![64, 64, 3, 1]⟩
abbrev S64 : Shape := ⟨1, ![64]⟩
abbrev S128x128 : Shape := ⟨2, ![128, 128]⟩
abbrev S128 : Shape := ⟨1, ![128]⟩
abbrev S_ : Shape := ⟨0, ![]⟩

class Facts : Prop where
  bcast_S_S64x64x16x128 : S_.BroadcastsInDim S64x64x16x128 (![] : Fin 0 → Fin S64x64x16x128.rank)
  reducesTo_S64x64x16x128_S_d0_1_2_3 : S64x64x16x128.ReducesTo [0, 1, 2, 3] S_
  h_S_ : 0 < S_.numel
  bcast_S_S64x64x3x1 : S_.BroadcastsInDim S64x64x3x1 (![] : Fin 0 → Fin S64x64x3x1.rank)
  reducesTo_S64x64x3x1_S_d0_1_2_3 : S64x64x3x1.ReducesTo [0, 1, 2, 3] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x64x16x128 .f32) (main_arg1 : FVec F S64x64x3x1 .f32) (main_arg2 : FVec F S64 .f32) (main_arg3 : FVec F S128x128 .f32) (main_arg4 : FVec F S128 .f32) : IVec S_ 1 :=
  let main_v0 : FVec F S64x64x16x128 .f32 := Host.absf main_arg0
  let main_cst : FVec F S_ .f32 := constant S_ .f32 0x7F800000#32
  let main_v1 : FVec F S64x64x16x128 .f32 := broadcastInDim S64x64x16x128 ![] bcast_S_S64x64x16x128 main_cst
  let main_v2 : IVec S64x64x16x128 1 := cmpf .olt main_v0 main_v1
  let main_c : IVec S_ 1 := constantI S_ 1 1#1
  let main_v3 : IVec S_ 1 := (fun x v => Host.reduce IntOp.andi x v reducesTo_S64x64x16x128_S_d0_1_2_3 h_S_) main_v2 main_c
  let main_v4 : FVec F S64x64x3x1 .f32 := Host.absf main_arg1
  let main_cst_0 : FVec F S_ .f32 := constant S_ .f32 0x7F800000#32
  let main_v5 : FVec F S64x64x3x1 .f32 := broadcastInDim S64x64x3x1 ![] bcast_S_S64x64x3x1 main_cst_0
  let main_v6 : IVec S64x64x3x1 1 := cmpf .olt main_v4 main_v5
  let main_c_1 : IVec S_ 1 := constantI S_ 1 1#1
  let main_v7 : IVec S_ 1 := (fun x v => Host.reduce IntOp.andi x v reducesTo_S64x64x3x1_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S64x64x16x128 : Shape := ⟨4, ![64, 64, 16, 128]⟩
abbrev S64x64x3x1 : Shape := ⟨4, ![64, 64, 3, 1]⟩
abbrev S64 : Shape := ⟨1, ![64]⟩
abbrev S128x128 : Shape := ⟨2, ![128, 128]⟩
abbrev S128 : Shape := ⟨1, ![128]⟩
abbrev S64x64x2048 : Shape := ⟨3, ![64, 64, 2048]⟩
abbrev S64x64x3 : Shape := ⟨3, ![64, 64, 3]⟩
abbrev S64x3x64 : Shape := ⟨3, ![64, 3, 64]⟩
abbrev S64x192 : Shape := ⟨2, ![64, 192]⟩
abbrev S64x1 : Shape := ⟨2, ![64, 1]⟩
abbrev S1x128 : Shape := ⟨2, ![1, 128]⟩
abbrev S64x64x1792 : Shape := ⟨3, ![64, 64, 1792]⟩
abbrev S4x64x2048 : Shape := ⟨3, ![4, 64, 2048]⟩
abbrev S4x64x1792 : Shape := ⟨3, ![4, 64, 1792]⟩
abbrev S1x64x2048 : Shape := ⟨3, ![1, 64, 2048]⟩
abbrev S64x2048 : Shape := ⟨2, ![64, 2048]⟩
abbrev S64x64 : Shape := ⟨2, ![64, 64]⟩
abbrev S64x1792 : Shape := ⟨2, ![64, 1792]⟩
abbrev S64x128 : Shape := ⟨2, ![64, 128]⟩
abbrev S256x128 : Shape := ⟨2, ![256, 128]⟩
abbrev S1x64x128 : Shape := ⟨3, ![1, 64, 128]⟩
abbrev S64x64x14x128 : Shape := ⟨4, ![64, 64, 14, 128]⟩

abbrev nBuf : Space → Nat
  | .hbm => 16
  | .vmem => 8
  | .smem => 0
  | _ => 0

abbrev bufTy : (tb : Table) → Fin (tcTables nBuf tb) → BufTy
  | .hbm, ⟨0, _⟩ => ⟨S64x64x16x128, .f32⟩
  | .hbm, ⟨1, _⟩ => ⟨S64x64x3x1, .f32⟩
  | .hbm, ⟨2, _⟩ => ⟨S64, .f32⟩
  | .hbm, ⟨3, _⟩ => ⟨S128x128, .f32⟩
  | .hbm, ⟨4, _⟩ => ⟨S128, .f32⟩
  | .hbm, ⟨5, _⟩ => ⟨S64x64x2048, .f32⟩
  | .hbm, ⟨6, _⟩ => ⟨S64x64x3, .f32⟩
  | .hbm, ⟨7, _⟩ => ⟨S64x3x64, .f32⟩
  | .hbm, ⟨8, _⟩ => ⟨S64x192, .f32⟩
  | .hbm, ⟨9, _⟩ => ⟨S64x192, .bf16⟩
  | .hbm, ⟨10, _⟩ => ⟨S64x1, .f32⟩
  | .hbm, ⟨11, _⟩ => ⟨S128x128, .f32⟩
  | .hbm, ⟨12, _⟩ => ⟨S128x128, .bf16⟩
  | .hbm, ⟨13, _⟩ => ⟨S1x128, .f32⟩
  | .hbm, ⟨14, _⟩ => ⟨S64x64x1792, .f32⟩
  | .hbm, ⟨15, _⟩ => ⟨S64x64x14x128, .f32⟩
  | .local _ .vmem, ⟨0, _⟩ => ⟨S4x64x2048, .f32⟩
  | .local _ .vmem, ⟨1, _⟩ => ⟨S4x64x2048, .f32⟩
  | .local _ .vmem, ⟨2, _⟩ => ⟨S64x192, .bf16⟩
  | .local _ .vmem, ⟨3, _⟩ => ⟨S64x1, .f32⟩
  | .local _ .vmem, ⟨4, _⟩ => ⟨S128x128, .bf16⟩
  | .local _ .vmem, ⟨5, _⟩ => ⟨S1x128, .f32⟩
  | .local _ .vmem, ⟨6, _⟩ => ⟨S4x64x1792, .f32⟩
  | .local _ .vmem, ⟨7, _⟩ => ⟨S4x64x1792, .f32⟩
  | _, _ => ⟨S64x64x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x64x16x128_S64x64x2048 : S64x64x16x128.ShapeCasts S64x64x2048
  shapeCasts_S64x64x3x1_S64x64x3 : S64x64x3x1.ShapeCasts S64x64x3
  transposes_S64x64x3_S64x3x64_0_2_1 : S64x64x3.Transposes [0, 2, 1] S64x3x64
  shapeCasts_S64x3x64_S64x192 : S64x3x64.ShapeCasts S64x192
  bitsLt_bf16_f32 : FTy.bits .bf16 < FTy.bits .f32
  shapeCasts_S64_S64x1 : S64.ShapeCasts S64x1
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4x64x2048_S1x64x2048_0_0_0 : ∀ a, (![0, 0, 0] : Fin 3 → Nat) a + S1x64x2048.size a ≤ S4x64x2048.size a
  h_S1x64x2048 : 0 < S1x64x2048.numel
  shapeCasts_S1x64x2048_S64x2048 : S1x64x2048.ShapeCasts S64x2048
  inb_S64x192_S64x64_0_0 : ∀ a, (![0, 0] : Fin 2 → Nat) a + S64x64.size a ≤ S64x192.size a
  h_S64x64 : 0 < S64x64.numel
  shapeCasts_S64x64_S64x64 : S64x64.ShapeCasts S64x64
  slices_S64x2048_o0_0_S64x1792 : S64x2048.Slices ![0, 0] S64x1792
  inb_S64x192_S64x64_0_64 : ∀ a, (![0, 64] : Fin 2 → Nat) a + S64x64.size a ≤ S64x192.size a
  slices_S64x2048_o0_128_S64x1792 : S64x2048.Slices ![0, 128] S64x1792
  inb_S64x192_S64x64_0_128 : ∀ a, (![0, 128] : Fin 2 → Nat) a + S64x64.size a ≤ S64x192.size a
  slices_S64x2048_o0_256_S64x1792 : S64x2048.Slices ![0, 256] S64x1792
  broadcasts_S64x1_S64x1792 : S64x1.Broadcasts S64x1792
  inb_S4x64x2048_S1x64x2048_1_0_0 : ∀ a, (![1, 0, 0] : Fin 3 → Nat) a + S1x64x2048.size a ≤ S4x64x2048.size a
  inb_S4x64x2048_S1x64x2048_2_0_0 : ∀ a, (![2, 0, 0] : Fin 3 → Nat) a + S1x64x2048.size a ≤ S4x64x2048.size a
  inb_S4x64x2048_S1x64x2048_3_0_0 : ∀ a, (![3, 0, 0] : Fin 3 → Nat) a + S1x64x2048.size a ≤ S4x64x2048.size a
  slices_S64x1792_o0_0_S64x128 : S64x1792.Slices ![0, 0] S64x128
  concatenates_S64x128_S64x128_S64x128_S64x128_S256x128_d0 : Shape.Concatenates [S64x128, S64x128, S64x128, S64x128] S256x128 0
  broadcasts_S1x128_S256x128 : S1x128.Broadcasts S256x128
  slices_S256x128_o0_0_S64x128 : S256x128.Slices ![0, 0] S64x128
  inb_S4x64x1792_S1x64x128_0_0_0 : ∀ a, (![0, 0, 0] : Fin 3 → Nat) a + S1x64x128.size a ≤ S4x64x1792.size a
  h_S1x64x128 : 0 < S1x64x128.numel
  shapeCasts_S1x64x128_S64x128 : S1x64x128.ShapeCasts S64x128
  shapeCasts_S64x128_S1x64x128 : S64x128.ShapeCasts S1x64x128
  slices_S256x128_o64_0_S64x128 : S256x128.Slices ![64, 0] S64x128
  inb_S4x64x1792_S1x64x128_1_0_0 : ∀ a, (![1, 0, 0] : Fin 3 → Nat) a + S1x64x128.size a ≤ S4x64x1792.size a
  slices_S256x128_o128_0_S64x128 : S256x128.Slices ![128, 0] S64x128
  inb_S4x64x1792_S1x64x128_2_0_0 : ∀ a, (![2, 0, 0] : Fin 3 → Nat) a + S1x64x128.size a ≤ S4x64x1792.size a
  slices_S256x128_o192_0_S64x128 : S256x128.Slices ![192, 0] S64x128
  inb_S4x64x1792_S1x64x128_3_0_0 : ∀ a, (![3, 0, 0] : Fin 3 → Nat) a + S1x64x128.size a ≤ S4x64x1792.size a
  slices_S64x1792_o0_128_S64x128 : S64x1792.Slices ![0, 128] S64x128
  inb_S4x64x1792_S1x64x128_0_0_128 : ∀ a, (![0, 0, 128] : Fin 3 → Nat) a + S1x64x128.size a ≤ S4x64x1792.size a
  inb_S4x64x1792_S1x64x128_1_0_128 : ∀ a, (![1, 0, 128] : Fin 3 → Nat) a + S1x64x128.size a ≤ S4x64x1792.size a
  inb_S4x64x1792_S1x64x128_2_0_128 : ∀ a, (![2, 0, 128] : Fin 3 → Nat) a + S1x64x128.size a ≤ S4x64x1792.size a
  inb_S4x64x1792_S1x64x128_3_0_128 : ∀ a, (![3, 0, 128] : Fin 3 → Nat) a + S1x64x128.size a ≤ S4x64x1792.size a
  slices_S64x1792_o0_256_S64x128 : S64x1792.Slices ![0, 256] S64x128
  inb_S4x64x1792_S1x64x128_0_0_256 : ∀ a, (![0, 0, 256] : Fin 3 → Nat) a + S1x64x128.size a ≤ S4x64x1792.size a
  inb_S4x64x1792_S1x64x128_1_0_256 : ∀ a, (![1, 0, 256] : Fin 3 → Nat) a + S1x64x128.size a ≤ S4x64x1792.size a
  inb_S4x64x1792_S1x64x128_2_0_256 : ∀ a, (![2, 0, 256] : Fin 3 → Nat) a + S1x64x128.size a ≤ S4x64x1792.size a
  inb_S4x64x1792_S1x64x128_3_0_256 : ∀ a, (![3, 0, 256] : Fin 3 → Nat) a + S1x64x128.size a ≤ S4x64x1792.size a
  slices_S64x1792_o0_384_S64x128 : S64x1792.Slices ![0, 384] S64x128
  inb_S4x64x1792_S1x64x128_0_0_384 : ∀ a, (![0, 0, 384] : Fin 3 → Nat) a + S1x64x128.size a ≤ S4x64x1792.size a
  inb_S4x64x1792_S1x64x128_1_0_384 : ∀ a, (![1, 0, 384] : Fin 3 → Nat) a + S1x64x128.size a ≤ S4x64x1792.size a
  inb_S4x64x1792_S1x64x128_2_0_384 : ∀ a, (![2, 0, 384] : Fin 3 → Nat) a + S1x64x128.size a ≤ S4x64x1792.size a
  inb_S4x64x1792_S1x64x128_3_0_384 : ∀ a, (![3, 0, 384] : Fin 3 → Nat) a + S1x64x128.size a ≤ S4x64x1792.size a
  slices_S64x1792_o0_512_S64x128 : S64x1792.Slices ![0, 512] S64x128
  inb_S4x64x1792_S1x64x128_0_0_512 : ∀ a, (![0, 0, 512] : Fin 3 → Nat) a + S1x64x128.size a ≤ S4x64x1792.size a
  inb_S4x64x1792_S1x64x128_1_0_512 : ∀ a, (![1, 0, 512] : Fin 3 → Nat) a + S1x64x128.size a ≤ S4x64x1792.size a
  inb_S4x64x1792_S1x64x128_2_0_512 : ∀ a, (![2, 0, 512] : Fin 3 → Nat) a + S1x64x128.size a ≤ S4x64x1792.size a
  inb_S4x64x1792_S1x64x128_3_0_512 : ∀ a, (![3, 0, 512] : Fin 3 → Nat) a + S1x64x128.size a ≤ S4x64x1792.size a
  slices_S64x1792_o0_640_S64x128 : S64x1792.Slices ![0, 640] S64x128
  inb_S4x64x1792_S1x64x128_0_0_640 : ∀ a, (![0, 0, 640] : Fin 3 → Nat) a + S1x64x128.size a ≤ S4x64x1792.size a
  inb_S4x64x1792_S1x64x128_1_0_640 : ∀ a, (![1, 0, 640] : Fin 3 → Nat) a + S1x64x128.size a ≤ S4x64x1792.size a
  inb_S4x64x1792_S1x64x128_2_0_640 : ∀ a, (![2, 0, 640] : Fin 3 → Nat) a + S1x64x128.size a ≤ S4x64x1792.size a
  inb_S4x64x1792_S1x64x128_3_0_640 : ∀ a, (![3, 0, 640] : Fin 3 → Nat) a + S1x64x128.size a ≤ S4x64x1792.size a
  slices_S64x1792_o0_768_S64x128 : S64x1792.Slices ![0, 768] S64x128
  inb_S4x64x1792_S1x64x128_0_0_768 : ∀ a, (![0, 0, 768] : Fin 3 → Nat) a + S1x64x128.size a ≤ S4x64x1792.size a
  inb_S4x64x1792_S1x64x128_1_0_768 : ∀ a, (![1, 0, 768] : Fin 3 → Nat) a + S1x64x128.size a ≤ S4x64x1792.size a
  inb_S4x64x1792_S1x64x128_2_0_768 : ∀ a, (![2, 0, 768] : Fin 3 → Nat) a + S1x64x128.size a ≤ S4x64x1792.size a
  inb_S4x64x1792_S1x64x128_3_0_768 : ∀ a, (![3, 0, 768] : Fin 3 → Nat) a + S1x64x128.size a ≤ S4x64x1792.size a
  slices_S64x1792_o0_896_S64x128 : S64x1792.Slices ![0, 896] S64x128
  inb_S4x64x1792_S1x64x128_0_0_896 : ∀ a, (![0, 0, 896] : Fin 3 → Nat) a + S1x64x128.size a ≤ S4x64x1792.size a
  inb_S4x64x1792_S1x64x128_1_0_896 : ∀ a, (![1, 0, 896] : Fin 3 → Nat) a + S1x64x128.size a ≤ S4x64x1792.size a
  inb_S4x64x1792_S1x64x128_2_0_896 : ∀ a, (![2, 0, 896] : Fin 3 → Nat) a + S1x64x128.size a ≤ S4x64x1792.size a
  inb_S4x64x1792_S1x64x128_3_0_896 : ∀ a, (![3, 0, 896] : Fin 3 → Nat) a + S1x64x128.size a ≤ S4x64x1792.size a
  slices_S64x1792_o0_1024_S64x128 : S64x1792.Slices ![0, 1024] S64x128
  inb_S4x64x1792_S1x64x128_0_0_1024 : ∀ a, (![0, 0, 1024] : Fin 3 → Nat) a + S1x64x128.size a ≤ S4x64x1792.size a
  inb_S4x64x1792_S1x64x128_1_0_1024 : ∀ a, (![1, 0, 1024] : Fin 3 → Nat) a + S1x64x128.size a ≤ S4x64x1792.size a
  inb_S4x64x1792_S1x64x128_2_0_1024 : ∀ a, (![2, 0, 1024] : Fin 3 → Nat) a + S1x64x128.size a ≤ S4x64x1792.size a
  inb_S4x64x1792_S1x64x128_3_0_1024 : ∀ a, (![3, 0, 1024] : Fin 3 → Nat) a + S1x64x128.size a ≤ S4x64x1792.size a
  slices_S64x1792_o0_1152_S64x128 : S64x1792.Slices ![0, 1152] S64x128
  inb_S4x64x1792_S1x64x128_0_0_1152 : ∀ a, (![0, 0, 1152] : Fin 3 → Nat) a + S1x64x128.size a ≤ S4x64x1792.size a
  inb_S4x64x1792_S1x64x128_1_0_1152 : ∀ a, (![1, 0, 1152] : Fin 3 → Nat) a + S1x64x128.size a ≤ S4x64x1792.size a
  inb_S4x64x1792_S1x64x128_2_0_1152 : ∀ a, (![2, 0, 1152] : Fin 3 → Nat) a + S1x64x128.size a ≤ S4x64x1792.size a
  inb_S4x64x1792_S1x64x128_3_0_1152 : ∀ a, (![3, 0, 1152] : Fin 3 → Nat) a + S1x64x128.size a ≤ S4x64x1792.size a
  slices_S64x1792_o0_1280_S64x128 : S64x1792.Slices ![0, 1280] S64x128
  inb_S4x64x1792_S1x64x128_0_0_1280 : ∀ a, (![0, 0, 1280] : Fin 3 → Nat) a + S1x64x128.size a ≤ S4x64x1792.size a
  inb_S4x64x1792_S1x64x128_1_0_1280 : ∀ a, (![1, 0, 1280] : Fin 3 → Nat) a + S1x64x128.size a ≤ S4x64x1792.size a
  inb_S4x64x1792_S1x64x128_2_0_1280 : ∀ a, (![2, 0, 1280] : Fin 3 → Nat) a + S1x64x128.size a ≤ S4x64x1792.size a
  inb_S4x64x1792_S1x64x128_3_0_1280 : ∀ a, (![3, 0, 1280] : Fin 3 → Nat) a + S1x64x128.size a ≤ S4x64x1792.size a
  slices_S64x1792_o0_1408_S64x128 : S64x1792.Slices ![0, 1408] S64x128
  inb_S4x64x1792_S1x64x128_0_0_1408 : ∀ a, (![0, 0, 1408] : Fin 3 → Nat) a + S1x64x128.size a ≤ S4x64x1792.size a
  inb_S4x64x1792_S1x64x128_1_0_1408 : ∀ a, (![1, 0, 1408] : Fin 3 → Nat) a + S1x64x128.size a ≤ S4x64x1792.size a
  inb_S4x64x1792_S1x64x128_2_0_1408 : ∀ a, (![2, 0, 1408] : Fin 3 → Nat) a + S1x64x128.size a ≤ S4x64x1792.size a
  inb_S4x64x1792_S1x64x128_3_0_1408 : ∀ a, (![3, 0, 1408] : Fin 3 → Nat) a + S1x64x128.size a ≤ S4x64x1792.size a
  slices_S64x1792_o0_1536_S64x128 : S64x1792.Slices ![0, 1536] S64x128
  inb_S4x64x1792_S1x64x128_0_0_1536 : ∀ a, (![0, 0, 1536] : Fin 3 → Nat) a + S1x64x128.size a ≤ S4x64x1792.size a
  inb_S4x64x1792_S1x64x128_1_0_1536 : ∀ a, (![1, 0, 1536] : Fin 3 → Nat) a + S1x64x128.size a ≤ S4x64x1792.size a
  inb_S4x64x1792_S1x64x128_2_0_1536 : ∀ a, (![2, 0, 1536] : Fin 3 → Nat) a + S1x64x128.size a ≤ S4x64x1792.size a
  inb_S4x64x1792_S1x64x128_3_0_1536 : ∀ a, (![3, 0, 1536] : Fin 3 → Nat) a + S1x64x128.size a ≤ S4x64x1792.size a
  slices_S64x1792_o0_1664_S64x128 : S64x1792.Slices ![0, 1664] S64x128
  inb_S4x64x1792_S1x64x128_0_0_1664 : ∀ a, (![0, 0, 1664] : Fin 3 → Nat) a + S1x64x128.size a ≤ S4x64x1792.size a
  inb_S4x64x1792_S1x64x128_1_0_1664 : ∀ a, (![1, 0, 1664] : Fin 3 → Nat) a + S1x64x128.size a ≤ S4x64x1792.size a
  inb_S4x64x1792_S1x64x128_2_0_1664 : ∀ a, (![2, 0, 1664] : Fin 3 → Nat) a + S1x64x128.size a ≤ S4x64x1792.size a
  inb_S4x64x1792_S1x64x128_3_0_1664 : ∀ a, (![3, 0, 1664] : Fin 3 → Nat) a + S1x64x128.size a ≤ S4x64x1792.size a
  shapeCasts_S64x64x1792_S64x64x14x128 : S64x64x1792.ShapeCasts S64x64x14x128
  dot_S64x64_S64x1792_S64x1792_1_0_0_1_n_n_wf : DotDims.WF S64x64 S64x1792 S64x1792 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x2048.size a ≤ S64x64x2048.size a
  hwx0_0 : ∀ i : grid0.Coords, EltTy.bits .f32 = 32 ∨ (Rect.block (s := S64x64x2048) S4x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .bf16 = 32 ∨ (Rect.block (s := S64x192) S64x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x1792.size a ≤ S64x64x1792.size a
  hwx0_5 : ∀ i : grid0.Coords, EltTy.bits .f32 = 32 ∨ (Rect.block (s := S64x64x1792) S4x64x1792.size (cc0_transform_5 i) (hinb0_5 i)).WholeWords (EltTy.packing .f32)

variable [Facts₀]

def dot_S64x64_S64x1792_S64x1792_1_0_0_1_n_n : DotDims S64x64 S64x1792 S64x1792 where
  lhsContracting := [1]
  rhsContracting := [0]
  lhsNonContracting := [0]
  rhsNonContracting := [1]
  lhsBatch := []
  rhsBatch := []
  wf := dot_S64x64_S64x1792_S64x1792_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S4x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S4x64x1792.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x64x16x128 : Shape := ⟨4, ![64, 64, 16, 128]⟩
abbrev S64x64x3x1 : Shape := ⟨4, ![64, 64, 3, 1]⟩
abbrev S64 : Shape := ⟨1, ![64]⟩
abbrev S128x128 : Shape := ⟨2, ![128, 128]⟩
abbrev S128 : Shape := ⟨1, ![128]⟩
abbrev S0 : Shape := ⟨1, ![0]⟩
abbrev S64x64x14x128 : Shape := ⟨4, ![64, 64, 14, 128]⟩
abbrev S64x192x14x128 : Shape := ⟨4, ![64, 192, 14, 128]⟩
abbrev S64x192x1792 : Shape := ⟨3, ![64, 192, 1792]⟩
abbrev S64x64x3 : Shape := ⟨3, ![64, 64, 3]⟩
abbrev S64x3x64 : Shape := ⟨3, ![64, 3, 64]⟩
abbrev S64x192 : Shape := ⟨2, ![64, 192]⟩
abbrev S64x1 : Shape := ⟨2, ![64, 1]⟩
abbrev S_ : Shape := ⟨0, ![]⟩
abbrev S1x128 : Shape := ⟨2, ![1, 128]⟩
abbrev S1 : Shape := ⟨1, ![1]⟩
abbrev S64x64x1792 : Shape := ⟨3, ![64, 64, 1792]⟩
abbrev S1x192x1792 : Shape := ⟨3, ![1, 192, 1792]⟩
abbrev S1x64x1792 : Shape := ⟨3, ![1, 64, 1792]⟩
abbrev S192x1792 : Shape := ⟨2, ![192, 1792]⟩
abbrev S64x1792 : Shape := ⟨2, ![64, 1792]⟩
abbrev S64x128 : Shape := ⟨2, ![64, 128]⟩

abbrev nBuf : Space → Nat
  | .hbm => 26
  | .vmem => 8
  | .smem => 0
  | _ => 0

abbrev bufTy : (tb : Table) → Fin (tcTables nBuf tb) → BufTy
  | .hbm, ⟨0, _⟩ => ⟨S64x64x16x128, .f32⟩
  | .hbm, ⟨1, _⟩ => ⟨S64x64x3x1, .f32⟩
  | .hbm, ⟨2, _⟩ => ⟨S64, .f32⟩
  | .hbm, ⟨3, _⟩ => ⟨S128x128, .f32⟩
  | .hbm, ⟨4, _⟩ => ⟨S128, .f32⟩
  | .hbm, ⟨5, _⟩ => ⟨S0, .i32⟩
  | .hbm, ⟨6, _⟩ => ⟨S64x64x14x128, .f32⟩
  | .hbm, ⟨7, _⟩ => ⟨S64x64x14x128, .f32⟩
  | .hbm, ⟨8, _⟩ => ⟨S64x64x14x128, .f32⟩
  | .hbm, ⟨9, _⟩ => ⟨S64x192x14x128, .f32⟩
  | .hbm, ⟨10, _⟩ => ⟨S64x192x1792, .f32⟩
  | .hbm, ⟨11, _⟩ => ⟨S64x64x3, .f32⟩
  | .hbm, ⟨12, _⟩ => ⟨S64x3x64, .f32⟩
  | .hbm, ⟨13, _⟩ => ⟨S64x192, .f32⟩
  | .hbm, ⟨14, _⟩ => ⟨S64x1, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S1x128, .f32⟩
  | .hbm, ⟨24, _⟩ => ⟨S64x64x1792, .f32⟩
  | .hbm, ⟨25, _⟩ => ⟨S64x64x14x128, .f32⟩
  | .local _ .vmem, ⟨0, _⟩ => ⟨S1x192x1792, .f32⟩
  | .local _ .vmem, ⟨1, _⟩ => ⟨S1x192x1792, .f32⟩
  | .local _ .vmem, ⟨2, _⟩ => ⟨S64x192, .f32⟩
  | .local _ .vmem, ⟨3, _⟩ => ⟨S64x1, .f32⟩
  | .local _ .vmem, ⟨4, _⟩ => ⟨S128x128, .f32⟩
  | .local _ .vmem, ⟨5, _⟩ => ⟨S1x128, .f32⟩
  | .local _ .vmem, ⟨6, _⟩ => ⟨S1x64x1792, .f32⟩
  | .local _ .vmem, ⟨7, _⟩ => ⟨S1x64x1792, .f32⟩
  | _, _ => ⟨S64x64x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  hz_S0 : S0.numel = 0
  slices_S64x64x16x128_S64x64x14x128_0_0_0_0 : S64x64x16x128.Slices ![0, 0, 0, 0] S64x64x14x128
  slices_S64x64x16x128_S64x64x14x128_0_0_1_0 : S64x64x16x128.Slices ![0, 0, 1, 0] S64x64x14x128
  slices_S64x64x16x128_S64x64x14x128_0_0_2_0 : S64x64x16x128.Slices ![0, 0, 2, 0] S64x64x14x128
  concatenates_S64x64x14x128_S64x64x14x128_S64x64x14x128_S64x192x14x128_d1 : Shape.Concatenates [S64x64x14x128, S64x64x14x128, S64x64x14x128] S64x192x14x128 1
  shapeCasts_S64x192x14x128_S64x192x1792 : S64x192x14x128.ShapeCasts S64x192x1792
  shapeCasts_S64x64x3x1_S64x64x3 : S64x64x3x1.ShapeCasts S64x64x3
  transposes_S64x64x3_S64x3x64_0_2_1 : S64x64x3.Transposes [0, 2, 1] S64x3x64
  shapeCasts_S64x3x64_S64x192 : S64x3x64.ShapeCasts S64x192
  shapeCasts_S64_S64x1 : S64.ShapeCasts S64x1
  bcast_S_S128x128 : S_.BroadcastsInDim S128x128 (![] : Fin 0 → Fin S128x128.rank)
  transposes_S128x128_S128x128_1_0 : S128x128.Transposes [1, 0] S128x128
  bcast_S_S1x128 : S_.BroadcastsInDim S1x128 (![] : Fin 0 → Fin S1x128.rank)
  bcast_S_S1 : S_.BroadcastsInDim S1 (![] : Fin 0 → Fin S1.rank)
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x192x1792_S1x192x1792_0_0_0 : ∀ a, (![0, 0, 0] : Fin 3 → Nat) a + S1x192x1792.size a ≤ S1x192x1792.size a
  h_S1x192x1792 : 0 < S1x192x1792.numel
  shapeCasts_S1x192x1792_S192x1792 : S1x192x1792.ShapeCasts S192x1792
  broadcasts_S64x1_S64x1792 : S64x1.Broadcasts S64x1792
  slices_S64x1792_o0_0_S64x128 : S64x1792.Slices ![0, 0] S64x128
  broadcasts_S1x128_S64x128 : S1x128.Broadcasts S64x128
  slices_S64x1792_o0_128_S64x128 : S64x1792.Slices ![0, 128] S64x128
  slices_S64x1792_o0_256_S64x128 : S64x1792.Slices ![0, 256] S64x128
  slices_S64x1792_o0_384_S64x128 : S64x1792.Slices ![0, 384] S64x128
  slices_S64x1792_o0_512_S64x128 : S64x1792.Slices ![0, 512] S64x128
  slices_S64x1792_o0_640_S64x128 : S64x1792.Slices ![0, 640] S64x128
  slices_S64x1792_o0_768_S64x128 : S64x1792.Slices ![0, 768] S64x128
  slices_S64x1792_o0_896_S64x128 : S64x1792.Slices ![0, 896] S64x128
  slices_S64x1792_o0_1024_S64x128 : S64x1792.Slices ![0, 1024] S64x128
  slices_S64x1792_o0_1152_S64x128 : S64x1792.Slices ![0, 1152] S64x128
  slices_S64x1792_o0_1280_S64x128 : S64x1792.Slices ![0, 1280] S64x128
  slices_S64x1792_o0_1408_S64x128 : S64x1792.Slices ![0, 1408] S64x128
  slices_S64x1792_o0_1536_S64x128 : S64x1792.Slices ![0, 1536] S64x128
  slices_S64x1792_o0_1664_S64x128 : S64x1792.Slices ![0, 1664] S64x128
  concatenates_S64x128_S64x128_S64x128_S64x128_S64x128_S64x128_S64x128_S64x128_S64x128_S64x128_S64x128_S64x128_S64x128_S64x128_S64x1792_d1 : Shape.Concatenates [S64x128, S64x128, S64x128, S64x128, S64x128, S64x128, S64x128, S64x128, S64x128, S64x128, S64x128, S64x128, S64x128, S64x128] S64x1792 1
  inb_S1x64x1792_S1x64x1792_0_0_0 : ∀ a, (![0, 0, 0] : Fin 3 → Nat) a + S1x64x1792.size a ≤ S1x64x1792.size a
  h_S1x64x1792 : 0 < S1x64x1792.numel
  shapeCasts_S1x64x1792_S64x1792 : S1x64x1792.ShapeCasts S64x1792
  shapeCasts_S64x1792_S1x64x1792 : S64x1792.ShapeCasts S1x64x1792
  shapeCasts_S64x64x1792_S64x64x14x128 : S64x64x1792.ShapeCasts S64x64x14x128
  scatter_S128x128_S0_S128x128_01_n_n_0_wf : ScatterDims.WF S128x128 S0 S128x128 [0, 1] [] [] 0
  scatter_S1x128_S1_S128_0_0_0_0_wf : ScatterDims.WF S1x128 S1 S128 [0] [0] [0] 0
  dot_S64x192_S192x1792_S64x1792_1_0_0_1_n_n_wf : DotDims.WF S64x192 S192x1792 S64x1792 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x192x1792.size a ≤ S64x192x1792.size a
  hwx0_0 : ∀ i : grid0.Coords, EltTy.bits .f32 = 32 ∨ (Rect.block (s := S64x192x1792) S1x192x1792.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1792.size a ≤ S64x64x1792.size a
  hwx0_5 : ∀ i : grid0.Coords, EltTy.bits .f32 = 32 ∨ (Rect.block (s := S64x64x1792) S1x64x1792.size (cc0_transform_5 i) (hinb0_5 i)).WholeWords (EltTy.packing .f32)

variable [Facts₀]

def scatter_S128x128_S0_S128x128_01_n_n_0 : ScatterDims S128x128 S0 S128x128 where
  updateWindowDims := [0, 1]
  insertedWindowDims := []
  scatterDimsToOperandDims := []
  indexVectorDim := 0
  wf := scatter_S128x128_S0_S128x128_01_n_n_0_wf
def scatter_S1x128_S1_S128_0_0_0_0 : ScatterDims S1x128 S1 S128 where
  updateWindowDims := [0]
  insertedWindowDims := [0]
  scatterDimsToOperandDims := [0]
  indexVectorDim := 0
  wf := scatter_S1x128_S1_S128_0_0_0_0_wf
def dot_S64x192_S192x1792_S64x1792_1_0_0_1_n_n : DotDims S64x192 S192x1792 S64x1792 where
  lhsContracting := [1]
  rhsContracting := [0]
  lhsNonContracting := [0]
  rhsNonContracting := [1]
  lhsBatch := []
  rhsBatch := []
  wf := dot_S64x192_S192x1792_S64x1792_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v4) S1x192x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64x1792.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«139804_g2000702422467796_pallasbulk_817_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.Forms.lean ====
/-
  Read-at-an-entry forms, on the extended reals, of the vector expressions both kernel bodies are built from.

  * A load through a unit-stride rectangle reads the buffer at offset plus coordinate.
  * The temporal convolution: three 64-wide products of a weight block with three shifted column windows of one
    64 x 2048 slab, added pairwise, plus a column bias, at row `o` and column `n` is
    `((S0 + S1) + S2) + bias o` with `S_kt = sum over c of w_kt (o, c) * slab (c, 128 kt + n)`.
  * The vertex map on four stacked batches: rows `64 b + o` of the product of the stacked 256 x 128 matrix of the
    four batches' time-`t` column windows with a 128 x 128 matrix, plus a row bias, at column `v` is
    `sum over u of Y_b (o, off + u) * WT (u, v) + BL (0, v)`.
  * The same map on one batch's window (a 64 x 128 by 128 x 128 product plus the row bias).
-/
import proofs.«139804_g2000702422467796_pallasbulk_817_2_alg».proof.Proof.LibAffineBlock
import proofs.«139804_g2000702422467796_pallasbulk_817_2_alg».proof.Proof.LibColumnForms
import Idealize.ShloMosaic.Lib.Pipeline.Value
import Idealize.ShloMosaic.Lib.ValueLayout

noncomputable section

open scoped BigOperators

namespace Cert.Forms

open Idealize.ShloMosaic Idealize.ShloMosaic.ValueIdx

/-- A load through a unit-stride rectangle reads the contents at offset plus coordinate. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  show off a + 1 * (y a).val = (k a).val
  rw [hk a, Nat.one_mul]

variable {φ φ' : FTy}

/-- One tap of the convolution at an entry. -/
theorem tap_apply (d : DotDims ⟨2, ![64, 64]⟩ ⟨2, ![64, 1792]⟩ ⟨2, ![64, 1792]⟩)
    (hlc : d.lhsContracting = [1]) (hrc : d.rhsContracting = [0]) (hln : d.lhsNonContracting = [0])
    (hrn : d.rhsNonContracting = [1]) (hlb : d.lhsBatch = []) (hrb : d.rhsBatch = [])
    (w : FVec Ideal ⟨2, ![64, 64]⟩ φ) (xb : FVec Ideal ⟨2, ![64, 2048]⟩ φ') (off : Nat)
    (hs : (⟨2, ![64, 2048]⟩ : Shape).Slices ![0, off] ⟨2, ![64, 1792]⟩) (hoff : off + 1792 ≤ 2048)
    (o : Fin 64) (n : Fin 1792) :
    matmul d none w (extractStridedSlice ⟨2, ![64, 1792]⟩ ![0, off] xb hs)
        (constant (F := Ideal) ⟨2, ![64, 1792]⟩ .f32 0x00000000#32) (ix2 o n)
      = ∑ c : Fin 64, w (ix2 o c) * xb (ix2 c ⟨off + n.val, by omega⟩) := by
  rw [Cert.LibMatmulNN.matmul_zero_apply' d hlc hrc hln hrn hlb hrb none w _ o n]
  refine Finset.sum_congr rfl fun c _ => ?_
  rw [slice2_axis1_apply off xb hs c n ⟨off + n.val, by omega⟩ rfl]

/-- The three-tap convolution with its column bias, in the shape the kernel body prints it, at an entry. -/
theorem conv3_form (d : DotDims ⟨2, ![64, 64]⟩ ⟨2, ![64, 1792]⟩ ⟨2, ![64, 1792]⟩)
    (hlc : d.lhsContracting = [1]) (hrc : d.rhsContracting = [0]) (hln : d.lhsNonContracting = [0])
    (hrn : d.rhsNonContracting = [1]) (hlb : d.lhsBatch = []) (hrb : d.rhsBatch = [])
    (xb : FVec Ideal ⟨3, ![1, 64, 2048]⟩ .f32) (w0 w1 w2 : FVec Ideal ⟨2, ![64, 64]⟩ .bf16)
    (b2 : FVec Ideal ⟨2, ![64, 1]⟩ .f32)
    (hx : (⟨3, ![1, 64, 2048]⟩ : Shape).ShapeCasts ⟨2, ![64, 2048]⟩)
    (hw : (⟨2, ![64, 64]⟩ : Shape).ShapeCasts ⟨2, ![64, 64]⟩)
    (hb2 : (⟨2, ![64, 1]⟩ : Shape).ShapeCasts ⟨2, ![64, 1]⟩)
    (hs0 : (⟨2, ![64, 2048]⟩ : Shape).Slices ![0, 0] ⟨2, ![64, 1792]⟩)
    (hs1 : (⟨2, ![64, 2048]⟩ : Shape).Slices ![0, 128] ⟨2, ![64, 1792]⟩)
    (hs2 : (⟨2, ![64, 2048]⟩ : Shape).Slices ![0, 256] ⟨2, ![64, 1792]⟩)
    (hbc : (⟨2, ![64, 1]⟩ : Shape).Broadcasts ⟨2, ![64, 1792]⟩)
    (ht : FTy.bf16.bits < FTy.f32.bits) (o : Fin 64) (n : Fin 1792) :
    (truncf .bf16 (addf (addf (addf
        (matmul d none (shapeCast ⟨2, ![64, 64]⟩ w0 hw)
          (extractStridedSlice ⟨2, ![64, 1792]⟩ ![0, 0] (truncf .bf16 (shapeCast ⟨2, ![64, 2048]⟩ xb hx) ht) hs0)
          (constant (F := Ideal) ⟨2, ![64, 1792]⟩ .f32 0x00000000#32))
        (matmul d none (shapeCast ⟨2, ![64, 64]⟩ w1 hw)
          (extractStridedSlice ⟨2, ![64, 1792]⟩ ![0, 128] (truncf .bf16 (shapeCast ⟨2, ![64, 2048]⟩ xb hx) ht) hs1)
          (constant (F := Ideal) ⟨2, ![64, 1792]⟩ .f32 0x00000000#32)))
        (matmul d none (shapeCast ⟨2, ![64, 64]⟩ w2 hw)
          (extractStridedSlice ⟨2, ![64, 1792]⟩ ![0, 256] (truncf .bf16 (shapeCast ⟨2, ![64, 2048]⟩ xb hx) ht) hs2)
          (constant (F := Ideal) ⟨2, ![64, 1792]⟩ .f32 0x00000000#32)))
        (broadcastTo ⟨2, ![64, 1792]⟩ (shapeCast ⟨2, ![64, 1]⟩ b2 hb2) hbc)) ht : FVec Ideal ⟨2, ![64, 1792]⟩ .bf16) (ix2 o n)
      = (((∑ c : Fin 64, w0 (ix2 o c) * xb (ix3 (0 : Fin 1) c ⟨0 + n.val, by omega⟩))
          + (∑ c : Fin 64, w1 (ix2 o c) * xb (ix3 (0 : Fin 1) c ⟨128 + n.val, by omega⟩)))
          + (∑ c : Fin 64, w2 (ix2 o c) * xb (ix3 (0 : Fin 1) c ⟨256 + n.val, by omega⟩)))
        + b2 (ix2 o (0 : Fin 1)) := by
  rw [shapeCast_self w0 hw, shapeCast_self w1 hw, shapeCast_self w2 hw, shapeCast_self b2 hb2]
  rw [truncf_apply, addf_apply, addf_apply, addf_apply,
    tap_apply d hlc hrc hln hrn hlb hrb w0 _ 0 hs0 (by omega) o n,
    tap_apply d hlc hrc hln hrn hlb hrb w1 _ 128 hs1 (by omega) o n,
    tap_apply d hlc hrc hln hrn hlb hrb w2 _ 256 hs2 (by omega) o n,
    Cert.Lib.ColumnForms.broadcastTo_a1_ab_apply b2 hbc o n]
  have hrd : ∀ (c : Fin 64) (k : Fin 2048),
      (truncf .bf16 (shapeCast ⟨2, ![64, 2048]⟩ xb hx) ht : FVec Ideal ⟨2, ![64, 2048]⟩ .bf16) (ix2 c k)
        = xb (ix3 (0 : Fin 1) c k) := fun c k => by
    rw [truncf_apply, shapeCast_1ab_ab_apply xb hx c k]
  simp only [hrd]

/-- Four 64 x 128 matrices stacked along the rows: row `64 b + o` of the stack is row `o` of matrix `b`. -/
theorem concat4_rows {α : Type} (x0 x1 x2 x3 : (⟨2, ![64, 128]⟩ : Shape).Idx → α)
    (hc : Shape.Concatenates [(⟨2, ![64, 128]⟩ : Shape), ⟨2, ![64, 128]⟩, ⟨2, ![64, 128]⟩, ⟨2, ![64, 128]⟩] ⟨2, ![256, 128]⟩ 0)
    (b : Fin 4) (o : Fin 64) (k : Fin 128) :
    concatenate ⟨2, ![256, 128]⟩ 0
        [⟨⟨2, ![64, 128]⟩, x0⟩, ⟨⟨2, ![64, 128]⟩, x1⟩, ⟨⟨2, ![64, 128]⟩, x2⟩, ⟨⟨2, ![64, 128]⟩, x3⟩] hc
        (ix2 (⟨64 * b.val + o.val, by omega⟩ : Fin 256) k)
      = ![x0, x1, x2, x3] b (ix2 o k) := by
  have hoff : ∀ (r : Fin 256) (ax : Fin 2), Fin.cast (rfl : (2 : Nat) = 2) ax ≠ (0 : Fin 2) →
      ((ix2 o k : (⟨2, ![64, 128]⟩ : Shape).Idx) ax).val
        = ((ix2 r k : (⟨2, ![256, 128]⟩ : Shape).Idx) (Fin.cast (rfl : (2 : Nat) = 2) ax)).val := by
    intro r ax hax
    match ax with
    | ⟨0, _⟩ => exact absurd rfl hax
    | ⟨1, _⟩ => rfl
  match b with
  | ⟨0, _⟩ =>
    exact concatenate_apply_piece (t := ⟨2, ![256, 128]⟩) (0 : Fin 2)
      [⟨⟨2, ![64, 128]⟩, x0⟩, ⟨⟨2, ![64, 128]⟩, x1⟩, ⟨⟨2, ![64, 128]⟩, x2⟩, ⟨⟨2, ![64, 128]⟩, x3⟩] hc _ 0 (by simp)
      ⟨2, ![64, 128]⟩ x0 rfl rfl 0 rfl (ix2 o k) (hoff _) (by show 0 + o.val = 64 * 0 + o.val; omega)
  | ⟨1, _⟩ =>
    exact concatenate_apply_piece (t := ⟨2, ![256, 128]⟩) (0 : Fin 2)
      [⟨⟨2, ![64, 128]⟩, x0⟩, ⟨⟨2, ![64, 128]⟩, x1⟩, ⟨⟨2, ![64, 128]⟩, x2⟩, ⟨⟨2, ![64, 128]⟩, x3⟩] hc _ 1 (by simp)
      ⟨2, ![64, 128]⟩ x1 rfl rfl 64 rfl (ix2 o k) (hoff _) (by show 64 + o.val = 64 * 1 + o.val; omega)
  | ⟨2, _⟩ =>
    exact concatenate_apply_piece (t := ⟨2, ![256, 128]⟩) (0 : Fin 2)
      [⟨⟨2, ![64, 128]⟩, x0⟩, ⟨⟨2, ![64, 128]⟩, x1⟩, ⟨⟨2, ![64, 128]⟩, x2⟩, ⟨⟨2, ![64, 128]⟩, x3⟩] hc _ 2 (by simp)
      ⟨2, ![64, 128]⟩ x2 rfl rfl 128 rfl (ix2 o k) (hoff _) (by show 128 + o.val = 64 * 2 + o.val; omega)
  | ⟨3, _⟩ =>
    exact concatenate_apply_piece (t := ⟨2, ![256, 128]⟩) (0 : Fin 2)
      [⟨⟨2, ![64, 128]⟩, x0⟩, ⟨⟨2, ![64, 128]⟩, x1⟩, ⟨⟨2, ![64, 128]⟩, x2⟩, ⟨⟨2, ![64, 128]⟩, x3⟩] hc _ 3 (by simp)
      ⟨2, ![64, 128]⟩ x3 rfl rfl 192 rfl (ix2 o k) (hoff _) (by show 192 + o.val = 64 * 3 + o.val; omega)

/-- The vertex map on four stacked batches, row block `b`, cast to a unit-leading block: in the shape the kernel
    body prints each of its stores. -/
theorem kpiece_form (d : DotDims ⟨2, ![256, 128]⟩ ⟨2, ![128, 128]⟩ ⟨2, ![256, 128]⟩)
    (hlc : d.lhsContracting = [1]) (hrc : d.rhsContracting = [0]) (hln : d.lhsNonContracting = [0])
    (hrn : d.rhsNonContracting = [1]) (hlb : d.lhsBatch = []) (hrb : d.rhsBatch = [])
    (Y0 Y1 Y2 Y3 : FVec Ideal ⟨2, ![64, 1792]⟩ .bf16) (WT : FVec Ideal ⟨2, ![128, 128]⟩ .bf16)
    (BL : FVec Ideal ⟨2, ![1, 128]⟩ .f32) (off rb : Nat) (hoff : off + 128 ≤ 1792)
    (hs : (⟨2, ![64, 1792]⟩ : Shape).Slices ![0, off] ⟨2, ![64, 128]⟩)
    (hc : Shape.Concatenates [(⟨2, ![64, 128]⟩ : Shape), ⟨2, ![64, 128]⟩, ⟨2, ![64, 128]⟩, ⟨2, ![64, 128]⟩] ⟨2, ![256, 128]⟩ 0)
    (hb : (⟨2, ![1, 128]⟩ : Shape).Broadcasts ⟨2, ![256, 128]⟩)
    (hsr : (⟨2, ![256, 128]⟩ : Shape).Slices ![rb, 0] ⟨2, ![64, 128]⟩)
    (hsc : (⟨2, ![64, 128]⟩ : Shape).ShapeCasts ⟨3, ![1, 64, 128]⟩)
    (b : Fin 4) (hrb' : rb = 64 * b.val) (Yb : FVec Ideal ⟨2, ![64, 1792]⟩ .bf16) (hY : ![Y0, Y1, Y2, Y3] b = Yb)
    (u : Fin 1) (o : Fin 64) (v : Fin 128) :
    shapeCast ⟨3, ![1, 64, 128]⟩ (extractStridedSlice ⟨2, ![64, 128]⟩ ![rb, 0]
        (addf (matmul d none (concatenate ⟨2, ![256, 128]⟩ 0
            [⟨⟨2, ![64, 128]⟩, extractStridedSlice ⟨2, ![64, 128]⟩ ![0, off] Y0 hs⟩,
             ⟨⟨2, ![64, 128]⟩, extractStridedSlice ⟨2, ![64, 128]⟩ ![0, off] Y1 hs⟩,
             ⟨⟨2, ![64, 128]⟩, extractStridedSlice ⟨2, ![64, 128]⟩ ![0, off] Y2 hs⟩,
             ⟨⟨2, ![64, 128]⟩, extractStridedSlice ⟨2, ![64, 128]⟩ ![0, off] Y3 hs⟩] hc) WT
            (constant (F := Ideal) ⟨2, ![256, 128]⟩ .f32 0x00000000#32))
          (broadcastTo ⟨2, ![256, 128]⟩ BL hb)) hsr) hsc (ix3 u o v)
      = (∑ k : Fin 128, Yb (ix2 o ⟨off + k.val, by omega⟩) * WT (ix2 k v)) + BL (ix2 (0 : Fin 1) v) := by
  subst hrb' hY
  rw [shapeCast_ab_1ab_apply _ hsc u o v,
    slice2_axis0_apply (64 * b.val) _ hsr o v ⟨64 * b.val + o.val, by omega⟩ rfl,
    Cert.LibAffineBlock.affine_apply d hlc hrc hln hrn hlb hrb none _ WT BL hb ⟨64 * b.val + o.val, by omega⟩ v]
  congr 1
  refine Finset.sum_congr rfl fun k _ => ?_
  congr 1
  rw [concat4_rows _ _ _ _ hc b o k]
  match b with
  | ⟨0, _⟩ => exact slice2_axis1_apply off Y0 hs o k ⟨off + k.val, by omega⟩ rfl
  | ⟨1, _⟩ => exact slice2_axis1_apply off Y1 hs o k ⟨off + k.val, by omega⟩ rfl
  | ⟨2, _⟩ => exact slice2_axis1_apply off Y2 hs o k ⟨off + k.val, by omega⟩ rfl
  | ⟨3, _⟩ => exact slice2_axis1_apply off Y3 hs o k ⟨off + k.val, by omega⟩ rfl

end Cert.Forms

end
-- ==== Proof.Spec.lean ====
/-
  The two programs' results as functions of their windows' arrays, coordinate by coordinate, on the extended reals.

  Both compute, for batch `bb`, output channel `o`, time `t` and vertex `v`,
      z = sum over k < 128 of y (128 t + k) * WT (k, v) + BL (0, v),
  where `y n` is the temporal convolution's row: in the reference one 192-term product of the weight row with a
  column of the unfolded input; in the kernel three 64-term products against three shifted columns of the flat input,
  added pairwise. `sum_split3` is the only algebra between them: a sum over 192 = 64 + 64 + 64 terms taken in three
  runs, which holds in any commutative additive monoid (no finiteness is needed on the extended reals).
-/
import Idealize.ShloMosaic.PureOps.Ideal
import Idealize.ShloMosaic.Lib.ValueIdx

noncomputable section

open scoped BigOperators

namespace Cert.Spec

open Idealize.ShloMosaic Idealize.ShloMosaic.ValueIdx

/-- The vertex map of one convolution row `Y` at time `t`, vertex `v`. -/
def vmap (Y : Fin 1792 → EReal) (WT : (⟨2, ![128, 128]⟩ : Shape).Idx → EReal) (BL : (⟨2, ![1, 128]⟩ : Shape).Idx → EReal)
    (t : Fin 14) (v : Fin 128) : EReal :=
  (∑ k : Fin 128, Y ⟨128 * t.val + k.val, by omega⟩ * WT (ix2 k v)) + BL (ix2 (0 : Fin 1) v)

/-- The reference's convolution row: the weight row against a column of the unfolded input, plus the bias. -/
def convR (XC : (⟨3, ![64, 192, 1792]⟩ : Shape).Idx → EReal) (Wm : (⟨2, ![64, 192]⟩ : Shape).Idx → EReal)
    (B2 : (⟨2, ![64, 1]⟩ : Shape).Idx → EReal) (bb o : Fin 64) (n : Fin 1792) : EReal :=
  (∑ j : Fin 192, Wm (ix2 o j) * XC (ix3 bb j n)) + B2 (ix2 o (0 : Fin 1))

/-- The kernel's convolution row: three taps against three shifted columns of the flat input, plus the bias. -/
def convK (X2 : (⟨3, ![64, 64, 2048]⟩ : Shape).Idx → EReal) (Wm : (⟨2, ![64, 192]⟩ : Shape).Idx → EReal)
    (B2 : (⟨2, ![64, 1]⟩ : Shape).Idx → EReal) (bb o : Fin 64) (n : Fin 1792) : EReal :=
  (((∑ c : Fin 64, Wm (ix2 o ⟨0 + c.val, by omega⟩) * X2 (ix3 bb c ⟨0 + n.val, by omega⟩))
      + (∑ c : Fin 64, Wm (ix2 o ⟨64 + c.val, by omega⟩) * X2 (ix3 bb c ⟨128 + n.val, by omega⟩)))
      + (∑ c : Fin 64, Wm (ix2 o ⟨128 + c.val, by omega⟩) * X2 (ix3 bb c ⟨256 + n.val, by omega⟩)))
    + B2 (ix2 o (0 : Fin 1))

/-- The output array [64, 64, 1792] from a family of convolution rows: entry (bb, o, n) is the vertex map of row
    (bb, o) at time `n / 128`, vertex `n % 128`. -/
def arrOf (row : Fin 64 → Fin 64 → Fin 1792 → EReal) (WT : (⟨2, ![128, 128]⟩ : Shape).Idx → EReal)
    (BL : (⟨2, ![1, 128]⟩ : Shape).Idx → EReal) : (⟨3, ![64, 64, 1792]⟩ : Shape).Idx → EReal := fun i =>
  vmap (row (i 0) (i 1)) WT BL ⟨(i 2).val / 128, by have h : (i 2).val < 1792 := (i 2).isLt; omega⟩ ⟨(i 2).val % 128, Nat.mod_lt _ (by norm_num)⟩

/-- The reference's output array of its windows' arrays. -/
def arrR (XC : (⟨3, ![64, 192, 1792]⟩ : Shape).Idx → EReal) (Wm : (⟨2, ![64, 192]⟩ : Shape).Idx → EReal)
    (B2 : (⟨2, ![64, 1]⟩ : Shape).Idx → EReal) (WT : (⟨2, ![128, 128]⟩ : Shape).Idx → EReal)
    (BL : (⟨2, ![1, 128]⟩ : Shape).Idx → EReal) : (⟨3, ![64, 64, 1792]⟩ : Shape).Idx → EReal :=
  arrOf (convR XC Wm B2) WT BL

/-- The kernel's output array of its windows' arrays. -/
def arrK (X2 : (⟨3, ![64, 64, 2048]⟩ : Shape).Idx → EReal) (Wm : (⟨2, ![64, 192]⟩ : Shape).Idx → EReal)
    (B2 : (⟨2, ![64, 1]⟩ : Shape).Idx → EReal) (WT : (⟨2, ![128, 128]⟩ : Shape).Idx → EReal)
    (BL : (⟨2, ![1, 128]⟩ : Shape).Idx → EReal) : (⟨3, ![64, 64, 1792]⟩ : Shape).Idx → EReal :=
  arrOf (convK X2 Wm B2) WT BL

/-- A sum over 192 terms taken as three runs of 64. -/
theorem sum_split3 {M : Type*} [AddCommMonoid M] (f : Fin 192 → M) :
    ∑ j : Fin 192, f j
      = ((∑ c : Fin 64, f ⟨0 + c.val, by omega⟩) + (∑ c : Fin 64, f ⟨64 + c.val, by omega⟩))
        + (∑ c : Fin 64, f ⟨128 + c.val, by omega⟩) := by
  have h1 := Fin.sum_univ_add (M := M) (a := 128) (b := 64) f
  have h2 := Fin.sum_univ_add (M := M) (a := 64) (b := 64) (fun i : Fin (64 + 64) => f (Fin.castAdd 64 i))
  rw [h1, h2]
  refine congrArg₂ (· + ·) (congrArg₂ (· + ·) ?_ ?_) ?_
  · exact Finset.sum_congr rfl fun c _ => congrArg f (Fin.ext (by simp <;> omega))
  · exact Finset.sum_congr rfl fun c _ => congrArg f (Fin.ext (by simp <;> omega))
  · exact Finset.sum_congr rfl fun c _ => congrArg f (Fin.ext (by simp <;> omega))

end Cert.Spec

end
-- ==== Proof.KernelValue.lean ====
/-
  What the kernel body leaves in its output block, at the ideal instance: the convolution rows and the block function.

  The body computes, per batch b of the block's four, the convolution row block Y_b (three 64-wide taps of the weight
  block against three shifted column windows of the batch's 64 x 2048 slab, plus the column bias), and per time slice t
  one product of the stacked 256 x 128 matrix of the four batches' windows [128 t, 128 t + 128) with the 128 x 128 vertex
  matrix, plus the row bias; rows 64 b … 64 b + 63 of that product are stored at (b, ·, 128 t …). So every store is a
  restriction of ONE function of the block index, `GK`: entry (b, o, n) is the vertex map of Y_b's row o at time n / 128,
  vertex n % 128. Here: the four rows at an entry (`ysA_apply` … `ysD_apply`), `GK`, and `piece_to_G`, which turns
  "this store's payload is the vertex map of batch b at time t" into "this store's payload is GK at its rectangle".
-/
import proofs.«139804_g2000702422467796_pallasbulk_817_2_alg».proof.Proof.Gen.KernelIdeal.Frame
import proofs.«139804_g2000702422467796_pallasbulk_817_2_alg».proof.Proof.Forms
import proofs.«139804_g2000702422467796_pallasbulk_817_2_alg».proof.Proof.Spec

set_option maxRecDepth 16384

noncomputable section

open scoped BigOperators

namespace Cert.KernelIdeal.HandValue

open Idealize.ShloMosaic Idealize.ShloMosaic.ValueIdx Cert.KernelIdeal Cert.KernelIdeal.Gen

/-- The convolution rows of the four batches of a block, the vertex matrix and the vertex bias, as the body computes them
    from its loads. -/
abbrev ysA (x0 : Vec Ideal S4x64x2048 .f32) (x1 : Vec Ideal S64x192 .bf16) (x2 : Vec Ideal S64x1 .f32) : FVec Ideal S64x1792 .bf16 :=
  k0_pay5 (View.ld x2 r0_1) (View.ld x0 r0_3) (View.ld x1 r0_4) (View.ld x1 r0_5) (View.ld x1 r0_6)
abbrev ysB (x0 : Vec Ideal S4x64x2048 .f32) (x1 : Vec Ideal S64x192 .bf16) (x2 : Vec Ideal S64x1 .f32) : FVec Ideal S64x1792 .bf16 :=
  k0_pay8 (k0_pay3 (View.ld x2 r0_1)) (k0_pay6 (View.ld x0 r0_7)) (k0_pay7 (View.ld x0 r0_7) (View.ld x1 r0_4)) (View.ld x1 r0_5) (View.ld x1 r0_6)
abbrev ysC (x0 : Vec Ideal S4x64x2048 .f32) (x1 : Vec Ideal S64x192 .bf16) (x2 : Vec Ideal S64x1 .f32) : FVec Ideal S64x1792 .bf16 :=
  k0_pay9 (k0_pay3 (View.ld x2 r0_1)) (View.ld x0 r0_8) (View.ld x1 r0_4) (View.ld x1 r0_5) (View.ld x1 r0_6)
abbrev ysD (x0 : Vec Ideal S4x64x2048 .f32) (x1 : Vec Ideal S64x192 .bf16) (x2 : Vec Ideal S64x1 .f32) : FVec Ideal S64x1792 .bf16 :=
  k0_pay13 (k0_pay3 (View.ld x2 r0_1)) (k0_pay10 (View.ld x0 r0_9)) (k0_pay11 (View.ld x1 r0_4)) (k0_pay12 (View.ld x0 r0_9)) (View.ld x1 r0_5) (View.ld x1 r0_6)
abbrev wtL (x3 : Vec Ideal S128x128 .bf16) : FVec Ideal S128x128 .bf16 := k0_pay2 (View.ld x3 r0_0)
abbrev blL (x4 : Vec Ideal S1x128 .f32) : FVec Ideal S1x128 .f32 := k0_pay4 (View.ld x4 r0_2)

/-! ## Loads through the body's rectangles, at coordinates -/

/-- Batch slab `bo` of the input block: entry (0, ch, k) of the load is the block's (bo, ch, k). -/
theorem ld_slab (x0 : Vec Ideal S4x64x2048 .f32) (bo : Nat) (inb : ∀ a, (![bo, 0, 0] : Fin 3 → Nat) a + S1x64x2048.size a ≤ S4x64x2048.size a)
    (b : Fin 4) (hb : b.val = bo) (ch : Fin 64) (k : Fin 2048) :
    View.ld x0 (Rect.unit (s := S4x64x2048) ![bo, 0, 0] S1x64x2048.size inb) (ix3 (0 : Fin 1) ch k) = x0 (ix3 b ch k) :=
  Cert.Forms.ld_unit_apply x0 _ _ inb _ _ (fun a => by
    match a with
    | ⟨0, _⟩ => show b.val = bo + 0; omega
    | ⟨1, _⟩ => show ch.val = 0 + ch.val; omega
    | ⟨2, _⟩ => show k.val = 0 + k.val; omega)

/-- Column block at `co` of the weight matrix: entry (o, ch) of the load is the matrix's (o, co + ch). -/
theorem ld_wcols (x1 : Vec Ideal S64x192 .bf16) (co : Nat) (inb : ∀ a, (![0, co] : Fin 2 → Nat) a + S64x64.size a ≤ S64x192.size a)
    (o ch : Fin 64) (j : Fin 192) (hj : j.val = co + ch.val) :
    View.ld x1 (Rect.unit (s := S64x192) ![0, co] S64x64.size inb) (ix2 o ch) = x1 (ix2 o j) :=
  Cert.Forms.ld_unit_apply x1 _ _ inb _ _ (fun a => by
    match a with
    | ⟨0, _⟩ => show o.val = 0 + o.val; omega
    | ⟨1, _⟩ => show j.val = co + ch.val; omega)

/-! ## The convolution rows -/

/-- The convolution row of batch `b` of a block, of the block's arrays. -/
def convBlk (x0 : Vec Ideal S4x64x2048 .f32) (x1 : Vec Ideal S64x192 .bf16) (x2 : Vec Ideal S64x1 .f32) (b : Fin 4) (o : Fin 64)
    (n : Fin 1792) : EReal :=
  (((∑ c : Fin 64, x1 (ix2 o (⟨0 + c.val, by omega⟩ : Fin 192)) * x0 (ix3 b c (⟨0 + n.val, by omega⟩ : Fin 2048)))
      + (∑ c : Fin 64, x1 (ix2 o (⟨64 + c.val, by omega⟩ : Fin 192)) * x0 (ix3 b c (⟨128 + n.val, by omega⟩ : Fin 2048))))
      + (∑ c : Fin 64, x1 (ix2 o (⟨128 + c.val, by omega⟩ : Fin 192)) * x0 (ix3 b c (⟨256 + n.val, by omega⟩ : Fin 2048))))
    + x2 (ix2 o (0 : Fin 1))

/-- What `conv3_form` leaves, with the loads read at coordinates. -/
theorem conv_loads (x0 : Vec Ideal S4x64x2048 .f32) (x1 : Vec Ideal S64x192 .bf16) (x2 : Vec Ideal S64x1 .f32)
    (bo : Nat) (inb : ∀ a, (![bo, 0, 0] : Fin 3 → Nat) a + S1x64x2048.size a ≤ S4x64x2048.size a) (b : Fin 4) (hb : b.val = bo)
    (o : Fin 64) (n : Fin 1792) :
    (((∑ c : Fin 64, View.ld x1 r0_4 (ix2 o c) * View.ld x0 (Rect.unit (s := S4x64x2048) ![bo, 0, 0] S1x64x2048.size inb) (ix3 (0 : Fin 1) c ⟨0 + n.val, by omega⟩))
        + (∑ c : Fin 64, View.ld x1 r0_5 (ix2 o c) * View.ld x0 (Rect.unit (s := S4x64x2048) ![bo, 0, 0] S1x64x2048.size inb) (ix3 (0 : Fin 1) c ⟨128 + n.val, by omega⟩)))
        + (∑ c : Fin 64, View.ld x1 r0_6 (ix2 o c) * View.ld x0 (Rect.unit (s := S4x64x2048) ![bo, 0, 0] S1x64x2048.size inb) (ix3 (0 : Fin 1) c ⟨256 + n.val, by omega⟩)))
      + View.ld x2 r0_1 (ix2 o (0 : Fin 1))
      = convBlk x0 x1 x2 b o n := by
  unfold convBlk
  have e2 : View.ld x2 r0_1 (ix2 o (0 : Fin 1)) = x2 (ix2 o (0 : Fin 1)) :=
    Cert.Forms.ld_unit_apply x2 _ _ _ _ _ (fun a => by
      match a with
      | ⟨0, _⟩ => show o.val = 0 + o.val; omega
      | ⟨1, _⟩ => show (0 : Nat) = 0 + 0; omega)
  rw [e2]
  refine congrArg₂ (· + ·) (congrArg₂ (· + ·) (congrArg₂ (· + ·) ?_ ?_) ?_) rfl
  · exact Finset.sum_congr rfl fun c _ => by
      rw [ld_wcols x1 0 _ o c ⟨0 + c.val, by omega⟩ rfl, ld_slab x0 bo inb b hb c _]
  · exact Finset.sum_congr rfl fun c _ => by
      rw [ld_wcols x1 64 _ o c ⟨64 + c.val, by omega⟩ rfl, ld_slab x0 bo inb b hb c _]
  · exact Finset.sum_congr rfl fun c _ => by
      rw [ld_wcols x1 128 _ o c ⟨128 + c.val, by omega⟩ rfl, ld_slab x0 bo inb b hb c _]

theorem ysA_apply (x0 : Vec Ideal S4x64x2048 .f32) (x1 : Vec Ideal S64x192 .bf16) (x2 : Vec Ideal S64x1 .f32) (o : Fin 64) (n : Fin 1792) :
    ysA x0 x1 x2 (ix2 o n) = convBlk x0 x1 x2 0 o n := by
  unfold ysA k0_pay5 k0_pay3
  exact (Cert.Forms.conv3_form dot_S64x64_S64x1792_S64x1792_1_0_0_1_n_n rfl rfl rfl rfl rfl rfl (View.ld x0 r0_3)
    (View.ld x1 r0_4) (View.ld x1 r0_5) (View.ld x1 r0_6) (View.ld x2 r0_1) _ _ _ _ _ _ _ _ o n).trans
    (conv_loads x0 x1 x2 0 _ 0 rfl o n)

theorem ysB_apply (x0 : Vec Ideal S4x64x2048 .f32) (x1 : Vec Ideal S64x192 .bf16) (x2 : Vec Ideal S64x1 .f32) (o : Fin 64) (n : Fin 1792) :
    ysB x0 x1 x2 (ix2 o n) = convBlk x0 x1 x2 1 o n := by
  unfold ysB k0_pay8 k0_pay7 k0_pay6 k0_pay3
  exact (Cert.Forms.conv3_form dot_S64x64_S64x1792_S64x1792_1_0_0_1_n_n rfl rfl rfl rfl rfl rfl (View.ld x0 r0_7)
    (View.ld x1 r0_4) (View.ld x1 r0_5) (View.ld x1 r0_6) (View.ld x2 r0_1) _ _ _ _ _ _ _ _ o n).trans
    (conv_loads x0 x1 x2 1 _ 1 rfl o n)

theorem ysC_apply (x0 : Vec Ideal S4x64x2048 .f32) (x1 : Vec Ideal S64x192 .bf16) (x2 : Vec Ideal S64x1 .f32) (o : Fin 64) (n : Fin 1792) :
    ysC x0 x1 x2 (ix2 o n) = convBlk x0 x1 x2 2 o n := by
  unfold ysC k0_pay9 k0_pay3
  exact (Cert.Forms.conv3_form dot_S64x64_S64x1792_S64x1792_1_0_0_1_n_n rfl rfl rfl rfl rfl rfl (View.ld x0 r0_8)
    (View.ld x1 r0_4) (View.ld x1 r0_5) (View.ld x1 r0_6) (View.ld x2 r0_1) _ _ _ _ _ _ _ _ o n).trans
    (conv_loads x0 x1 x2 2 _ 2 rfl o n)

theorem ysD_apply (x0 : Vec Ideal S4x64x2048 .f32) (x1 : Vec Ideal S64x192 .bf16) (x2 : Vec Ideal S64x1 .f32) (o : Fin 64) (n : Fin 1792) :
    ysD x0 x1 x2 (ix2 o n) = convBlk x0 x1 x2 3 o n := by
  unfold ysD k0_pay13 k0_pay12 k0_pay11 k0_pay10 k0_pay3
  exact (Cert.Forms.conv3_form dot_S64x64_S64x1792_S64x1792_1_0_0_1_n_n rfl rfl rfl rfl rfl rfl (View.ld x0 r0_9)
    (View.ld x1 r0_4) (View.ld x1 r0_5) (View.ld x1 r0_6) (View.ld x2 r0_1) _ _ _ _ _ _ _ _ o n).trans
    (conv_loads x0 x1 x2 3 _ 3 rfl o n)

/-! ## The block as one function of its index -/

/-- The four batches' convolution rows, by batch. -/
abbrev ysSel (x0 : Vec Ideal S4x64x2048 .f32) (x1 : Vec Ideal S64x192 .bf16) (x2 : Vec Ideal S64x1 .f32) : Fin 4 → FVec Ideal S64x1792 .bf16 :=
  ![ysA x0 x1 x2, ysB x0 x1 x2, ysC x0 x1 x2, ysD x0 x1 x2]

/-- Entry (b, o, n) of the block the body leaves: the vertex map of batch `b`'s row `o` at time `n / 128`, vertex `n % 128`. -/
def GKc (x0 : Vec Ideal S4x64x2048 .f32) (x1 : Vec Ideal S64x192 .bf16) (x2 : Vec Ideal S64x1 .f32) (x3 : Vec Ideal S128x128 .bf16)
    (x4 : Vec Ideal S1x128 .f32) (b : Fin 4) (o : Fin 64) (n : Fin 1792) : EReal :=
  Cert.Spec.vmap (fun n' => ysSel x0 x1 x2 b (ix2 o n')) (wtL x3) (blL x4)
    ⟨n.val / 128, by have h := n.isLt; omega⟩ ⟨n.val % 128, Nat.mod_lt _ (by norm_num)⟩

/-- The same over the block's index. -/
def GK (x0 : Vec Ideal S4x64x2048 .f32) (x1 : Vec Ideal S64x192 .bf16) (x2 : Vec Ideal S64x1 .f32) (x3 : Vec Ideal S128x128 .bf16)
    (x4 : Vec Ideal S1x128 .f32) : S4x64x1792.Idx → EReal := fun y => GKc x0 x1 x2 x3 x4 (y 0) (y 1) (y 2)

theorem GKc_at (x0 : Vec Ideal S4x64x2048 .f32) (x1 : Vec Ideal S64x192 .bf16) (x2 : Vec Ideal S64x1 .f32) (x3 : Vec Ideal S128x128 .bf16)
    (x4 : Vec Ideal S1x128 .f32) (b : Fin 4) (o : Fin 64) (t : Fin 14) (v : Fin 128) (n : Fin 1792) (hn : n.val = 128 * t.val + v.val) :
    GKc x0 x1 x2 x3 x4 b o n = Cert.Spec.vmap (fun n' => ysSel x0 x1 x2 b (ix2 o n')) (wtL x3) (blL x4) t v := by
  unfold GKc
  have e1 : (⟨n.val / 128, by have h := n.isLt; omega⟩ : Fin 14) = t := Fin.ext (by show n.val / 128 = t.val; omega)
  have e2 : (⟨n.val % 128, Nat.mod_lt _ (by norm_num)⟩ : Fin 128) = v := Fin.ext (by show n.val % 128 = v.val; omega)
  rw [e1, e2]

/-- A store's payload that is the vertex map of batch `b` at time `t` is the block function at the store's rectangle. -/
theorem piece_to_G (x0 : Vec Ideal S4x64x2048 .f32) (x1 : Vec Ideal S64x192 .bf16) (x2 : Vec Ideal S64x1 .f32) (x3 : Vec Ideal S128x128 .bf16)
    (x4 : Vec Ideal S1x128 .f32) (bo off : Nat) (inb : ∀ a, (![bo, 0, off] : Fin 3 → Nat) a + S1x64x128.size a ≤ S4x64x1792.size a)
    (P : FVec Ideal S1x64x128 .f32) (b : Fin 4) (t : Fin 14) (hb : b.val = bo) (ht : off = 128 * t.val)
    (Yb : FVec Ideal S64x1792 .bf16) (hY : ysSel x0 x1 x2 b = Yb)
    (h : ∀ (u : Fin 1) (o : Fin 64) (v : Fin 128), P (ix3 u o v)
      = (∑ k : Fin 128, Yb (ix2 o ⟨off + k.val, by omega⟩) * wtL x3 (ix2 k v)) + blL x4 (ix2 (0 : Fin 1) v)) :
    ∀ x : (Rect.unit (s := S4x64x1792) ![bo, 0, off] S1x64x128.size inb).shape.Idx,
      P x = GK x0 x1 x2 x3 x4 ((Rect.unit (s := S4x64x1792) ![bo, 0, off] S1x64x128.size inb).emb x) := by
  subst ht hY
  have main : ∀ x' : S1x64x128.Idx,
      P x' = GK x0 x1 x2 x3 x4 ((Rect.unit (s := S4x64x1792) ![bo, 0, 128 * t.val] S1x64x128.size inb).emb x') := by
    intro x'
    obtain ⟨u, o, v, rfl⟩ : ∃ (u : Fin 1) (o : Fin 64) (v : Fin 128), x' = ix3 u o v := ⟨x' 0, x' 1, x' 2, eq_ix3 x'⟩
    rw [h u o v]
    unfold GK
    have key : ∀ (b' : Fin 4) (o' : Fin 64) (n' : Fin 1792), b' = b → o' = o → n'.val = 128 * t.val + v.val →
        (∑ k : Fin 128, ysSel x0 x1 x2 b (ix2 o ⟨128 * t.val + k.val, by omega⟩) * wtL x3 (ix2 k v)) + blL x4 (ix2 (0 : Fin 1) v)
          = GKc x0 x1 x2 x3 x4 b' o' n' := by
      rintro b' o' n' rfl rfl hn
      rw [GKc_at x0 x1 x2 x3 x4 b' o' t v n' hn]
      rfl
    refine key _ _ _ (Fin.ext ?_) (Fin.ext ?_) ?_
    · show bo + 1 * u.val = b.val; omega
    · show 0 + 1 * o.val = o.val; omega
    · show 128 * t.val + 1 * v.val = 128 * t.val + v.val; omega
  exact fun x => main x

end Cert.KernelIdeal.HandValue

end
-- ==== Proof.KernelPieces.lean ====
/- The kernel body's 56 stores, one theorem each: the store at batch b and time offset 128 t holds, at (u, o, v), the vertex map
  sum over k of Y_b (o, 128 t + k) * WT (k, v) + BL (0, v) of that batch's convolution row block. Every theorem is the same
  two steps — open the vertex-stage payload names, apply the form for "rows 64 b … 64 b + 63 of the stacked product, cast to a
  unit-leading block" — and they differ only in the batch, the offset and the payload's printed name. `out0_5_eq_GK` then reads
  the buffer the body leaves as the ONE block function: each store's payload is that function at the store's rectangle, and the
  stores cover the block. -/
import proofs.«139804_g2000702422467796_pallasbulk_817_2_alg».proof.Proof.KernelValue

set_option maxRecDepth 16384

noncomputable section

open scoped BigOperators

namespace Cert.KernelIdeal.HandValue

open Idealize.ShloMosaic Idealize.ShloMosaic.ValueIdx Cert.KernelIdeal Cert.KernelIdeal.Gen

theorem piece_0 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay1 (k0_pay91 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨1664 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1664 192 (by norm_num) _ _ _ _ _ (3 : Fin 4) rfl _ rfl u o v

theorem piece_1 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay90 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨1664 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1664 128 (by norm_num) _ _ _ _ _ (2 : Fin 4) rfl _ rfl u o v

theorem piece_2 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay89 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨1664 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1664 64 (by norm_num) _ _ _ _ _ (1 : Fin 4) rfl _ rfl u o v

theorem piece_3 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay88 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨1664 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1664 0 (by norm_num) _ _ _ _ _ (0 : Fin 4) rfl _ rfl u o v

theorem piece_4 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay86 (k0_pay81 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨1536 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1536 192 (by norm_num) _ _ _ _ _ (3 : Fin 4) rfl _ rfl u o v

theorem piece_5 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay85 (k0_pay84 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysC x0 x1 x2 (ix2 o ⟨1536 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1536 128 (by norm_num) _ _ _ _ _ (2 : Fin 4) rfl _ rfl u o v

theorem piece_6 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay83 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨1536 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1536 64 (by norm_num) _ _ _ _ _ (1 : Fin 4) rfl _ rfl u o v

theorem piece_7 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay82 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨1536 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1536 0 (by norm_num) _ _ _ _ _ (0 : Fin 4) rfl _ rfl u o v

theorem piece_8 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay80 (k0_pay74 (k0_pay2 (View.ld x3 r0_0)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (k0_pay75 (k0_pay4 (View.ld x4 r0_2)))) (ix3 u o v)
      = (∑ k : Fin 128, ysD x0 x1 x2 (ix2 o ⟨1408 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1408 192 (by norm_num) _ _ _ _ _ (3 : Fin 4) rfl _ rfl u o v

theorem piece_9 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay79 (k0_pay74 (k0_pay2 (View.ld x3 r0_0)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (k0_pay75 (k0_pay4 (View.ld x4 r0_2)))) (ix3 u o v)
      = (∑ k : Fin 128, ysC x0 x1 x2 (ix2 o ⟨1408 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1408 128 (by norm_num) _ _ _ _ _ (2 : Fin 4) rfl _ rfl u o v

theorem piece_10 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay78 (k0_pay74 (k0_pay2 (View.ld x3 r0_0)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (k0_pay75 (k0_pay4 (View.ld x4 r0_2)))) (ix3 u o v)
      = (∑ k : Fin 128, ysB x0 x1 x2 (ix2 o ⟨1408 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1408 64 (by norm_num) _ _ _ _ _ (1 : Fin 4) rfl _ rfl u o v

theorem piece_11 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay77 (k0_pay74 (k0_pay2 (View.ld x3 r0_0)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (k0_pay75 (k0_pay4 (View.ld x4 r0_2)))) (ix3 u o v)
      = (∑ k : Fin 128, ysA x0 x1 x2 (ix2 o ⟨1408 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1408 0 (by norm_num) _ _ _ _ _ (0 : Fin 4) rfl _ rfl u o v

theorem piece_12 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay73 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysD x0 x1 x2 (ix2 o ⟨1280 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1280 192 (by norm_num) _ _ _ _ _ (3 : Fin 4) rfl _ rfl u o v

theorem piece_13 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay72 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨1280 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1280 128 (by norm_num) _ _ _ _ _ (2 : Fin 4) rfl _ rfl u o v

theorem piece_14 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay71 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨1280 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1280 64 (by norm_num) _ _ _ _ _ (1 : Fin 4) rfl _ rfl u o v

theorem piece_15 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay70 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨1280 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1280 0 (by norm_num) _ _ _ _ _ (0 : Fin 4) rfl _ rfl u o v

theorem piece_16 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay68 (k0_pay63 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨1152 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1152 192 (by norm_num) _ _ _ _ _ (3 : Fin 4) rfl _ rfl u o v

theorem piece_17 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay67 (k0_pay66 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysC x0 x1 x2 (ix2 o ⟨1152 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1152 128 (by norm_num) _ _ _ _ _ (2 : Fin 4) rfl _ rfl u o v

theorem piece_18 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay65 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨1152 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1152 64 (by norm_num) _ _ _ _ _ (1 : Fin 4) rfl _ rfl u o v

theorem piece_19 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay64 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨1152 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1152 0 (by norm_num) _ _ _ _ _ (0 : Fin 4) rfl _ rfl u o v

theorem piece_20 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay62 (k0_pay57 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨1024 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1024 192 (by norm_num) _ _ _ _ _ (3 : Fin 4) rfl _ rfl u o v

theorem piece_21 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay61 (k0_pay57 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysC x0 x1 x2 (ix2 o ⟨1024 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1024 128 (by norm_num) _ _ _ _ _ (2 : Fin 4) rfl _ rfl u o v

theorem piece_22 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay60 (k0_pay57 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysB x0 x1 x2 (ix2 o ⟨1024 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1024 64 (by norm_num) _ _ _ _ _ (1 : Fin 4) rfl _ rfl u o v

theorem piece_23 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay59 (k0_pay58 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysA x0 x1 x2 (ix2 o ⟨1024 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 1024 0 (by norm_num) _ _ _ _ _ (0 : Fin 4) rfl _ rfl u o v

theorem piece_24 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay56 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysD x0 x1 x2 (ix2 o ⟨896 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 896 192 (by norm_num) _ _ _ _ _ (3 : Fin 4) rfl _ rfl u o v

theorem piece_25 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay55 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨896 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 896 128 (by norm_num) _ _ _ _ _ (2 : Fin 4) rfl _ rfl u o v

theorem piece_26 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay54 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨896 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 896 64 (by norm_num) _ _ _ _ _ (1 : Fin 4) rfl _ rfl u o v

theorem piece_27 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay53 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨896 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 896 0 (by norm_num) _ _ _ _ _ (0 : Fin 4) rfl _ rfl u o v

theorem piece_28 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay51 (k0_pay47 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨768 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 768 192 (by norm_num) _ _ _ _ _ (3 : Fin 4) rfl _ rfl u o v

theorem piece_29 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay50 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨768 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 768 128 (by norm_num) _ _ _ _ _ (2 : Fin 4) rfl _ rfl u o v

theorem piece_30 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay49 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨768 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 768 64 (by norm_num) _ _ _ _ _ (1 : Fin 4) rfl _ rfl u o v

theorem piece_31 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay48 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨768 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 768 0 (by norm_num) _ _ _ _ _ (0 : Fin 4) rfl _ rfl u o v

theorem piece_32 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay46 (k0_pay41 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨640 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 640 192 (by norm_num) _ _ _ _ _ (3 : Fin 4) rfl _ rfl u o v

theorem piece_33 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay45 (k0_pay41 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysC x0 x1 x2 (ix2 o ⟨640 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 640 128 (by norm_num) _ _ _ _ _ (2 : Fin 4) rfl _ rfl u o v

theorem piece_34 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay44 (k0_pay41 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysB x0 x1 x2 (ix2 o ⟨640 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 640 64 (by norm_num) _ _ _ _ _ (1 : Fin 4) rfl _ rfl u o v

theorem piece_35 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay43 (k0_pay42 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysA x0 x1 x2 (ix2 o ⟨640 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 640 0 (by norm_num) _ _ _ _ _ (0 : Fin 4) rfl _ rfl u o v

theorem piece_36 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay40 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysD x0 x1 x2 (ix2 o ⟨512 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 512 192 (by norm_num) _ _ _ _ _ (3 : Fin 4) rfl _ rfl u o v

theorem piece_37 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay39 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨512 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 512 128 (by norm_num) _ _ _ _ _ (2 : Fin 4) rfl _ rfl u o v

theorem piece_38 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay38 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨512 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 512 64 (by norm_num) _ _ _ _ _ (1 : Fin 4) rfl _ rfl u o v

theorem piece_39 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay37 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨512 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 512 0 (by norm_num) _ _ _ _ _ (0 : Fin 4) rfl _ rfl u o v

theorem piece_40 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay35 (k0_pay34 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨384 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 384 192 (by norm_num) _ _ _ _ _ (3 : Fin 4) rfl _ rfl u o v

theorem piece_41 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay33 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨384 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 384 128 (by norm_num) _ _ _ _ _ (2 : Fin 4) rfl _ rfl u o v

theorem piece_42 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay32 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨384 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 384 64 (by norm_num) _ _ _ _ _ (1 : Fin 4) rfl _ rfl u o v

theorem piece_43 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay31 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨384 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 384 0 (by norm_num) _ _ _ _ _ (0 : Fin 4) rfl _ rfl u o v

theorem piece_44 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay29 (k0_pay25 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysD x0 x1 x2 (ix2 o ⟨256 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 256 192 (by norm_num) _ _ _ _ _ (3 : Fin 4) rfl _ rfl u o v

theorem piece_45 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay28 (k0_pay25 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysC x0 x1 x2 (ix2 o ⟨256 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 256 128 (by norm_num) _ _ _ _ _ (2 : Fin 4) rfl _ rfl u o v

theorem piece_46 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay27 (k0_pay25 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6)))) (ix3 u o v)
      = (∑ k : Fin 128, ysB x0 x1 x2 (ix2 o ⟨256 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 256 64 (by norm_num) _ _ _ _ _ (1 : Fin 4) rfl _ rfl u o v

theorem piece_47 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay26 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨256 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 256 0 (by norm_num) _ _ _ _ _ (0 : Fin 4) rfl _ rfl u o v

theorem piece_48 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay24 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysD x0 x1 x2 (ix2 o ⟨128 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 128 192 (by norm_num) _ _ _ _ _ (3 : Fin 4) rfl _ rfl u o v

theorem piece_49 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay23 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysC x0 x1 x2 (ix2 o ⟨128 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 128 128 (by norm_num) _ _ _ _ _ (2 : Fin 4) rfl _ rfl u o v

theorem piece_50 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay22 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysB x0 x1 x2 (ix2 o ⟨128 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 128 64 (by norm_num) _ _ _ _ _ (1 : Fin 4) rfl _ rfl u o v

theorem piece_51 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay21 (k0_pay2 (View.ld x3 r0_0)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay13 (k0_pay3 (View.ld x2 r0_1)) (k0_pay10 (View.ld x0 r0_9)) (k0_pay11 (View.ld x1 r0_4)) (k0_pay12 (View.ld x0 r0_9)) (View.ld x1 r0_5) (View.ld x1 r0_6))) (ix3 u o v)
      = (∑ k : Fin 128, ysA x0 x1 x2 (ix2 o ⟨128 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 128 0 (by norm_num) _ _ _ _ _ (0 : Fin 4) rfl _ rfl u o v

theorem piece_52 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay19 (k0_pay18 (k0_pay2 (View.ld x3 r0_0)) (k0_pay3 (View.ld x2 r0_1)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay10 (View.ld x0 r0_9)) (k0_pay11 (View.ld x1 r0_4)) (k0_pay12 (View.ld x0 r0_9)) (View.ld x1 r0_5) (View.ld x1 r0_6))) (ix3 u o v)
      = (∑ k : Fin 128, ysD x0 x1 x2 (ix2 o ⟨0 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 0 192 (by norm_num) _ _ _ _ _ (3 : Fin 4) rfl _ rfl u o v

theorem piece_53 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay17 (k0_pay2 (View.ld x3 r0_0)) (k0_pay3 (View.ld x2 r0_1)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay10 (View.ld x0 r0_9)) (k0_pay11 (View.ld x1 r0_4)) (k0_pay12 (View.ld x0 r0_9)) (View.ld x1 r0_5) (View.ld x1 r0_6)) (ix3 u o v)
      = (∑ k : Fin 128, ysC x0 x1 x2 (ix2 o ⟨0 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 0 128 (by norm_num) _ _ _ _ _ (2 : Fin 4) rfl _ rfl u o v

theorem piece_54 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay16 (k0_pay2 (View.ld x3 r0_0)) (k0_pay3 (View.ld x2 r0_1)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay10 (View.ld x0 r0_9)) (k0_pay11 (View.ld x1 r0_4)) (k0_pay12 (View.ld x0 r0_9)) (View.ld x1 r0_5) (View.ld x1 r0_6)) (ix3 u o v)
      = (∑ k : Fin 128, ysB x0 x1 x2 (ix2 o ⟨0 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 0 64 (by norm_num) _ _ _ _ _ (1 : Fin 4) rfl _ rfl u o v

theorem piece_55 (x0 : Vec Ideal S4x64x2048 .f32) (x1 : Vec Ideal S64x192 .bf16) (x2 : Vec Ideal S64x1 .f32) (x3 : Vec Ideal S128x128 .bf16) (x4 : Vec Ideal S1x128 .f32)
    (u : Fin 1) (o : Fin 64) (v : Fin 128) :
    (k0_pay15 (k0_pay2 (View.ld x3 r0_0)) (k0_pay3 (View.ld x2 r0_1)) (k0_pay4 (View.ld x4 r0_2)) (k0_pay5 (View.ld x2 r0_1) (View.ld x0 r0_3) (View.ld x1 r0_4) (View.ld x1 r0_5) (View.ld x1 r0_6)) (k0_pay8 (k0_pay3 (View.ld x2 r0_1)) (k0_pay6 (View.ld x0 r0_7)) (k0_pay7 (View.ld x0 r0_7) (View.ld x1 r0_4)) (View.ld x1 r0_5) (View.ld x1 r0_6)) (k0_pay9 (k0_pay3 (View.ld x2 r0_1)) (View.ld x0 r0_8) (View.ld x1 r0_4) (View.ld x1 r0_5) (View.ld x1 r0_6)) (k0_pay10 (View.ld x0 r0_9)) (k0_pay11 (View.ld x1 r0_4)) (k0_pay12 (View.ld x0 r0_9)) (View.ld x1 r0_5) (View.ld x1 r0_6)) (ix3 u o v)
      = (∑ k : Fin 128, ysA x0 x1 x2 (ix2 o ⟨0 + k.val, by omega⟩) * wtL x3 (ix2 k v)) + blL x4 (ix2 (0 : Fin 1) v) := by
  simp only [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  exact Cert.Forms.kpiece_form dot_S256x128_S128x128_S256x128_1_0_0_1_n_n rfl rfl rfl rfl rfl rfl _ _ _ _ _ _ 0 0 (by norm_num) _ _ _ _ _ (0 : Fin 4) rfl _ rfl u o v

/-- The buffer the body leaves is the block function: every store's payload is the function at the store's rectangle,
    and the stores cover the block. -/
theorem out0_5_eq_GK (x0 : Vec Ideal S4x64x2048 .f32) (x1 : Vec Ideal S64x192 .bf16) (x2 : Vec Ideal S64x1 .f32) (x3 : Vec Ideal S128x128 .bf16)
    (x4 : Vec Ideal S1x128 .f32) : out0_5 x0 x1 x2 x3 x4 = GK x0 x1 x2 x3 x4 := by
  funext y
  unfold out0_5
  refine View.canon_apply_of_pieces (Val := Elt Ideal) (e := .f32) (GK x0 x1 x2 x3 x4) _ ?_ y (cover0_5 _ _ _ _ _ _ _ _ _ _ _ _ _ _ _ _ _ _ _ _ _ _ _ _ _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_to_G x0 x1 x2 x3 x4 3 1664 inb_S4x64x1792_S1x64x128_3_0_1664 _ (3 : Fin 4) (13 : Fin 14) rfl rfl _ rfl (piece_0 x0 x1 x2 x3 x4)
  · exact piece_to_G x0 x1 x2 x3 x4 2 1664 inb_S4x64x1792_S1x64x128_2_0_1664 _ (2 : Fin 4) (13 : Fin 14) rfl rfl _ rfl (piece_1 x0 x1 x2 x3 x4)
  · exact piece_to_G x0 x1 x2 x3 x4 1 1664 inb_S4x64x1792_S1x64x128_1_0_1664 _ (1 : Fin 4) (13 : Fin 14) rfl rfl _ rfl (piece_2 x0 x1 x2 x3 x4)
  · exact piece_to_G x0 x1 x2 x3 x4 0 1664 inb_S4x64x1792_S1x64x128_0_0_1664 _ (0 : Fin 4) (13 : Fin 14) rfl rfl _ rfl (piece_3 x0 x1 x2 x3 x4)
  · exact piece_to_G x0 x1 x2 x3 x4 3 1536 inb_S4x64x1792_S1x64x128_3_0_1536 _ (3 : Fin 4) (12 : Fin 14) rfl rfl _ rfl (piece_4 x0 x1 x2 x3 x4)
  · exact piece_to_G x0 x1 x2 x3 x4 2 1536 inb_S4x64x1792_S1x64x128_2_0_1536 _ (2 : Fin 4) (12 : Fin 14) rfl rfl _ rfl (piece_5 x0 x1 x2 x3 x4)
  · exact piece_to_G x0 x1 x2 x3 x4 1 1536 inb_S4x64x1792_S1x64x128_1_0_1536 _ (1 : Fin 4) (12 : Fin 14) rfl rfl _ rfl (piece_6 x0 x1 x2 x3 x4)
  · exact piece_to_G x0 x1 x2 x3 x4 0 1536 inb_S4x64x1792_S1x64x128_0_0_1536 _ (0 : Fin 4) (12 : Fin 14) rfl rfl _ rfl (piece_7 x0 x1 x2 x3 x4)
  · exact piece_to_G x0 x1 x2 x3 x4 3 1408 inb_S4x64x1792_S1x64x128_3_0_1408 _ (3 : Fin 4) (11 : Fin 14) rfl rfl _ rfl (piece_8 x0 x1 x2 x3 x4)
  · exact piece_to_G x0 x1 x2 x3 x4 2 1408 inb_S4x64x1792_S1x64x128_2_0_1408 _ (2 : Fin 4) (11 : Fin 14) rfl rfl _ rfl (piece_9 x0 x1 x2 x3 x4)
  · exact piece_to_G x0 x1 x2 x3 x4 1 1408 inb_S4x64x1792_S1x64x128_1_0_1408 _ (1 : Fin 4) (11 : Fin 14) rfl rfl _ rfl (piece_10 x0 x1 x2 x3 x4)
  · exact piece_to_G x0 x1 x2 x3 x4 0 1408 inb_S4x64x1792_S1x64x128_0_0_1408 _ (0 : Fin 4) (11 : Fin 14) rfl rfl _ rfl (piece_11 x0 x1 x2 x3 x4)
  · exact piece_to_G x0 x1 x2 x3 x4 3 1280 inb_S4x64x1792_S1x64x128_3_0_1280 _ (3 : Fin 4) (10 : Fin 14) rfl rfl _ rfl (piece_12 x0 x1 x2 x3 x4)
  · exact piece_to_G x0 x1 x2 x3 x4 2 1280 inb_S4x64x1792_S1x64x128_2_0_1280 _ (2 : Fin 4) (10 : Fin 14) rfl rfl _ rfl (piece_13 x0 x1 x2 x3 x4)
  · exact piece_to_G x0 x1 x2 x3 x4 1 1280 inb_S4x64x1792_S1x64x128_1_0_1280 _ (1 : Fin 4) (10 : Fin 14) rfl rfl _ rfl (piece_14 x0 x1 x2 x3 x4)
  · exact piece_to_G x0 x1 x2 x3 x4 0 1280 inb_S4x64x1792_S1x64x128_0_0_1280 _ (0 : Fin 4) (10 : Fin 14) rfl rfl _ rfl (piece_15 x0 x1 x2 x3 x4)
  · exact piece_to_G x0 x1 x2 x3 x4 3 1152 inb_S4x64x1792_S1x64x128_3_0_1152 _ (3 : Fin 4) (9 : Fin 14) rfl rfl _ rfl (piece_16 x0 x1 x2 x3 x4)
  · exact piece_to_G x0 x1 x2 x3 x4 2 1152 inb_S4x64x1792_S1x64x128_2_0_1152 _ (2 : Fin 4) (9 : Fin 14) rfl rfl _ rfl (piece_17 x0 x1 x2 x3 x4)
  · exact piece_to_G x0 x1 x2 x3 x4 1 1152 inb_S4x64x1792_S1x64x128_1_0_1152 _ (1 : Fin 4) (9 : Fin 14) rfl rfl _ rfl (piece_18 x0 x1 x2 x3 x4)
  · exact piece_to_G x0 x1 x2 x3 x4 0 1152 inb_S4x64x1792_S1x64x128_0_0_1152 _ (0 : Fin 4) (9 : Fin 14) rfl rfl _ rfl (piece_19 x0 x1 x2 x3 x4)
  · exact piece_to_G x0 x1 x2 x3 x4 3 1024 inb_S4x64x1792_S1x64x128_3_0_1024 _ (3 : Fin 4) (8 : Fin 14) rfl rfl _ rfl (piece_20 x0 x1 x2 x3 x4)
  · exact piece_to_G x0 x1 x2 x3 x4 2 1024 inb_S4x64x1792_S1x64x128_2_0_1024 _ (2 : Fin 4) (8 : Fin 14) rfl rfl _ rfl (piece_21 x0 x1 x2 x3 x4)
  · exact piece_to_G x0 x1 x2 x3 x4 1 1024 inb_S4x64x1792_S1x64x128_1_0_1024 _ (1 : Fin 4) (8 : Fin 14) rfl rfl _ rfl (piece_22 x0 x1 x2 x3 x4)
  · exact piece_to_G x0 x1 x2 x3 x4 0 1024 inb_S4x64x1792_S1x64x128_0_0_1024 _ (0 : Fin 4) (8 : Fin 14) rfl rfl _ rfl (piece_23 x0 x1 x2 x3 x4)
  · exact piece_to_G x0 x1 x2 x3 x4 3 896 inb_S4x64x1792_S1x64x128_3_0_896 _ (3 : Fin 4) (7 : Fin 14) rfl rfl _ rfl (piece_24 x0 x1 x2 x3 x4)
  · exact piece_to_G x0 x1 x2 x3 x4 2 896 inb_S4x64x1792_S1x64x128_2_0_896 _ (2 : Fin 4) (7 : Fin 14) rfl rfl _ rfl (piece_25 x0 x1 x2 x3 x4)
  · exact piece_to_G x0 x1 x2 x3 x4 1 896 inb_S4x64x1792_S1x64x128_1_0_896 _ (1 : Fin 4) (7 : Fin 14) rfl rfl _ rfl (piece_26 x0 x1 x2 x3 x4)
  · exact piece_to_G x0 x1 x2 x3 x4 0 896 inb_S4x64x1792_S1x64x128_0_0_896 _ (0 : Fin 4) (7 : Fin 14) rfl rfl _ rfl (piece_27 x0 x1 x2 x3 x4)
  · exact piece_to_G x0 x1 x2 x3 x4 3 768 inb_S4x64x1792_S1x64x128_3_0_768 _ (3 : Fin 4) (6 : Fin 14) rfl rfl _ rfl (piece_28 x0 x1 x2 x3 x4)
  · exact piece_to_G x0 x1 x2 x3 x4 2 768 inb_S4x64x1792_S1x64x128_2_0_768 _ (2 : Fin 4) (6 : Fin 14) rfl rfl _ rfl (piece_29 x0 x1 x2 x3 x4)
  · exact piece_to_G x0 x1 x2 x3 x4 1 768 inb_S4x64x1792_S1x64x128_1_0_768 _ (1 : Fin 4) (6 : Fin 14) rfl rfl _ rfl (piece_30 x0 x1 x2 x3 x4)
  · exact piece_to_G x0 x1 x2 x3 x4 0 768 inb_S4x64x1792_S1x64x128_0_0_768 _ (0 : Fin 4) (6 : Fin 14) rfl rfl _ rfl (piece_31 x0 x1 x2 x3 x4)
  · exact piece_to_G x0 x1 x2 x3 x4 3 640 inb_S4x64x1792_S1x64x128_3_0_640 _ (3 : Fin 4) (5 : Fin 14) rfl rfl _ rfl (piece_32 x0 x1 x2 x3 x4)
  · exact piece_to_G x0 x1 x2 x3 x4 2 640 inb_S4x64x1792_S1x64x128_2_0_640 _ (2 : Fin 4) (5 : Fin 14) rfl rfl _ rfl (piece_33 x0 x1 x2 x3 x4)
  · exact piece_to_G x0 x1 x2 x3 x4 1 640 inb_S4x64x1792_S1x64x128_1_0_640 _ (1 : Fin 4) (5 : Fin 14) rfl rfl _ rfl (piece_34 x0 x1 x2 x3 x4)
  · exact piece_to_G x0 x1 x2 x3 x4 0 640 inb_S4x64x1792_S1x64x128_0_0_640 _ (0 : Fin 4) (5 : Fin 14) rfl rfl _ rfl (piece_35 x0 x1 x2 x3 x4)
  · exact piece_to_G x0 x1 x2 x3 x4 3 512 inb_S4x64x1792_S1x64x128_3_0_512 _ (3 : Fin 4) (4 : Fin 14) rfl rfl _ rfl (piece_36 x0 x1 x2 x3 x4)
  · exact piece_to_G x0 x1 x2 x3 x4 2 512 inb_S4x64x1792_S1x64x128_2_0_512 _ (2 : Fin 4) (4 : Fin 14) rfl rfl _ rfl (piece_37 x0 x1 x2 x3 x4)
  · exact piece_to_G x0 x1 x2 x3 x4 1 512 inb_S4x64x1792_S1x64x128_1_0_512 _ (1 : Fin 4) (4 : Fin 14) rfl rfl _ rfl (piece_38 x0 x1 x2 x3 x4)
  · exact piece_to_G x0 x1 x2 x3 x4 0 512 inb_S4x64x1792_S1x64x128_0_0_512 _ (0 : Fin 4) (4 : Fin 14) rfl rfl _ rfl (piece_39 x0 x1 x2 x3 x4)
  · exact piece_to_G x0 x1 x2 x3 x4 3 384 inb_S4x64x1792_S1x64x128_3_0_384 _ (3 : Fin 4) (3 : Fin 14) rfl rfl _ rfl (piece_40 x0 x1 x2 x3 x4)
  · exact piece_to_G x0 x1 x2 x3 x4 2 384 inb_S4x64x1792_S1x64x128_2_0_384 _ (2 : Fin 4) (3 : Fin 14) rfl rfl _ rfl (piece_41 x0 x1 x2 x3 x4)
  · exact piece_to_G x0 x1 x2 x3 x4 1 384 inb_S4x64x1792_S1x64x128_1_0_384 _ (1 : Fin 4) (3 : Fin 14) rfl rfl _ rfl (piece_42 x0 x1 x2 x3 x4)
  · exact piece_to_G x0 x1 x2 x3 x4 0 384 inb_S4x64x1792_S1x64x128_0_0_384 _ (0 : Fin 4) (3 : Fin 14) rfl rfl _ rfl (piece_43 x0 x1 x2 x3 x4)
  · exact piece_to_G x0 x1 x2 x3 x4 3 256 inb_S4x64x1792_S1x64x128_3_0_256 _ (3 : Fin 4) (2 : Fin 14) rfl rfl _ rfl (piece_44 x0 x1 x2 x3 x4)
  · exact piece_to_G x0 x1 x2 x3 x4 2 256 inb_S4x64x1792_S1x64x128_2_0_256 _ (2 : Fin 4) (2 : Fin 14) rfl rfl _ rfl (piece_45 x0 x1 x2 x3 x4)
  · exact piece_to_G x0 x1 x2 x3 x4 1 256 inb_S4x64x1792_S1x64x128_1_0_256 _ (1 : Fin 4) (2 : Fin 14) rfl rfl _ rfl (piece_46 x0 x1 x2 x3 x4)
  · exact piece_to_G x0 x1 x2 x3 x4 0 256 inb_S4x64x1792_S1x64x128_0_0_256 _ (0 : Fin 4) (2 : Fin 14) rfl rfl _ rfl (piece_47 x0 x1 x2 x3 x4)
  · exact piece_to_G x0 x1 x2 x3 x4 3 128 inb_S4x64x1792_S1x64x128_3_0_128 _ (3 : Fin 4) (1 : Fin 14) rfl rfl _ rfl (piece_48 x0 x1 x2 x3 x4)
  · exact piece_to_G x0 x1 x2 x3 x4 2 128 inb_S4x64x1792_S1x64x128_2_0_128 _ (2 : Fin 4) (1 : Fin 14) rfl rfl _ rfl (piece_49 x0 x1 x2 x3 x4)
  · exact piece_to_G x0 x1 x2 x3 x4 1 128 inb_S4x64x1792_S1x64x128_1_0_128 _ (1 : Fin 4) (1 : Fin 14) rfl rfl _ rfl (piece_50 x0 x1 x2 x3 x4)
  · exact piece_to_G x0 x1 x2 x3 x4 0 128 inb_S4x64x1792_S1x64x128_0_0_128 _ (0 : Fin 4) (1 : Fin 14) rfl rfl _ rfl (piece_51 x0 x1 x2 x3 x4)
  · exact piece_to_G x0 x1 x2 x3 x4 3 0 inb_S4x64x1792_S1x64x128_3_0_0 _ (3 : Fin 4) (0 : Fin 14) rfl rfl _ rfl (piece_52 x0 x1 x2 x3 x4)
  · exact piece_to_G x0 x1 x2 x3 x4 2 0 inb_S4x64x1792_S1x64x128_2_0_0 _ (2 : Fin 4) (0 : Fin 14) rfl rfl _ rfl (piece_53 x0 x1 x2 x3 x4)
  · exact piece_to_G x0 x1 x2 x3 x4 1 0 inb_S4x64x1792_S1x64x128_1_0_0 _ (1 : Fin 4) (0 : Fin 14) rfl rfl _ rfl (piece_54 x0 x1 x2 x3 x4)
  · exact piece_to_G x0 x1 x2 x3 x4 0 0 inb_S4x64x1792_S1x64x128_0_0_0 _ (0 : Fin 4) (0 : Fin 14) rfl rfl _ rfl (piece_55 x0 x1 x2 x3 x4)

end Cert.KernelIdeal.HandValue

end
-- ==== Proof.KernelArray.lean ====
/-
  The kernel's output array and result.

  At grid point `t` the pipeline hands the body batches 4 t … 4 t + 3 of the flat input and the whole of the other four
  arrays, and writes the body's block back as rows 4 t … 4 t + 3 of the output array. The body's block is the vertex map
  of the four batches' convolution rows, so the output array is `Spec.arrK` of the arrays the region finds; every row
  lies in exactly the block of point `row / 4`. The program's result is that array re-laid [64, 64, 1792] → [64, 64, 14, 128].
-/
import proofs.«139804_g2000702422467796_pallasbulk_817_2_alg».proof.Proof.KernelPieces
import Idealize.ShloMosaic.Lib.StableHlo.Run

set_option maxRecDepth 16384

noncomputable section

open scoped BigOperators

namespace Cert.KernelIdeal.HandValue

open Idealize.ShloMosaic Idealize.ShloMosaic.TcCoe Idealize.ShloMosaic.ValueIdx Cert.KernelIdeal Cert.KernelIdeal.Gen
open Idealize.SL Idealize.SL.Sem

variable (m : (ℓ : Loc nD τ sig) → Buf (Elt Ideal) ℓ) (ρ : Dev nD → PrngReg)

/-- The printed index maps over the grid: windows 0 and 5 move with the point along the batch axis, the others stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The block function of blocks cut from whole arrays -/

/-- If the five loaded blocks are the restrictions of whole arrays (the input's to batches 4 g … 4 g + 3), the body's block
    at (b, o, n) is the output array's function at (4 g + b, o, n). -/
theorem GK_of_blocks (x0 : Vec Ideal S4x64x2048 .f32) (x1 : Vec Ideal S64x192 .bf16) (x2 : Vec Ideal S64x1 .f32)
    (x3 : Vec Ideal S128x128 .bf16) (x4 : Vec Ideal S1x128 .f32)
    (X2 : (⟨3, ![64, 64, 2048]⟩ : Shape).Idx → EReal) (Wm : (⟨2, ![64, 192]⟩ : Shape).Idx → EReal)
    (B2 : (⟨2, ![64, 1]⟩ : Shape).Idx → EReal) (WT : (⟨2, ![128, 128]⟩ : Shape).Idx → EReal)
    (BL : (⟨2, ![1, 128]⟩ : Shape).Idx → EReal) (g : Nat) (hg : g < 16)
    (h0 : ∀ (b : Fin 4) (ch : Fin 64) (k : Fin 2048), x0 (ix3 b ch k) = X2 (ix3 (⟨4 * g + b.val, by omega⟩ : Fin 64) ch k))
    (h1 : ∀ (o : Fin 64) (j : Fin 192), x1 (ix2 o j) = Wm (ix2 o j))
    (h2 : ∀ o : Fin 64, x2 (ix2 o (0 : Fin 1)) = B2 (ix2 o (0 : Fin 1)))
    (h3 : ∀ u v : Fin 128, x3 (ix2 u v) = WT (ix2 u v))
    (h4 : ∀ v : Fin 128, x4 (ix2 (0 : Fin 1) v) = BL (ix2 (0 : Fin 1) v))
    (b : Fin 4) (o : Fin 64) (n : Fin 1792) (bb : Fin 64) (hbb : bb.val = 4 * g + b.val) :
    GKc x0 x1 x2 x3 x4 b o n
      = Cert.Spec.vmap (Cert.Spec.convK X2 Wm B2 bb o) WT BL ⟨n.val / 128, by have h := n.isLt; omega⟩
          ⟨n.val % 128, Nat.mod_lt _ (by norm_num)⟩ := by
  unfold GKc
  have hlt : 4 * g + b.val < 64 := by have hb4 := b.isLt; omega
  obtain rfl : bb = ⟨4 * g + b.val, hlt⟩ := Fin.ext hbb
  have hrow : ∀ n' : Fin 1792, ysSel x0 x1 x2 b (ix2 o n') = Cert.Spec.convK X2 Wm B2 ⟨4 * g + b.val, hlt⟩ o n' := by
    intro n'
    have hc : ysSel x0 x1 x2 b (ix2 o n') = convBlk x0 x1 x2 b o n' := by
      match b with
      | ⟨0, _⟩ => exact ysA_apply x0 x1 x2 o n'
      | ⟨1, _⟩ => exact ysB_apply x0 x1 x2 o n'
      | ⟨2, _⟩ => exact ysC_apply x0 x1 x2 o n'
      | ⟨3, _⟩ => exact ysD_apply x0 x1 x2 o n'
    rw [hc]
    unfold convBlk Cert.Spec.convK
    simp only [h0, h1, h2]
  have hwt : ∀ k v : Fin 128, wtL x3 (ix2 k v) = WT (ix2 k v) := by
    intro k v
    refine (congrFun (shapeCast_self (s := S128x128) (View.ld x3 r0_0) shapeCasts_S128x128_S128x128) (ix2 k v)).trans ?_
    rw [← h3 k v]
    exact Cert.Forms.ld_unit_apply x3 _ _ _ _ _ (fun a => by
      match a with
      | ⟨0, _⟩ => show k.val = 0 + k.val; omega
      | ⟨1, _⟩ => show v.val = 0 + v.val; omega)
  have hbl : ∀ v : Fin 128, blL x4 (ix2 (0 : Fin 1) v) = BL (ix2 (0 : Fin 1) v) := by
    intro v
    refine (congrFun (shapeCast_self (s := S1x128) (View.ld x4 r0_2) shapeCasts_S1x128_S1x128) (ix2 (0 : Fin 1) v)).trans ?_
    rw [← h4 v]
    exact Cert.Forms.ld_unit_apply x4 _ _ _ _ _ (fun a => by
      match a with
      | ⟨0, _⟩ => show (0 : Nat) = 0 + 0; omega
      | ⟨1, _⟩ => show v.val = 0 + v.val; omega)
  unfold Cert.Spec.vmap
  simp only [hrow, hwt, hbl]

/-! ## The windows' blocks at a point -/

theorem blk0_read (c : Dev nD) (t : Fin cfg0.N) (b : Fin 4) (ch : Fin 64) (k : Fin 2048) (ht : t.val < 16) :
    iblk m c 0 t (ix3 b ch k) = V m c main_v0 (ix3 (⟨4 * t.val + b.val, by omega⟩ : Fin 64) ch k) := by
  obtain ⟨e0, e1, e2, -⟩ := idx_facts t
  show V m c main_v0 (((cfg0.win 0).blk t).view.emb (ix3 b ch k)) = _
  refine congrArg _ (funext fun a => Fin.ext ?_)
  match a with
  | ⟨0, _⟩ => show win0_0.index t (0 : Fin 3) * 4 + 1 * b.val = 4 * t.val + b.val; omega
  | ⟨1, _⟩ => show win0_0.index t (1 : Fin 3) * 64 + 1 * ch.val = ch.val; omega
  | ⟨2, _⟩ => show win0_0.index t (2 : Fin 3) * 2048 + 1 * k.val = k.val; omega

theorem blk1_read (c : Dev nD) (t : Fin cfg0.N) (o : Fin 64) (j : Fin 192) :
    iblk m c 1 t (ix2 o j) = V m c main_v4 (ix2 o j) := by
  obtain ⟨-, -, -, e0, e1, -⟩ := idx_facts t
  show V m c main_v4 (((cfg0.win 1).blk t).view.emb (ix2 o j)) = _
  refine congrArg _ (funext fun a => Fin.ext ?_)
  match a with
  | ⟨0, _⟩ => show win0_1.index t (0 : Fin 2) * 64 + 1 * o.val = o.val; omega
  | ⟨1, _⟩ => show win0_1.index t (1 : Fin 2) * 192 + 1 * j.val = j.val; omega

theorem blk2_read (c : Dev nD) (t : Fin cfg0.N) (o : Fin 64) :
    iblk m c 2 t (ix2 o (0 : Fin 1)) = V m c main_v5 (ix2 o (0 : Fin 1)) := by
  obtain ⟨-, -, -, -, -, e0, e1, -⟩ := idx_facts t
  show V m c main_v5 (((cfg0.win 2).blk t).view.emb (ix2 o (0 : Fin 1))) = _
  refine congrArg _ (funext fun a => Fin.ext ?_)
  match a with
  | ⟨0, _⟩ => show win0_2.index t (0 : Fin 2) * 64 + 1 * o.val = o.val; omega
  | ⟨1, _⟩ => show win0_2.index t (1 : Fin 2) * 1 + 1 * 0 = 0; omega

theorem blk3_read (c : Dev nD) (t : Fin cfg0.N) (u v : Fin 128) :
    iblk m c 3 t (ix2 u v) = V m c main_v7 (ix2 u v) := by
  obtain ⟨-, -, -, -, -, -, -, e0, e1, -⟩ := idx_facts t
  show V m c main_v7 (((cfg0.win 3).blk t).view.emb (ix2 u v)) = _
  refine congrArg _ (funext fun a => Fin.ext ?_)
  match a with
  | ⟨0, _⟩ => show win0_3.index t (0 : Fin 2) * 128 + 1 * u.val = u.val; omega
  | ⟨1, _⟩ => show win0_3.index t (1 : Fin 2) * 128 + 1 * v.val = v.val; omega

theorem blk4_read (c : Dev nD) (t : Fin cfg0.N) (v : Fin 128) :
    iblk m c 4 t (ix2 (0 : Fin 1) v) = V m c main_v8 (ix2 (0 : Fin 1) v) := by
  obtain ⟨-, -, -, -, -, -, -, -, -, e0, e1, -⟩ := idx_facts t
  show V m c main_v8 (((cfg0.win 4).blk t).view.emb (ix2 (0 : Fin 1) v)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * v.val = v.val; omega

/-- The output array of the arrays the region finds. -/
abbrev outArr (c : Dev nD) : (⟨3, ![64, 64, 1792]⟩ : Shape).Idx → EReal :=
  Cert.Spec.arrK (V m c main_v0) (V m c main_v4) (V m c main_v5) (V m c main_v7) (V m c main_v8)

/-- What point `t` writes back is block `t` of the output array's function. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5, out0_5_eq_GK]
  have ht : t.val < 16 := by have h : t.val < grid0.N := t.isLt; rw [N_0] at h; exact h
  obtain ⟨-, -, -, -, -, -, -, -, -, -, -, e0, e1, e2⟩ := idx_facts t
  funext j
  obtain ⟨b, o, n, rfl⟩ : ∃ (b : Fin 4) (o : Fin 64) (n : Fin 1792), j = ix3 b o n := ⟨j 0, j 1, j 2, eq_ix3 j⟩
  show GKc (iblk m c 0 t) (iblk m c 1 t) (iblk m c 2 t) (iblk m c 3 t) (iblk m c 4 t) b o n
    = outArr m c (((cfg0.win 5).blk t).view.emb (ix3 b o n))
  have hemb : ((cfg0.win 5).blk t).view.emb (ix3 b o n) = ix3 (⟨4 * t.val + b.val, by omega⟩ : Fin 64) o n := by
    funext a; apply Fin.ext
    match a with
    | ⟨0, _⟩ => show win0_5.index t (0 : Fin 3) * 4 + 1 * b.val = 4 * t.val + b.val; omega
    | ⟨1, _⟩ => show win0_5.index t (1 : Fin 3) * 64 + 1 * o.val = o.val; omega
    | ⟨2, _⟩ => show win0_5.index t (2 : Fin 3) * 1792 + 1 * n.val = n.val; omega
  rw [hemb]
  exact GK_of_blocks (iblk m c 0 t) (iblk m c 1 t) (iblk m c 2 t) (iblk m c 3 t) (iblk m c 4 t)
    (V m c main_v0) (V m c main_v4) (V m c main_v5) (V m c main_v7) (V m c main_v8) t.val ht
    (fun b ch k => blk0_read m c t b ch k ht) (blk1_read m c t) (blk2_read m c t) (blk3_read m c t) (blk4_read m c t)
    b o n ⟨4 * t.val + b.val, by omega⟩ rfl

/-- An index of the output array is in point `t`'s block iff each coordinate is in the block's range on its axis. -/
theorem mem_blk5 (t : Fin cfg0.N) (i : S64x64x1792.Idx) :
    i ∈ ((cfg0.win 5).blk t).view.set ↔ ∀ a : Fin 3, win0_5.index t a * S4x64x1792.size a ≤ (i a).val
      ∧ (i a).val < win0_5.index t a * S4x64x1792.size a + S4x64x1792.size a := by
  show i ∈ ((View.whole main_v9).slice (win0_5.rect t)).set ↔ _
  rw [View.set_slice_whole, Rect.mem_set_unit]
  exact Iff.rfl

/-- Every index of the output array lies in the block of the point that holds its batch. -/
theorem cover5 (i : S64x64x1792.Idx) :
    ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 1792 := (i 2).isLt
  have hN : grid0.N = 16 := N_0
  let t : Fin cfg0.N := ⟨(i 0).val / 4, by show (i 0).val / 4 < grid0.N; omega⟩
  obtain ⟨-, -, -, -, -, -, -, -, -, -, -, e0, e1, e2⟩ := idx_facts t
  have e0' : win0_5.index t (0 : Fin 3) = (i 0).val / 4 := e0
  refine ⟨t, flush0_5 t, ?_⟩
  rw [mem_blk5]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 64 ≤ (i 1).val ∧ (i 1).val < win0_5.index t (1 : Fin 3) * 64 + 64; omega
  | ⟨2, _⟩ => show win0_5.index t (2 : Fin 3) * 1792 ≤ (i 2).val ∧ (i 2).val < win0_5.index t (2 : Fin 3) * 1792 + 1792; omega

/-- The output array after the run. -/
theorem kernel_array (c : Dev nD) : (dats m 0 c).arrAt 5 cfg0.N = outArr m c :=
  (dats m 0 c).arrAt_eq_of_cover 5 (outArr m c) (fun t _ => flushed_eq m c t) cover5

/-- The result buffer after the host line that follows the region: the output array re-laid. -/
theorem tail_v10 (c : Dev nD) :
    Pipeline.afterTail₀ cfgs (dats m) 0 (V0 m) [hostOps1] c main_v10
      = shapeCast S64x64x14x128 (outArr m c) shapeCasts_S64x64x1792_S64x64x14x128 := by
  unfold Pipeline.afterTail₀
  show StableHlo.after hostOps1 _ (Proc.devRef .tc main_v10) = _
  after_results
  rw [Pipeline.withArrays_arr spec0 launch0.win.arr_inj c _ _ 5, kernel_array]
  rfl

/-- The kernel's run: the result is the output array re-laid, and the arguments end unchanged. -/
theorem kernel_result : θ_run defs (onTc (τ := τ) (main (F := Ideal))) ⟨m, fun _ => 0, ρ⟩ (fun r => ∀ c : Dev nD,
      r.2.mem ((c.tc : Thread nD τ).loc main_v10) = shapeCast S64x64x14x128 (outArr m c) shapeCasts_S64x64x1792_S64x64x14x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (tail_v10 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.HandValue

end
-- ==== Proof.RefFrame.lean ====
/- The frame run of the reference program: @main is nineteen host operations, one pipelined region over a grid of
   64 points (one batch element each), and one host reshape. This file fixes what the region finds in its arrays
   when it is entered, what each window's block is at a grid point, what the body leaves in the output window's
   staging buffer (one store of the whole block), the body's triple, and from these the run of @main to the
   library's frame post and the frame claim: the five argument arrays end as they were launched. Everything is
   stated for any float instance. It builds on the generated modules of the reference program only. -/
import proofs.«139804_g2000702422467796_pallasbulk_817_2_alg».proof.Proof.Gen.ReferenceIdeal.Launch
import proofs.«139804_g2000702422467796_pallasbulk_817_2_alg».proof.Proof.Gen.ReferenceIdeal.Skeleton
import proofs.«139804_g2000702422467796_pallasbulk_817_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the launch memory carried through the host
    operations that precede the region (the three shifted slices of the input and their concatenation and
    flattening, the re-layout of the convolution weight and bias, and the two scatters over zero arrays). -/
abbrev V0 (c : Dev nD) : Valuation τ sig (Elt F) := StableHlo.after (List.flatten [hostOps0]) (fun b => m (c, b))
/-- The same contents read at one reference of the core. -/
abbrev V (c : Dev nD) (b : Ref sig .tc) : Buf (Elt F) ((c : Thread nD τ).loc b) := V0 m c (Proc.devRef .tc b)

/-- No host operation before the region allocates a buffer. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- @main is its host prefix, the region, and its host suffix: so a run of @main is a run of the region from the
    contents `V`, continued by the suffix. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The suffix touches only unscoped references of the core: each is an array of the pipeline or a buffer that
    bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- The suffix allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The suffix writes no array of the pipeline: its one operation writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the operation after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the operation after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the operation after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does the operation after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at grid point `t`: the part of its array, as the region finds it, that the window's index
    map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not the block was fetched
    there (an unfetched window's index has not moved), for any proof data over the arrays `V` whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not the block was fetched
    there (an unfetched window's index has not moved), for any proof data over the arrays `V` whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not the block was fetched
    there (an unfetched window's index has not moved), for any proof data over the arrays `V` whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not the block was fetched
    there (an unfetched window's index has not moved), for any proof data over the arrays `V` whose body leaves the
    block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not the block was fetched
    there (an unfetched window's index has not moved), for any proof data over the arrays `V` whose body leaves the
    block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the arrays `V`, a run of @main to the library's frame post gives the frame claim's post:
    each argument array bypasses the pipeline, so it ends as the suffix leaves it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c))⟩) h

/-! ## The body's accesses -/

/-- The all-zero offsets, as the functions they are. -/
theorem zeros2 : (![0, 0] : Fin 2 → ℕ) = fun _ => 0 := by funext a; fin_cases a <;> rfl
theorem zeros3 : (![0, 0, 0] : Fin 3 → ℕ) = fun _ => 0 := by funext a; fin_cases a <;> rfl

/-- Every access of the body is through the whole of a staging buffer: the rectangle at zero offsets of the buffer's
    own extents. In program order: the weight matrix, the bias column, the linear matrix, the linear bias row, the
    unfolded input block, and the output block. -/
abbrev r0_0 : Rect S64x192 := Rect.unit (s := S64x192) ![0, 0] S64x192.size inb_S64x192_S64x192_0_0
abbrev r0_1 : Rect S64x1 := Rect.unit (s := S64x1) ![0, 0] S64x1.size inb_S64x1_S64x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0
abbrev r0_4 : Rect S1x192x1792 := Rect.unit (s := S1x192x1792) ![0, 0, 0] S1x192x1792.size inb_S1x192x1792_S1x192x1792_0_0_0
abbrev r0_5 : Rect S1x64x1792 := Rect.unit (s := S1x64x1792) ![0, 0, 0] S1x64x1792.size inb_S1x64x1792_S1x64x1792_0_0_0

/-! ## What the body leaves in the output window's buffer -/

/-- The output window's staging buffer after the body, from the five input blocks: its one store, of the whole block,
    as a single piece. The payload is the skeleton's: the 64×1792 product of the weight matrix with the unfolded
    input plus the bias column, cut into fourteen 64×128 column tiles, each multiplied by the linear matrix and
    shifted by the linear bias row, and the tiles set side by side again. -/
def out0_5 (x0 : Vec F S1x192x1792 .f32) (x1 : Vec F S64x192 .f32) (x2 : Vec F S64x1 .f32) (x3 : Vec F S128x128 .f32) (x4 : Vec F S1x128 .f32) : Vec F S1x64x1792 .f32 :=
  View.canon [⟨r0_5, k0_pay1 (k0_pay2 (View.ld x3 r0_2)) (k0_pay3 (View.ld x4 r0_3)) (k0_pay4 (View.ld x1 r0_0) (View.ld x2 r0_1) (View.ld x0 r0_4)) (k0_pay5 (View.ld x1 r0_0) (View.ld x2 r0_1) (View.ld x3 r0_2) (View.ld x4 r0_3) (View.ld x0 r0_4)) (k0_pay6 (View.ld x1 r0_0) (View.ld x2 r0_1) (View.ld x3 r0_2) (View.ld x4 r0_3) (View.ld x0 r0_4)) (k0_pay7 (View.ld x1 r0_0) (View.ld x2 r0_1) (View.ld x3 r0_2) (View.ld x4 r0_3) (View.ld x0 r0_4)) (k0_pay8 (View.ld x1 r0_0) (View.ld x2 r0_1) (View.ld x3 r0_2) (View.ld x4 r0_3) (View.ld x0 r0_4)) (k0_pay9 (View.ld x1 r0_0) (View.ld x2 r0_1) (View.ld x3 r0_2) (View.ld x4 r0_3) (View.ld x0 r0_4)) (k0_pay10 (View.ld x1 r0_0) (View.ld x2 r0_1) (View.ld x3 r0_2) (View.ld x4 r0_3) (View.ld x0 r0_4)) (k0_pay11 (View.ld x1 r0_0) (View.ld x2 r0_1) (View.ld x3 r0_2) (View.ld x0 r0_4)) (k0_pay12 (View.ld x4 r0_3))⟩]

/-- The one piece is the whole buffer, so it covers it. -/
theorem cover0_5 (p0 : Vec F S1x64x1792 .f32) (y : S1x64x1792.Idx) :
    ∃ pc ∈ ([⟨r0_5, p0⟩] : List (View.Piece (Elt F) S1x64x1792 .f32)), y ∈ pc.1.set :=
  ⟨_, List.mem_singleton_self _, View.mem_set_unit_zero (S := S1x64x1792) zeros3 inb_S1x64x1792_S1x64x1792_0_0_0 y⟩

/-- A load through the whole of a buffer reads its contents and one store through the whole of a buffer leaves its
    payload: so the buffer ends at the payload of the input blocks themselves. -/
theorem out0_5_eq (x0 : Vec F S1x192x1792 .f32) (x1 : Vec F S64x192 .f32) (x2 : Vec F S64x1 .f32) (x3 : Vec F S128x128 .f32) (x4 : Vec F S1x128 .f32) :
    out0_5 x0 x1 x2 x3 x4 = k0_pay1 (k0_pay2 x3) (k0_pay3 x4) (k0_pay4 x1 x2 x0) (k0_pay5 x1 x2 x3 x4 x0) (k0_pay6 x1 x2 x3 x4 x0) (k0_pay7 x1 x2 x3 x4 x0) (k0_pay8 x1 x2 x3 x4 x0) (k0_pay9 x1 x2 x3 x4 x0) (k0_pay10 x1 x2 x3 x4 x0) (k0_pay11 x1 x2 x3 x0) (k0_pay12 x4) := by
  unfold out0_5
  rw [View.canon_unit_zero (S := S1x64x1792) zeros3 inb_S1x64x1792_S1x64x1792_0_0_0,
    View.ld_unit_zero (S := S64x192) zeros2 inb_S64x192_S64x192_0_0 x1,
    View.ld_unit_zero (S := S64x1) zeros2 inb_S64x1_S64x1_0_0 x2,
    View.ld_unit_zero (S := S128x128) zeros2 inb_S128x128_S128x128_0_0 x3,
    View.ld_unit_zero (S := S1x128) zeros2 inb_S1x128_S1x128_0_0 x4,
    View.ld_unit_zero (S := S1x192x1792) zeros3 inb_S1x192x1792_S1x192x1792_0_0_0 x0]

/-! ## The body's triple -/

set_option maxHeartbeats 1653400 in
/-- The body on whole staging buffers, the five inputs' holding `x0 … x4` and the output's holding anything, runs to
    the continuation with the inputs' as they were and the output's at `out0_5` of them. The body reads the five
    inputs, reads the output buffer (a value it never uses, so whatever the buffer holds will do), and stores the
    payload through the whole output block. -/
theorem sound_kernel (c : Dev nD) (E : Set ℕ) (i : grid0.Coords) (arg1 : Memref sig .tc .vmem S1x192x1792 .f32) (harg1 : arg1.IsWhole) (arg2 : Memref sig .tc .vmem S64x192 .f32) (harg2 : arg2.IsWhole) (arg3 : Memref sig .tc .vmem S64x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x64x1792 .f32) (harg6 : arg6.IsWhole)
    (x0 : Vec F S1x192x1792 .f32) (x1 : Vec F S64x192 .f32) (x2 : Vec F S64x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__kernel_body i arg1 harg1 arg2 harg2 arg3 harg3 arg4 harg4 arg5 harg5 arg6 harg6) K := by
  simp only [cc0__kernel_body_eq_skeleton]; unfold cc0__kernel_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The proof data of the one pipeline on core `c`: the arrays as the region finds them; after the body at point
    `t` each input's buffer at its block and the output's at `out0_5` of the input blocks; the invariant that the
    scoped rest and the generator register are untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (the definition projected; `V` itself is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has each array of the pipeline at what the library computes
    from the proof data and every other unscoped buffer as the host operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of the reference program, at any float instance: @main runs, and the five argument arrays end as
    they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.ReferenceIdeal.Hand

end
-- ==== Proof.RefValue.lean ====
/- The reference body's one store at an entry, at the ideal instance: the output block at unit index `u`, channel `o`,
   time `t` and vertex `v` is the vertex map, at `(t, v)`, of the convolution row of channel `o` — the weight row against
   a column of the unfolded input block plus the channel's bias. The block is fourteen 64 x 128 tiles side by side, tile
   `t` the product of the row block's columns [128 t, 128 t + 128) with the vertex matrix plus the row bias. -/
import proofs.«139804_g2000702422467796_pallasbulk_817_2_alg».proof.Proof.RefFrame
import proofs.«139804_g2000702422467796_pallasbulk_817_2_alg».proof.Proof.Spec
import proofs.«139804_g2000702422467796_pallasbulk_817_2_alg».proof.Proof.LibMatmulNN
import proofs.«139804_g2000702422467796_pallasbulk_817_2_alg».proof.Proof.LibAffineBlock
import proofs.«139804_g2000702422467796_pallasbulk_817_2_alg».proof.Proof.LibColumnForms
import Idealize.ShloMosaic.Lib.ValueLayout
import Idealize.ShloMosaic.Lib.Pipeline.Value

set_option maxRecDepth 16384

noncomputable section

open scoped BigOperators

namespace Cert.ReferenceIdeal.HandValue

open Cert.ReferenceIdeal.Gen
open Idealize.ShloMosaic Idealize.ShloMosaic.TcCoe Idealize.ShloMosaic.ValueIdx
open Idealize.SL Idealize.SL.Sem
open Idealize.ShloMosaic.Pipeline (Dat Cfg Window)

/-! ## The output block at an entry -/

/-- The convolution row block at an entry: the weight row against the column of the unfolded input, plus the bias
    of the row (a plain 64×192 by 192×1792 product into zero, plus a column broadcast along the rows). -/
theorem pay4_apply (x1 : Vec Ideal S64x192 .f32) (x2 : Vec Ideal S64x1 .f32) (x0 : Vec Ideal S1x192x1792 .f32)
    (o : Fin 64) (n : Fin 1792) :
    k0_pay4 x1 x2 x0 (ix2 o n) = (∑ j : Fin 192, x1 (ix2 o j) * x0 (ix3 (0 : Fin 1) j n)) + x2 (ix2 o (0 : Fin 1)) := by
  unfold k0_pay4
  refine (addf_apply _ _ _).trans ?_
  rw [Cert.LibMatmulNN.matmul_zero_apply' (M := 64) (K := 192) (N := 1792) dot_S64x192_S192x1792_S64x1792_1_0_0_1_n_n rfl rfl rfl rfl rfl rfl none _ _ o n,
    Cert.Lib.ColumnForms.broadcastTo_a1_ab_apply (a := 64) (b := 1792) _ broadcasts_S64x1_S64x1792 o n]
  simp only [shapeCast_self]
  refine congrArg₂ (· + ·) (Finset.sum_congr rfl fun j _ => ?_) rfl
  rw [shapeCast_1ab_ab_apply (a := 192) (b := 1792) x0 shapeCasts_S1x192x1792_S192x1792 j n]

/-- One 64×128 column tile of the output: the tile of the row block cut from column `off`, times the linear matrix,
    plus the linear bias row. -/
theorem tile_apply (x0 : Vec Ideal S1x192x1792 .f32) (x1 : Vec Ideal S64x192 .f32) (x2 : Vec Ideal S64x1 .f32)
    (x3 : Vec Ideal S128x128 .f32) (x4 : Vec Ideal S1x128 .f32) (off : Nat) (hoff : off + 128 ≤ 1792)
    (hs : S64x1792.Slices ![0, off] S64x128) (o : Fin 64) (v : Fin 128) :
    addf (matmul dot_S64x128_S128x128_S64x128_1_0_0_1_n_n none (extractStridedSlice S64x128 ![0, off] (k0_pay4 x1 x2 x0) hs) (k0_pay2 x3)
        (constant (F := Ideal) S64x128 .f32 0x00000000#32)) (broadcastTo S64x128 (k0_pay3 x4) broadcasts_S1x128_S64x128) (ix2 o v)
      = (∑ k : Fin 128, ((∑ j : Fin 192, x1 (ix2 o j) * x0 (ix3 (0 : Fin 1) j (⟨off + k.val, by omega⟩ : Fin 1792))) + x2 (ix2 o (0 : Fin 1)))
          * x3 (ix2 k v)) + x4 (ix2 (0 : Fin 1) v) := by
  rw [Cert.LibAffineBlock.affine_apply (M := 64) (K := 128) (N := 128) dot_S64x128_S128x128_S64x128_1_0_0_1_n_n rfl rfl rfl rfl rfl rfl none _ _ _ broadcasts_S1x128_S64x128 o v]
  unfold k0_pay2 k0_pay3
  simp only [shapeCast_self]
  refine congrArg₂ (· + ·) (Finset.sum_congr rfl fun k _ => ?_) rfl
  rw [slice2_axis1_apply (n0 := 64) (n1 := 1792) (m := 128) off (k0_pay4 x1 x2 x0) hs o k ⟨off + k.val, by omega⟩ rfl, pay4_apply]

/-- Off the concatenation axis, a tile's index and the row's agree. -/
theorem off_axis (o : Fin 64) (v : Fin 128) (n : Fin 1792) :
    ∀ b : Fin S64x128.rank, b.cast (rfl : S64x128.rank = S64x1792.rank) ≠ (1 : Fin 2) →
      ((ix2 o v : S64x128.Idx) b).val = ((ix2 o n : S64x1792.Idx) (b.cast rfl)).val := fun b hb => by
  match b with
  | ⟨0, _⟩ => rfl
  | ⟨1, _⟩ => exact absurd rfl hb

/-- A 64×128 tile spans 128 columns. -/
theorem tile_cols : (if h : S64x128.rank = S64x1792.rank then S64x128.size ((1 : Fin S64x1792.rank).cast h.symm) else 0) = 128 := by decide

/-- Fourteen 64×128 tiles set side by side along the columns, read at row `o` and column `128 k + v`, when entry `k` of
    the list is the tile `p`: the tiles before it span `128 k` columns, so the value is `p` at `(o, v)`. -/
theorem conc_tile (xs : List ((s : Shape) × (s.Idx → EReal))) (h : Shape.Concatenates (xs.map (·.1)) S64x1792 1)
    (hsh : xs.map (·.1) = List.replicate 14 S64x128)
    (k : Nat) (hk : k < xs.length) (hk14 : k < 14) (p : FVec Ideal S64x128 .f32) (hxk : xs[k] = ⟨S64x128, p⟩)
    (o : Fin 64) (v : Fin 128) (hn : 128 * k + v.val < 1792) :
    concatenate S64x1792 1 xs h (ix2 o (⟨128 * k + v.val, hn⟩ : Fin 1792)) = p (ix2 o v) := by
  have hpre : (((xs.take k).map (·.1)).map fun s => if h : s.rank = S64x1792.rank then s.size ((1 : Fin S64x1792.rank).cast h.symm) else 0).sum = 128 * k := by
    rw [List.map_take, hsh, List.take_replicate, List.map_replicate, tile_cols, List.sum_replicate, smul_eq_mul,
      Nat.min_eq_left (Nat.le_of_lt hk14), Nat.mul_comm]
  exact concatenate_apply_piece (t := S64x1792) (1 : Fin 2) xs h _ k hk S64x128 p hxk rfl (128 * k) hpre (ix2 o v) (off_axis o v _) rfl

/-- Fourteen 64×128 tiles set side by side, read at row `o` and column `128 t + v`: tile `t` at `(o, v)`. -/
theorem conc14_apply (p0 p1 p2 p3 p4 p5 p6 p7 p8 p9 p10 p11 p12 p13 : FVec Ideal S64x128 .f32)
    (h : Shape.Concatenates (([⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩] : List ((s : Shape) × (s.Idx → EReal))).map (·.1)) S64x1792 1)
    (o : Fin 64) (t : Fin 14) (v : Fin 128) :
    concatenate S64x1792 1 [⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩] h (ix2 o (⟨128 * t.val + v.val, by omega⟩ : Fin 1792))
      = (match t with
        | ⟨0, _⟩ => p0
        | ⟨1, _⟩ => p1
        | ⟨2, _⟩ => p2
        | ⟨3, _⟩ => p3
        | ⟨4, _⟩ => p4
        | ⟨5, _⟩ => p5
        | ⟨6, _⟩ => p6
        | ⟨7, _⟩ => p7
        | ⟨8, _⟩ => p8
        | ⟨9, _⟩ => p9
        | ⟨10, _⟩ => p10
        | ⟨11, _⟩ => p11
        | ⟨12, _⟩ => p12
        | ⟨13, _⟩ => p13) (ix2 o v) := by
  have hsh : ([⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩] : List ((s : Shape) × (s.Idx → EReal))).map (·.1) = List.replicate 14 S64x128 := rfl
  match t with
  | ⟨0, _⟩ => exact conc_tile _ h hsh 0 (by decide : 0 < 14) (by decide) p0 rfl o v _
  | ⟨1, _⟩ => exact conc_tile _ h hsh 1 (by decide : 1 < 14) (by decide) p1 rfl o v _
  | ⟨2, _⟩ => exact conc_tile _ h hsh 2 (by decide : 2 < 14) (by decide) p2 rfl o v _
  | ⟨3, _⟩ => exact conc_tile _ h hsh 3 (by decide : 3 < 14) (by decide) p3 rfl o v _
  | ⟨4, _⟩ => exact conc_tile _ h hsh 4 (by decide : 4 < 14) (by decide) p4 rfl o v _
  | ⟨5, _⟩ => exact conc_tile _ h hsh 5 (by decide : 5 < 14) (by decide) p5 rfl o v _
  | ⟨6, _⟩ => exact conc_tile _ h hsh 6 (by decide : 6 < 14) (by decide) p6 rfl o v _
  | ⟨7, _⟩ => exact conc_tile _ h hsh 7 (by decide : 7 < 14) (by decide) p7 rfl o v _
  | ⟨8, _⟩ => exact conc_tile _ h hsh 8 (by decide : 8 < 14) (by decide) p8 rfl o v _
  | ⟨9, _⟩ => exact conc_tile _ h hsh 9 (by decide : 9 < 14) (by decide) p9 rfl o v _
  | ⟨10, _⟩ => exact conc_tile _ h hsh 10 (by decide : 10 < 14) (by decide) p10 rfl o v _
  | ⟨11, _⟩ => exact conc_tile _ h hsh 11 (by decide : 11 < 14) (by decide) p11 rfl o v _
  | ⟨12, _⟩ => exact conc_tile _ h hsh 12 (by decide : 12 < 14) (by decide) p12 rfl o v _
  | ⟨13, _⟩ => exact conc_tile _ h hsh 13 (by decide : 13 < 14) (by decide) p13 rfl o v _

/-- The body's payload: the fourteen 64×128 tiles set side by side along the columns, with a leading unit axis. The
    first six tiles and the two halves of the seventh are read before; the last seven are formed here, each the tile
    of the row block cut from its column, times the linear matrix, plus the linear bias row. -/
theorem pay1_eq (v5 : FVec Ideal S128x128 .f32) (v7 : FVec Ideal S1x128 .f32) (v12 : FVec Ideal S64x1792 .f32)
    (v16 v20 v24 v28 v32 v36 v38 v39 : FVec Ideal S64x128 .f32) :
    k0_pay1 v5 v7 v12 v16 v20 v24 v28 v32 v36 v38 v39
      = shapeCast S1x64x1792 (concatenate S64x1792 1 [⟨S64x128, v16⟩,
          ⟨S64x128, v20⟩,
          ⟨S64x128, v24⟩,
          ⟨S64x128, v28⟩,
          ⟨S64x128, v32⟩,
          ⟨S64x128, v36⟩,
          ⟨S64x128, (addf v38 v39)⟩,
          ⟨S64x128, addf (matmul dot_S64x128_S128x128_S64x128_1_0_0_1_n_n none (extractStridedSlice S64x128 ![0, 896] v12 slices_S64x1792_o0_896_S64x128) v5 (constant (F := Ideal) S64x128 .f32 0x00000000#32)) (broadcastTo S64x128 v7 broadcasts_S1x128_S64x128)⟩,
          ⟨S64x128, addf (matmul dot_S64x128_S128x128_S64x128_1_0_0_1_n_n none (extractStridedSlice S64x128 ![0, 1024] v12 slices_S64x1792_o0_1024_S64x128) v5 (constant (F := Ideal) S64x128 .f32 0x00000000#32)) (broadcastTo S64x128 v7 broadcasts_S1x128_S64x128)⟩,
          ⟨S64x128, addf (matmul dot_S64x128_S128x128_S64x128_1_0_0_1_n_n none (extractStridedSlice S64x128 ![0, 1152] v12 slices_S64x1792_o0_1152_S64x128) v5 (constant (F := Ideal) S64x128 .f32 0x00000000#32)) (broadcastTo S64x128 v7 broadcasts_S1x128_S64x128)⟩,
          ⟨S64x128, addf (matmul dot_S64x128_S128x128_S64x128_1_0_0_1_n_n none (extractStridedSlice S64x128 ![0, 1280] v12 slices_S64x1792_o0_1280_S64x128) v5 (constant (F := Ideal) S64x128 .f32 0x00000000#32)) (broadcastTo S64x128 v7 broadcasts_S1x128_S64x128)⟩,
          ⟨S64x128, addf (matmul dot_S64x128_S128x128_S64x128_1_0_0_1_n_n none (extractStridedSlice S64x128 ![0, 1408] v12 slices_S64x1792_o0_1408_S64x128) v5 (constant (F := Ideal) S64x128 .f32 0x00000000#32)) (broadcastTo S64x128 v7 broadcasts_S1x128_S64x128)⟩,
          ⟨S64x128, addf (matmul dot_S64x128_S128x128_S64x128_1_0_0_1_n_n none (extractStridedSlice S64x128 ![0, 1536] v12 slices_S64x1792_o0_1536_S64x128) v5 (constant (F := Ideal) S64x128 .f32 0x00000000#32)) (broadcastTo S64x128 v7 broadcasts_S1x128_S64x128)⟩,
          ⟨S64x128, addf (matmul dot_S64x128_S128x128_S64x128_1_0_0_1_n_n none (extractStridedSlice S64x128 ![0, 1664] v12 slices_S64x1792_o0_1664_S64x128) v5 (constant (F := Ideal) S64x128 .f32 0x00000000#32)) (broadcastTo S64x128 v7 broadcasts_S1x128_S64x128)⟩]
          concatenates_S64x128_S64x128_S64x128_S64x128_S64x128_S64x128_S64x128_S64x128_S64x128_S64x128_S64x128_S64x128_S64x128_S64x128_S64x1792_d1)
        shapeCasts_S64x1792_S1x64x1792 := rfl

/-- **The output block at an entry.** At unit index `u`, output channel `o`, time `t` and vertex `v`, what the body
    leaves in the output block is the vertex map, at `(t, v)`, of the convolution row of channel `o`: the row's entry at
    column `n` is the weight row against column `n` of the unfolded input block plus the channel's bias. -/
theorem out0_5_apply (x0 : Vec Ideal S1x192x1792 .f32) (x1 : Vec Ideal S64x192 .f32) (x2 : Vec Ideal S64x1 .f32)
    (x3 : Vec Ideal S128x128 .f32) (x4 : Vec Ideal S1x128 .f32) (u : Fin 1) (o : Fin 64) (t : Fin 14) (v : Fin 128) :
    Hand.out0_5 x0 x1 x2 x3 x4 (ix3 u o (⟨128 * t.val + v.val, by omega⟩ : Fin 1792))
      = Cert.Spec.vmap (fun n => (∑ j : Fin 192, x1 (ix2 o j) * x0 (ix3 (0 : Fin 1) j n)) + x2 (ix2 o (0 : Fin 1))) x3 x4 t v := by
  rw [Hand.out0_5_eq, pay1_eq]
  refine (shapeCast_ab_1ab_apply (a := 64) (b := 1792) _ _ u o _).trans ?_
  refine (conc14_apply _ _ _ _ _ _ _ _ _ _ _ _ _ _ _ o t v).trans ?_
  match t with
  | ⟨0, _⟩ =>
    show k0_pay5 x1 x2 x3 x4 x0 (ix2 o v) = _
    unfold k0_pay5
    exact tile_apply x0 x1 x2 x3 x4 0 (by decide) slices_S64x1792_o0_0_S64x128 o v
  | ⟨1, _⟩ =>
    show k0_pay6 x1 x2 x3 x4 x0 (ix2 o v) = _
    unfold k0_pay6
    exact tile_apply x0 x1 x2 x3 x4 128 (by decide) slices_S64x1792_o0_128_S64x128 o v
  | ⟨2, _⟩ =>
    show k0_pay7 x1 x2 x3 x4 x0 (ix2 o v) = _
    unfold k0_pay7
    exact tile_apply x0 x1 x2 x3 x4 256 (by decide) slices_S64x1792_o0_256_S64x128 o v
  | ⟨3, _⟩ =>
    show k0_pay8 x1 x2 x3 x4 x0 (ix2 o v) = _
    unfold k0_pay8
    exact tile_apply x0 x1 x2 x3 x4 384 (by decide) slices_S64x1792_o0_384_S64x128 o v
  | ⟨4, _⟩ =>
    show k0_pay9 x1 x2 x3 x4 x0 (ix2 o v) = _
    unfold k0_pay9
    exact tile_apply x0 x1 x2 x3 x4 512 (by decide) slices_S64x1792_o0_512_S64x128 o v
  | ⟨5, _⟩ =>
    show k0_pay10 x1 x2 x3 x4 x0 (ix2 o v) = _
    unfold k0_pay10
    exact tile_apply x0 x1 x2 x3 x4 640 (by decide) slices_S64x1792_o0_640_S64x128 o v
  | ⟨6, _⟩ =>
    show addf (k0_pay11 x1 x2 x3 x0) (k0_pay12 x4) (ix2 o v) = _
    unfold k0_pay11 k0_pay12
    exact tile_apply x0 x1 x2 x3 x4 768 (by decide) slices_S64x1792_o0_768_S64x128 o v
  | ⟨7, _⟩ => exact tile_apply x0 x1 x2 x3 x4 896 (by decide) slices_S64x1792_o0_896_S64x128 o v
  | ⟨8, _⟩ => exact tile_apply x0 x1 x2 x3 x4 1024 (by decide) slices_S64x1792_o0_1024_S64x128 o v
  | ⟨9, _⟩ => exact tile_apply x0 x1 x2 x3 x4 1152 (by decide) slices_S64x1792_o0_1152_S64x128 o v
  | ⟨10, _⟩ => exact tile_apply x0 x1 x2 x3 x4 1280 (by decide) slices_S64x1792_o0_1280_S64x128 o v
  | ⟨11, _⟩ => exact tile_apply x0 x1 x2 x3 x4 1408 (by decide) slices_S64x1792_o0_1408_S64x128 o v
  | ⟨12, _⟩ => exact tile_apply x0 x1 x2 x3 x4 1536 (by decide) slices_S64x1792_o0_1536_S64x128 o v
  | ⟨13, _⟩ => exact tile_apply x0 x1 x2 x3 x4 1664 (by decide) slices_S64x1792_o0_1664_S64x128 o v

end Cert.ReferenceIdeal.HandValue

end
-- ==== Proof.RefArray.lean ====
/-
  The reference's output array and result.

  At grid point `t` the pipeline hands the body batch `t` of the unfolded input and the whole of the other four
  arrays, and writes the body's block back as batch `t` of the output array. The body's block is the vertex map of that
  batch's convolution rows, so the output array is `Spec.arrR` of the arrays the region finds; every index lies in
  exactly the block of the point that is its batch. The program's result is that array re-laid
  [64, 64, 1792] → [64, 64, 14, 128].
-/
import proofs.«139804_g2000702422467796_pallasbulk_817_2_alg».proof.Proof.RefFrame
import proofs.«139804_g2000702422467796_pallasbulk_817_2_alg».proof.Proof.RefValue
import proofs.«139804_g2000702422467796_pallasbulk_817_2_alg».proof.Proof.Spec
import Idealize.ShloMosaic.Lib.StableHlo.Run

set_option maxRecDepth 16384

noncomputable section

open scoped BigOperators

namespace Cert.ReferenceIdeal.HandValue

open Idealize.ShloMosaic Idealize.ShloMosaic.TcCoe Idealize.ShloMosaic.ValueIdx Cert.ReferenceIdeal Cert.ReferenceIdeal.Gen
open Idealize.SL Idealize.SL.Sem

variable (m : (ℓ : Loc nD τ sig) → Buf (Elt Ideal) ℓ) (ρ : Dev nD → PrngReg)

/-- The printed index maps over the grid: windows 0 and 5 move with the point along the batch axis, the others stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The block function of blocks cut from whole arrays -/

/-- If the five loaded blocks are the restrictions of whole arrays (the unfolded input's to batch `bb`), the body's
    block at (u, o, n) is the output array's function at (bb, o, n): the vertex map, at time `n / 128` and vertex
    `n % 128`, of the convolution row of batch `bb` and channel `o`. -/
theorem out_of_blocks (x0 : Vec Ideal S1x192x1792 .f32) (x1 : Vec Ideal S64x192 .f32) (x2 : Vec Ideal S64x1 .f32)
    (x3 : Vec Ideal S128x128 .f32) (x4 : Vec Ideal S1x128 .f32)
    (XC : (⟨3, ![64, 192, 1792]⟩ : Shape).Idx → EReal) (Wm : (⟨2, ![64, 192]⟩ : Shape).Idx → EReal)
    (B2 : (⟨2, ![64, 1]⟩ : Shape).Idx → EReal) (WT : (⟨2, ![128, 128]⟩ : Shape).Idx → EReal)
    (BL : (⟨2, ![1, 128]⟩ : Shape).Idx → EReal) (bb : Fin 64)
    (h0 : ∀ (j : Fin 192) (n : Fin 1792), x0 (ix3 (0 : Fin 1) j n) = XC (ix3 bb j n))
    (h1 : ∀ (o : Fin 64) (j : Fin 192), x1 (ix2 o j) = Wm (ix2 o j))
    (h2 : ∀ o : Fin 64, x2 (ix2 o (0 : Fin 1)) = B2 (ix2 o (0 : Fin 1)))
    (h3 : ∀ k v : Fin 128, x3 (ix2 k v) = WT (ix2 k v))
    (h4 : ∀ v : Fin 128, x4 (ix2 (0 : Fin 1) v) = BL (ix2 (0 : Fin 1) v))
    (u : Fin 1) (o : Fin 64) (n : Fin 1792) :
    Hand.out0_5 x0 x1 x2 x3 x4 (ix3 u o n)
      = Cert.Spec.vmap (Cert.Spec.convR XC Wm B2 bb o) WT BL ⟨n.val / 128, by have h := n.isLt; omega⟩
          ⟨n.val % 128, Nat.mod_lt _ (by norm_num)⟩ := by
  have hn : n.val < 1792 := n.isLt
  have hlt : 128 * (n.val / 128) + n.val % 128 < 1792 := by omega
  have e : n = (⟨128 * (n.val / 128) + n.val % 128, hlt⟩ : Fin 1792) :=
    Fin.ext (by show n.val = 128 * (n.val / 128) + n.val % 128; omega)
  refine ((congrArg (fun n' : Fin 1792 => Hand.out0_5 x0 x1 x2 x3 x4 (ix3 u o n')) e).trans
    (out0_5_apply x0 x1 x2 x3 x4 u o (⟨n.val / 128, by omega⟩ : Fin 14)
      (⟨n.val % 128, Nat.mod_lt _ (by norm_num)⟩ : Fin 128))).trans ?_
  unfold Cert.Spec.vmap Cert.Spec.convR
  simp only [h0, h1, h2, h3, h4]

/-! ## The windows' blocks at a point -/

theorem blk0_read (c : Dev nD) (t : Fin cfg0.N) (u : Fin 1) (j : Fin 192) (n : Fin 1792) (ht : t.val < 64) :
    Hand.iblk m c 0 t (ix3 u j n) = Hand.V m c main_v4 (ix3 (⟨t.val, ht⟩ : Fin 64) j n) := by
  obtain ⟨e0, e1, e2, -⟩ := idx_facts t
  have hu : u.val = 0 := by omega
  show Hand.V m c main_v4 (((cfg0.win 0).blk t).view.emb (ix3 u j n)) = _
  refine congrArg _ (funext fun a => Fin.ext ?_)
  match a with
  | ⟨0, _⟩ => show win0_0.index t (0 : Fin 3) * 1 + 1 * u.val = t.val; omega
  | ⟨1, _⟩ => show win0_0.index t (1 : Fin 3) * 192 + 1 * j.val = j.val; omega
  | ⟨2, _⟩ => show win0_0.index t (2 : Fin 3) * 1792 + 1 * n.val = n.val; omega

theorem blk1_read (c : Dev nD) (t : Fin cfg0.N) (o : Fin 64) (j : Fin 192) :
    Hand.iblk m c 1 t (ix2 o j) = Hand.V m c main_v7 (ix2 o j) := by
  obtain ⟨-, -, -, e0, e1, -⟩ := idx_facts t
  show Hand.V m c main_v7 (((cfg0.win 1).blk t).view.emb (ix2 o j)) = _
  refine congrArg _ (funext fun a => Fin.ext ?_)
  match a with
  | ⟨0, _⟩ => show win0_1.index t (0 : Fin 2) * 64 + 1 * o.val = o.val; omega
  | ⟨1, _⟩ => show win0_1.index t (1 : Fin 2) * 192 + 1 * j.val = j.val; omega

theorem blk2_read (c : Dev nD) (t : Fin cfg0.N) (o : Fin 64) :
    Hand.iblk m c 2 t (ix2 o (0 : Fin 1)) = Hand.V m c main_v8 (ix2 o (0 : Fin 1)) := by
  obtain ⟨-, -, -, -, -, e0, e1, -⟩ := idx_facts t
  show Hand.V m c main_v8 (((cfg0.win 2).blk t).view.emb (ix2 o (0 : Fin 1))) = _
  refine congrArg _ (funext fun a => Fin.ext ?_)
  match a with
  | ⟨0, _⟩ => show win0_2.index t (0 : Fin 2) * 64 + 1 * o.val = o.val; omega
  | ⟨1, _⟩ => show win0_2.index t (1 : Fin 2) * 1 + 1 * 0 = 0; omega

theorem blk3_read (c : Dev nD) (t : Fin cfg0.N) (u v : Fin 128) :
    Hand.iblk m c 3 t (ix2 u v) = Hand.V m c main_v11 (ix2 u v) := by
  obtain ⟨-, -, -, -, -, -, -, e0, e1, -⟩ := idx_facts t
  show Hand.V m c main_v11 (((cfg0.win 3).blk t).view.emb (ix2 u v)) = _
  refine congrArg _ (funext fun a => Fin.ext ?_)
  match a with
  | ⟨0, _⟩ => show win0_3.index t (0 : Fin 2) * 128 + 1 * u.val = u.val; omega
  | ⟨1, _⟩ => show win0_3.index t (1 : Fin 2) * 128 + 1 * v.val = v.val; omega

theorem blk4_read (c : Dev nD) (t : Fin cfg0.N) (v : Fin 128) :
    Hand.iblk m c 4 t (ix2 (0 : Fin 1) v) = Hand.V m c main_v14 (ix2 (0 : Fin 1) v) := by
  obtain ⟨-, -, -, -, -, -, -, -, -, e0, e1, -⟩ := idx_facts t
  show Hand.V m c main_v14 (((cfg0.win 4).blk t).view.emb (ix2 (0 : Fin 1) v)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * v.val = v.val; omega

/-- The output array of the arrays the region finds. -/
abbrev outArr (c : Dev nD) : (⟨3, ![64, 64, 1792]⟩ : Shape).Idx → EReal :=
  Cert.Spec.arrR (Hand.V m c main_v4) (Hand.V m c main_v7) (Hand.V m c main_v8) (Hand.V m c main_v11) (Hand.V m c main_v14)

/-- What point `t` writes back is block `t` of the output array's function. -/
theorem flushed_eq (c : Dev nD) (t : Fin cfg0.N) :
    (Hand.dats (F := Ideal) m 0 c).flushed 5 t = ((cfg0.win 5).blk t).view.read (Elt Ideal) (outArr m c) := by
  show (cfg0.win 5).cut (grid0.coords t) ((Hand.dats (F := Ideal) m 0 c).after 5 t) = _
  rw [Hand.after0_5]
  have ht : t.val < 64 := by have h : t.val < grid0.N := t.isLt; rw [N_0] at h; exact h
  obtain ⟨-, -, -, -, -, -, -, -, -, -, -, e0, e1, e2⟩ := idx_facts t
  funext j
  obtain ⟨u, o, n, rfl⟩ : ∃ (u : Fin 1) (o : Fin 64) (n : Fin 1792), j = ix3 u o n := ⟨j 0, j 1, j 2, eq_ix3 j⟩
  have hu : u.val = 0 := by omega
  show Hand.out0_5 (Hand.iblk m c 0 t) (Hand.iblk m c 1 t) (Hand.iblk m c 2 t) (Hand.iblk m c 3 t) (Hand.iblk m c 4 t) (ix3 u o n)
    = outArr m c (((cfg0.win 5).blk t).view.emb (ix3 u o n))
  have hemb : ((cfg0.win 5).blk t).view.emb (ix3 u o n) = ix3 (⟨t.val, ht⟩ : Fin 64) o n := by
    funext a; apply Fin.ext
    match a with
    | ⟨0, _⟩ => show win0_5.index t (0 : Fin 3) * 1 + 1 * u.val = t.val; omega
    | ⟨1, _⟩ => show win0_5.index t (1 : Fin 3) * 64 + 1 * o.val = o.val; omega
    | ⟨2, _⟩ => show win0_5.index t (2 : Fin 3) * 1792 + 1 * n.val = n.val; omega
  rw [hemb]
  exact out_of_blocks (Hand.iblk m c 0 t) (Hand.iblk m c 1 t) (Hand.iblk m c 2 t) (Hand.iblk m c 3 t) (Hand.iblk m c 4 t)
    (Hand.V m c main_v4) (Hand.V m c main_v7) (Hand.V m c main_v8) (Hand.V m c main_v11) (Hand.V m c main_v14) ⟨t.val, ht⟩
    (fun j n => blk0_read m c t (0 : Fin 1) j n ht) (blk1_read m c t) (blk2_read m c t) (blk3_read m c t) (blk4_read m c t)
    u o n

/-- An index of the output array is in point `t`'s block iff each coordinate is in the block's range on its axis. -/
theorem mem_blk5 (t : Fin cfg0.N) (i : S64x64x1792.Idx) :
    i ∈ ((cfg0.win 5).blk t).view.set ↔ ∀ a : Fin 3, win0_5.index t a * S1x64x1792.size a ≤ (i a).val
      ∧ (i a).val < win0_5.index t a * S1x64x1792.size a + S1x64x1792.size a := by
  show i ∈ ((View.whole main_v15).slice (win0_5.rect t)).set ↔ _
  rw [View.set_slice_whole, Rect.mem_set_unit]
  exact Iff.rfl

/-- Every index of the output array lies in the block of the point that is its batch. -/
theorem cover5 (i : S64x64x1792.Idx) :
    ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 1792 := (i 2).isLt
  have hN : grid0.N = 64 := N_0
  let t : Fin cfg0.N := ⟨(i 0).val, by show (i 0).val < grid0.N; omega⟩
  obtain ⟨-, -, -, -, -, -, -, -, -, -, -, e0, e1, e2⟩ := idx_facts t
  have e0' : win0_5.index t (0 : Fin 3) = (i 0).val := e0
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1792 ≤ (i 2).val ∧ (i 2).val < win0_5.index t (2 : Fin 3) * 1792 + 1792; omega

/-- The output array after the run. -/
theorem ref_array (c : Dev nD) : (Hand.dats (F := Ideal) m 0 c).arrAt 5 cfg0.N
    = Cert.Spec.arrR (Hand.V m c main_v4) (Hand.V m c main_v7) (Hand.V m c main_v8) (Hand.V m c main_v11) (Hand.V m c main_v14) :=
  (Hand.dats (F := Ideal) m 0 c).arrAt_eq_of_cover 5 (outArr m c) (fun t _ => flushed_eq m c t) cover5

/-- The result buffer after the host line that follows the region: the output array re-laid. -/
theorem tail_v16 (c : Dev nD) :
    Pipeline.afterTail₀ cfgs (Hand.dats (F := Ideal) m) 0 (Hand.V0 m) [hostOps1] c main_v16
      = shapeCast S64x64x14x128 (outArr m c) shapeCasts_S64x64x1792_S64x64x14x128 := by
  unfold Pipeline.afterTail₀
  show StableHlo.after hostOps1 _ (Proc.devRef .tc main_v16) = _
  after_results
  rw [Pipeline.withArrays_arr spec0 launch0.win.arr_inj c _ _ 5, ref_array]
  rfl

/-- The reference's run: the result is the output array re-laid, and the arguments end unchanged. -/
theorem ref_result : θ_run defs (onTc (τ := τ) (main (F := Ideal))) ⟨m, fun _ => 0, ρ⟩ (fun r => ∀ c : Dev nD,
      r.2.mem ((c.tc : Thread nD τ).loc main_v16) = shapeCast S64x64x14x128 (Cert.Spec.arrR (Hand.V m c main_v4) (Hand.V m c main_v7) (Hand.V m c main_v8) (Hand.V m c main_v11) (Hand.V m c main_v14)) shapeCasts_S64x64x1792_S64x64x14x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v16 (Pipeline.mem_restRefs_of main_v16 (by decide) (by decide))).trans (tail_v16 m c),
     ((h c).2 main_arg0 (Pipeline.mem_restRefs_of main_arg0 (by decide) (by decide))).trans (Hand.W_main_arg0 m (Hand.dats m) c),
     ((h c).2 main_arg1 (Pipeline.mem_restRefs_of main_arg1 (by decide) (by decide))).trans (Hand.W_main_arg1 m (Hand.dats m) c),
     ((h c).2 main_arg2 (Pipeline.mem_restRefs_of main_arg2 (by decide) (by decide))).trans (Hand.W_main_arg2 m (Hand.dats m) c),
     ((h c).2 main_arg3 (Pipeline.mem_restRefs_of main_arg3 (by decide) (by decide))).trans (Hand.W_main_arg3 m (Hand.dats m) c),
     ((h c).2 main_arg4 (Pipeline.mem_restRefs_of main_arg4 (by decide) (by decide))).trans (Hand.W_main_arg4 m (Hand.dats m) c)⟩)
    (Hand.run_main m ρ)

end Cert.ReferenceIdeal.HandValue

end
-- ==== Proof.KernelHost.lean ====
/-
  The host prelude of the kernel program read at an index, at the ideal instance.

  Before its one region the program re-lays its five arguments out by reshapes, transposes and format changes only
  (nine host operations); at the extended reals a format change is the identity, so every window's array holds, at
  each index, one element of one argument. The five theorems below name that element by coordinates:

    x      [64,64,16,128] → [64,64,2048]      row-major position  128·t + v  on the last axis
    conv_w [64,64,3,1]    → [64,192]          column  64·kt + ch  holds  conv_w[o, ch, kt, 0]
    conv_b [64]           → [64,1]
    lin_w  [128,128]      → its transpose
    lin_b  [128]          → [1,128]
-/
import proofs.«139804_g2000702422467796_pallasbulk_817_2_alg».proof.Proof.Gen.KernelIdeal.Frame
import Idealize.ShloMosaic.Lib.ValueLayout

set_option maxRecDepth 16384

noncomputable section

namespace Cert.KernelIdeal.HostRead

open Idealize.ShloMosaic Idealize.ShloMosaic.TcCoe Idealize.ShloMosaic.Tactic
open Idealize.ShloMosaic.ValueIdx
open Idealize.SL.Sem

variable (m : (ℓ : Loc nD τ sig) → Buf (Elt Ideal) ℓ) (c : Dev nD)

/-! ## Each window's array as a term over the arguments -/

/-- The first window's array is the input reshaped. -/
theorem V_v0_eq : (Gen.V (F := Ideal) m c main_v0 : S64x64x2048.Idx → EReal)
    = shapeCast S64x64x2048 (m ((c : Thread nD τ).loc main_arg0) : S64x64x16x128.Idx → EReal)
        Facts₀.shapeCasts_S64x64x16x128_S64x64x2048 := by
  show StableHlo.after (Gen.hostOps0 (F := Ideal)) (fun b => m (c, b)) (Proc.devRef .tc main_v0) = _
  after_results
  rfl

/-- The second window's array is the convolution weight with its unit axis dropped, its last two axes swapped, the
    two then merged, and the format changed. -/
theorem V_v4_eq : (Gen.V (F := Ideal) m c main_v4 : S64x192.Idx → EReal)
    = truncf (F := Ideal) .bf16
        (shapeCast S64x192
          (transpose S64x3x64 [0, 2, 1]
            (shapeCast S64x64x3 (m ((c : Thread nD τ).loc main_arg1) : S64x64x3x1.Idx → EReal)
              Facts₀.shapeCasts_S64x64x3x1_S64x64x3)
            Facts₀.transposes_S64x64x3_S64x3x64_0_2_1)
          Facts₀.shapeCasts_S64x3x64_S64x192)
        Facts₀.bitsLt_bf16_f32 := by
  show StableHlo.after (Gen.hostOps0 (F := Ideal)) (fun b => m (c, b)) (Proc.devRef .tc main_v4) = _
  after_results
  rfl

/-- The third window's array is the convolution bias as a column. -/
theorem V_v5_eq : (Gen.V (F := Ideal) m c main_v5 : S64x1.Idx → EReal)
    = shapeCast S64x1 (m ((c : Thread nD τ).loc main_arg2) : S64.Idx → EReal) Facts₀.shapeCasts_S64_S64x1 := by
  show StableHlo.after (Gen.hostOps0 (F := Ideal)) (fun b => m (c, b)) (Proc.devRef .tc main_v5) = _
  after_results
  rfl

/-- The fourth window's array is the linear weight transposed, and the format changed. -/
theorem V_v7_eq : (Gen.V (F := Ideal) m c main_v7 : S128x128.Idx → EReal)
    = truncf (F := Ideal) .bf16
        (transpose S128x128 [1, 0] (m ((c : Thread nD τ).loc main_arg3) : S128x128.Idx → EReal)
          Facts₀.transposes_S128x128_S128x128_1_0)
        Facts₀.bitsLt_bf16_f32 := by
  show StableHlo.after (Gen.hostOps0 (F := Ideal)) (fun b => m (c, b)) (Proc.devRef .tc main_v7) = _
  after_results

/-- The fifth window's array is the linear bias as a row. -/
theorem V_v8_eq : (Gen.V (F := Ideal) m c main_v8 : S1x128.Idx → EReal)
    = shapeCast S1x128 (m ((c : Thread nD τ).loc main_arg4) : S128.Idx → EReal) Facts₀.shapeCasts_S128_S1x128 := by
  show StableHlo.after (Gen.hostOps0 (F := Ideal)) (fun b => m (c, b)) (Proc.devRef .tc main_v8) = _
  after_results
  rfl

/-! ## Read at an index -/

/-- The reshaped input at `(b, ch, n)` with `n = 128·t + v` is the input at `(b, ch, t, v)`. -/
theorem V_v0_apply_of_eq (b ch : Fin 64) (n : Fin 2048) (t : Fin 16) (v : Fin 128) (hn : n.val = 128 * t.val + v.val) :
    Gen.V (F := Ideal) m c main_v0 (ix3 b ch n)
      = (m ((c : Thread nD τ).loc main_arg0) : S64x64x16x128.Idx → EReal) (ix4 b ch t v) := by
  rw [V_v0_eq]
  refine shapeCast_apply _ _ (ix3 b ch n) (ix4 b ch t v) ?_
  rw [Shape.rowMajor_val_four, Shape.rowMajor_val_three]
  show ((b.val * 64 + ch.val) * 16 + t.val) * 128 + v.val = (b.val * 64 + ch.val) * 2048 + n.val
  omega

/-- K0. The reshaped input at `(b, ch, 128·t + v)` is the input at `(b, ch, t, v)`. -/
theorem V_v0_apply (b ch : Fin 64) (t : Fin 16) (v : Fin 128) :
    Gen.V (F := Ideal) m c main_v0
        (ix3 b ch (⟨128 * t.val + v.val, by have := t.isLt; have := v.isLt; omega⟩ : Fin 2048))
      = (m ((c : Thread nD τ).loc main_arg0) : S64x64x16x128.Idx → EReal) (ix4 b ch t v) :=
  V_v0_apply_of_eq m c b ch _ t v rfl

/-- The re-laid convolution weight at `(o, j)` with `j = 64·kt + ch` is the weight at `(o, ch, kt, 0)`. -/
theorem V_v4_apply_of_eq (o : Fin 64) (j : Fin 192) (kt : Fin 3) (ch : Fin 64) (hj : j.val = 64 * kt.val + ch.val) :
    Gen.V (F := Ideal) m c main_v4 (ix2 o j)
      = (m ((c : Thread nD τ).loc main_arg1) : S64x64x3x1.Idx → EReal) (ix4 o ch kt (0 : Fin 1)) := by
  rw [V_v4_eq, truncf_apply]
  refine (shapeCast_apply _ _ (ix2 o j) (ix3 o kt ch) ?_).trans ?_
  · rw [Shape.rowMajor_val_three, Shape.rowMajor_val_two]
    show (o.val * 3 + kt.val) * 64 + ch.val = o.val * 192 + j.val
    omega
  rw [transpose_ix3_021_apply]
  refine shapeCast_apply _ _ (ix3 o ch kt) (ix4 o ch kt (0 : Fin 1)) ?_
  rw [Shape.rowMajor_val_four, Shape.rowMajor_val_three]
  show ((o.val * 64 + ch.val) * 3 + kt.val) * 1 + 0 = (o.val * 64 + ch.val) * 3 + kt.val
  omega

/-- K1. The re-laid convolution weight at `(o, 64·kt + ch)` is the weight at `(o, ch, kt, 0)`. -/
theorem V_v4_apply (o ch : Fin 64) (kt : Fin 3) :
    Gen.V (F := Ideal) m c main_v4
        (ix2 o (⟨64 * kt.val + ch.val, by have := kt.isLt; have := ch.isLt; omega⟩ : Fin 192))
      = (m ((c : Thread nD τ).loc main_arg1) : S64x64x3x1.Idx → EReal) (ix4 o ch kt (0 : Fin 1)) :=
  V_v4_apply_of_eq m c o _ kt ch rfl

/-- K2. The bias column at `(o, 0)` is the bias at `o`. -/
theorem V_v5_apply (o : Fin 64) :
    Gen.V (F := Ideal) m c main_v5 (ix2 o (0 : Fin 1))
      = (m ((c : Thread nD τ).loc main_arg2) : S64.Idx → EReal) (ix1 o) := by
  rw [V_v5_eq]
  refine shapeCast_apply _ _ (ix2 o (0 : Fin 1)) (ix1 o) ?_
  rw [Shape.rowMajor_val_two, Shape.rowMajor_val_one]
  show o.val = o.val * 1 + 0
  omega

/-- K3. The transposed linear weight at `(u, v)` is the weight at `(v, u)`. -/
theorem V_v7_apply (u v : Fin 128) :
    Gen.V (F := Ideal) m c main_v7 (ix2 u v)
      = (m ((c : Thread nD τ).loc main_arg3) : S128x128.Idx → EReal) (ix2 v u) := by
  rw [V_v7_eq, truncf_apply, transpose_ix2_apply]

/-- K4. The bias row at `(0, v)` is the bias at `v`. -/
theorem V_v8_apply (v : Fin 128) :
    Gen.V (F := Ideal) m c main_v8 (ix2 (0 : Fin 1) v)
      = (m ((c : Thread nD τ).loc main_arg4) : S128.Idx → EReal) (ix1 v) := by
  rw [V_v8_eq, shapeCast_a_1a_apply]

end Cert.KernelIdeal.HostRead

end
-- ==== Proof.RefHost.lean ====
/-
  The host prelude of the reference program read at an index, at the ideal instance.

  Before its one region the reference lays its arguments out by nineteen host operations: three bands of the input
  (time steps from 0, 1, 2 on) laid one after the other along the channel axis and the last two axes merged (im2col);
  the convolution weight re-laid as a [64,192] matrix; the bias as a column; and the transposed linear weight and the
  linear bias each written over an array of zeros by a scatter whose body returns the update. Each scatter's updates
  land at pairwise distinct indices that cover what is read, so the zeros do not show: the theorems below name, for
  each window's array, the one argument element an index holds.
-/
import proofs.«139804_g2000702422467796_pallasbulk_817_2_alg».proof.Proof.Gen.ReferenceIdeal.Launch
import Idealize.ShloMosaic.Lib.ValueLayout
import Idealize.ShloMosaic.Lib.StableHlo.Run
import Idealize.ShloMosaic.Lib.Tactic

set_option maxRecDepth 16384

noncomputable section

namespace Cert.ReferenceIdeal.HostRead

open Idealize.ShloMosaic Idealize.ShloMosaic.TcCoe Idealize.ShloMosaic.Tactic
open Idealize.ShloMosaic.ValueIdx
open Idealize.SL.Sem

variable (m : (ℓ : Loc nD τ sig) → Buf (Elt Ideal) ℓ) (c : Dev nD)

/-- Core `c`'s TensorCore buffer contents when the region is entered: after the host operations before it. -/
abbrev R0 (c : Dev nD) (b : Ref sig .tc) : Buf (Elt Ideal) ((c : Thread nD τ).loc b) :=
  StableHlo.after (Gen.hostOps0 (F := Ideal)) (fun b => m (c, b)) (Proc.devRef .tc b)

/-! ## An overwriting scatter whose updates land at pairwise distinct indices -/

/-- Writing, in any order, the values `v n` at the pairwise distinct places `ρ n` leaves at `ρ k₀` the value
    `v k₀` once `k₀` has been met, and what was there before otherwise. -/
theorem foldl_set_apply {ι κ α : Type} [DecidableEq ι] [DecidableEq κ] (ρ : κ → ι) (v : κ → α)
    (hρ : Function.Injective ρ) (k₀ : κ) :
    ∀ (L : List κ) (r : ι → α),
      (L.foldl (fun r n => fun i' => if i' = ρ n then v n else r i') r) (ρ k₀) = if k₀ ∈ L then v k₀ else r (ρ k₀)
  | [], r => by simp
  | n :: L, r => by
    rw [List.foldl_cons, foldl_set_apply ρ v hρ k₀ L]
    by_cases hL : k₀ ∈ L
    · rw [if_pos hL, if_pos (List.mem_cons_of_mem _ hL)]
    · rw [if_neg hL]
      by_cases hn : k₀ = n
      · subst hn
        rw [if_pos rfl, if_pos List.mem_cons_self]
      · rw [if_neg (fun h => hn (hρ h)), if_neg (fun h => (List.mem_cons.1 h).elim hn hL)]

/-- A scatter whose body returns the update, every update index landing inside the operand at an index `g j` with
    `g` injective, holds at `g j₀` the update's element `j₀`. -/
theorem scatter_set_apply {α : Type} {s si u : Shape} {w : Nat} (d : ScatterDims s si u) (x : s.Idx → α)
    (idx : IVec si w) (upd : u.Idx → α) (g : u.Idx → s.Idx) (hg : ∀ j, d.resultIdx? j idx = some (g j))
    (hinj : Function.Injective g) (j₀ : u.Idx) :
    Host.scatter d (fun _ b => b) x idx upd (g j₀) = upd j₀ := by
  have h := foldl_set_apply (fun n : Fin u.numel => g (u.rowMajor.symm n)) (fun n => upd (u.rowMajor.symm n))
    (fun a b hab => u.rowMajor.symm.injective (hinj hab)) (u.rowMajor j₀) (List.finRange u.numel) x
  rw [if_pos (List.mem_finRange _)] at h
  simp only [Equiv.symm_apply_apply] at h
  unfold Host.scatter
  simp only [hg]
  exact h

/-! ## Where the two scatters' updates land -/

/-- With no scatter index and the window the whole operand, update index `j` lands at `j`. -/
theorem resultIdx_whole (idx : IVec S0 32) (j : S128x128.Idx) :
    scatter_S128x128_S0_S128x128_01_n_n_0.resultIdx? j idx = some j := by
  have hs : ∀ a, scatter_S128x128_S0_S128x128_01_n_n_0.start j idx a = 0 := fun a => by
    unfold ScatterDims.start
    exact dif_neg (by show a ∉ ([] : List (Fin 2)); exact List.not_mem_nil)
  have hw : ∀ a, scatter_S128x128_S0_S128x128_01_n_n_0.window j a = (j a).val := fun a => by
    match a with
    | ⟨0, _⟩ => rfl
    | ⟨1, _⟩ => rfl
  have h : ∀ a, 0 ≤ scatter_S128x128_S0_S128x128_01_n_n_0.start j idx a + scatter_S128x128_S0_S128x128_01_n_n_0.window j a
      ∧ scatter_S128x128_S0_S128x128_01_n_n_0.start j idx a + scatter_S128x128_S0_S128x128_01_n_n_0.window j a < S128x128.size a := fun a => by
    rw [hs, hw]; have := (j a).isLt; omega
  unfold ScatterDims.resultIdx?
  rw [dif_pos h]
  congr 1
  funext a
  refine Fin.ext ?_
  show (scatter_S128x128_S0_S128x128_01_n_n_0.start j idx a + scatter_S128x128_S0_S128x128_01_n_n_0.window j a).toNat = (j a).val
  rw [hs, hw]; omega

/-- With the one scatter index 0 on the row axis and the window a whole row, update index `j` lands at `(0, j)`. -/
theorem resultIdx_row (idx : IVec S1 32) (hidx : ∀ k, idx k = 0#32) (j : S128.Idx) :
    scatter_S1x128_S1_S128_0_0_0_0.resultIdx? j idx = some (ix2 (0 : Fin 1) (⟨(j 0).val, (j 0).isLt⟩ : Fin 128)) := by
  have hs : ∀ a, scatter_S1x128_S1_S128_0_0_0_0.start j idx a = 0 := fun a => by
    unfold ScatterDims.start
    split
    · rw [hidx]; rfl
    · rfl
  have hw0 : scatter_S1x128_S1_S128_0_0_0_0.window j ⟨0, by decide⟩ = 0 := rfl
  have hw1 : scatter_S1x128_S1_S128_0_0_0_0.window j ⟨1, by decide⟩ = (j 0).val := rfl
  have hj : (j 0).val < 128 := (j 0).isLt
  have h : ∀ a, 0 ≤ scatter_S1x128_S1_S128_0_0_0_0.start j idx a + scatter_S1x128_S1_S128_0_0_0_0.window j a
      ∧ scatter_S1x128_S1_S128_0_0_0_0.start j idx a + scatter_S1x128_S1_S128_0_0_0_0.window j a < S1x128.size a := fun a => by
    rw [hs]
    match a with
    | ⟨0, _⟩ =>
      rw [hw0]
      exact ⟨by omega, by show (0 : Int) + ((0 : Nat) : Int) < ((1 : Nat) : Int); omega⟩
    | ⟨1, _⟩ =>
      rw [hw1]
      exact ⟨by omega, by show (0 : Int) + ((j 0).val : Int) < ((128 : Nat) : Int); omega⟩
  unfold ScatterDims.resultIdx?
  rw [dif_pos h]
  congr 1
  funext a
  refine Fin.ext ?_
  show (scatter_S1x128_S1_S128_0_0_0_0.start j idx a + scatter_S1x128_S1_S128_0_0_0_0.window j a).toNat = _
  rw [hs]
  match a with
  | ⟨0, _⟩ => rw [hw0]; rfl
  | ⟨1, _⟩ => rw [hw1]; show ((0 : Int) + ((j 0).val : Int)).toNat = (j 0).val; omega

/-- Distinct update indices land at distinct places of the row. -/
theorem row_injective :
    Function.Injective (fun j : S128.Idx => (ix2 (0 : Fin 1) (⟨(j 0).val, (j 0).isLt⟩ : Fin 128) : S1x128.Idx)) := by
  intro j j' h
  funext a
  match a with
  | ⟨0, _⟩ =>
    have h1 := congrFun h (⟨1, by decide⟩ : Fin 2)
    exact Fin.ext (congrArg Fin.val h1)

/-! ## Each window's array as a term over the arguments -/

/-- The first window's array: three copies of the input, each a band of fourteen time steps starting at step 0, 1, 2,
    laid one after the other along the channel axis, the last two axes then merged. -/
theorem R_v4_eq : (R0 m c main_v4 : S64x192x1792.Idx → EReal)
    = shapeCast S64x192x1792
        (concatenate S64x192x14x128 1
          [⟨S64x64x14x128, extractStridedSlice S64x64x14x128 ![0, 0, 0, 0]
              (m ((c : Thread nD τ).loc main_arg0) : S64x64x16x128.Idx → EReal) Facts₀.slices_S64x64x16x128_S64x64x14x128_0_0_0_0⟩,
           ⟨S64x64x14x128, extractStridedSlice S64x64x14x128 ![0, 0, 1, 0]
              (m ((c : Thread nD τ).loc main_arg0) : S64x64x16x128.Idx → EReal) Facts₀.slices_S64x64x16x128_S64x64x14x128_0_0_1_0⟩,
           ⟨S64x64x14x128, extractStridedSlice S64x64x14x128 ![0, 0, 2, 0]
              (m ((c : Thread nD τ).loc main_arg0) : S64x64x16x128.Idx → EReal) Facts₀.slices_S64x64x16x128_S64x64x14x128_0_0_2_0⟩]
          Facts₀.concatenates_S64x64x14x128_S64x64x14x128_S64x64x14x128_S64x192x14x128_d1)
        Facts₀.shapeCasts_S64x192x14x128_S64x192x1792 := by
  show StableHlo.after (Gen.hostOps0 (F := Ideal)) (fun b => m (c, b)) (Proc.devRef .tc main_v4) = _
  after_results
  rfl

/-- The second window's array is the convolution weight with its unit axis dropped, its last two axes swapped, and the
    two then merged. -/
theorem R_v7_eq : (R0 m c main_v7 : S64x192.Idx → EReal)
    = shapeCast S64x192
        (transpose S64x3x64 [0, 2, 1]
          (shapeCast S64x64x3 (m ((c : Thread nD τ).loc main_arg1) : S64x64x3x1.Idx → EReal)
            Facts₀.shapeCasts_S64x64x3x1_S64x64x3)
          Facts₀.transposes_S64x64x3_S64x3x64_0_2_1)
        Facts₀.shapeCasts_S64x3x64_S64x192 := by
  show StableHlo.after (Gen.hostOps0 (F := Ideal)) (fun b => m (c, b)) (Proc.devRef .tc main_v7) = _
  after_results
  rfl

/-- The third window's array is the convolution bias as a column. -/
theorem R_v8_eq : (R0 m c main_v8 : S64x1.Idx → EReal)
    = shapeCast S64x1 (m ((c : Thread nD τ).loc main_arg2) : S64.Idx → EReal) Facts₀.shapeCasts_S64_S64x1 := by
  show StableHlo.after (Gen.hostOps0 (F := Ideal)) (fun b => m (c, b)) (Proc.devRef .tc main_v8) = _
  after_results
  rfl

/-- The fourth window's array: the transposed linear weight written over an array of zeros, as one window that is the
    whole array, at no scatter index. -/
theorem R_v11_eq : (R0 m c main_v11 : S128x128.Idx → EReal)
    = Host.scatter scatter_S128x128_S0_S128x128_01_n_n_0 (fun _ b => b)
        (broadcastInDim S128x128 ![] Facts₀.bcast_S_S128x128 (constant (F := Ideal) S_ .f32 0x00000000#32))
        (emptyVec S0 Facts₀.hz_S0 : IVec S0 32)
        (transpose S128x128 [1, 0] (m ((c : Thread nD τ).loc main_arg3) : S128x128.Idx → EReal)
          Facts₀.transposes_S128x128_S128x128_1_0) := by
  show StableHlo.after (Gen.hostOps0 (F := Ideal)) (fun b => m (c, b)) (Proc.devRef .tc main_v11) = _
  after_results

/-- The fifth window's array: the linear bias written over the one row of an array of zeros, at the scatter index 0. -/
theorem R_v14_eq : (R0 m c main_v14 : S1x128.Idx → EReal)
    = Host.scatter scatter_S1x128_S1_S128_0_0_0_0 (fun _ b => b)
        (broadcastInDim S1x128 ![] Facts₀.bcast_S_S1x128 (constant (F := Ideal) S_ .f32 0x00000000#32))
        (broadcastInDim S1 ![] Facts₀.bcast_S_S1 (constantI S_ 32 0#32))
        (m ((c : Thread nD τ).loc main_arg4) : S128.Idx → EReal) := by
  show StableHlo.after (Gen.hostOps0 (F := Ideal)) (fun b => m (c, b)) (Proc.devRef .tc main_v14) = _
  after_results

/-! ## Three arrays of one shape laid one after the other along the channel axis -/

/-- Channel `ch` of the whole is channel `ch` of the first piece. -/
theorem concat3_apply_0 (A0 A1 A2 : S64x64x14x128.Idx → EReal)
    (h : Shape.Concatenates [S64x64x14x128, S64x64x14x128, S64x64x14x128] S64x192x14x128 1)
    (b : Fin 64) (j : Fin 192) (t : Fin 14) (v : Fin 128) (ch : Fin 64) (hj : j.val = ch.val) :
    concatenate S64x192x14x128 1 [⟨S64x64x14x128, A0⟩, ⟨S64x64x14x128, A1⟩, ⟨S64x64x14x128, A2⟩] h (ix4 b j t v)
      = A0 (ix4 b ch t v) :=
  concatenate_apply_piece (t := S64x192x14x128) (1 : Fin 4) [⟨S64x64x14x128, A0⟩, ⟨S64x64x14x128, A1⟩, ⟨S64x64x14x128, A2⟩] h (ix4 b j t v)
    0 (by simp) S64x64x14x128 A0 rfl rfl 0 rfl (ix4 b ch t v)
    (fun a ha => by
      match a, ha with
      | ⟨0, _⟩, _ => rfl
      | ⟨1, _⟩, ha => exact absurd (Fin.ext rfl) ha
      | ⟨2, _⟩, _ => rfl
      | ⟨3, _⟩, _ => rfl)
    (by show 0 + ch.val = j.val; omega)

/-- Channel `64 + ch` of the whole is channel `ch` of the second piece. -/
theorem concat3_apply_1 (A0 A1 A2 : S64x64x14x128.Idx → EReal)
    (h : Shape.Concatenates [S64x64x14x128, S64x64x14x128, S64x64x14x128] S64x192x14x128 1)
    (b : Fin 64) (j : Fin 192) (t : Fin 14) (v : Fin 128) (ch : Fin 64) (hj : j.val = 64 + ch.val) :
    concatenate S64x192x14x128 1 [⟨S64x64x14x128, A0⟩, ⟨S64x64x14x128, A1⟩, ⟨S64x64x14x128, A2⟩] h (ix4 b j t v)
      = A1 (ix4 b ch t v) :=
  concatenate_apply_piece (t := S64x192x14x128) (1 : Fin 4) [⟨S64x64x14x128, A0⟩, ⟨S64x64x14x128, A1⟩, ⟨S64x64x14x128, A2⟩] h (ix4 b j t v)
    1 (by simp) S64x64x14x128 A1 rfl rfl 64 rfl (ix4 b ch t v)
    (fun a ha => by
      match a, ha with
      | ⟨0, _⟩, _ => rfl
      | ⟨1, _⟩, ha => exact absurd (Fin.ext rfl) ha
      | ⟨2, _⟩, _ => rfl
      | ⟨3, _⟩, _ => rfl)
    (by show 64 + ch.val = j.val; omega)

/-- Channel `128 + ch` of the whole is channel `ch` of the third piece. -/
theorem concat3_apply_2 (A0 A1 A2 : S64x64x14x128.Idx → EReal)
    (h : Shape.Concatenates [S64x64x14x128, S64x64x14x128, S64x64x14x128] S64x192x14x128 1)
    (b : Fin 64) (j : Fin 192) (t : Fin 14) (v : Fin 128) (ch : Fin 64) (hj : j.val = 128 + ch.val) :
    concatenate S64x192x14x128 1 [⟨S64x64x14x128, A0⟩, ⟨S64x64x14x128, A1⟩, ⟨S64x64x14x128, A2⟩] h (ix4 b j t v)
      = A2 (ix4 b ch t v) :=
  concatenate_apply_piece (t := S64x192x14x128) (1 : Fin 4) [⟨S64x64x14x128, A0⟩, ⟨S64x64x14x128, A1⟩, ⟨S64x64x14x128, A2⟩] h (ix4 b j t v)
    2 (by simp) S64x64x14x128 A2 rfl rfl 128 rfl (ix4 b ch t v)
    (fun a ha => by
      match a, ha with
      | ⟨0, _⟩, _ => rfl
      | ⟨1, _⟩, ha => exact absurd (Fin.ext rfl) ha
      | ⟨2, _⟩, _ => rfl
      | ⟨3, _⟩, _ => rfl)
    (by show 128 + ch.val = j.val; omega)

/-! ## Read at an index: the three windows the layout operations alone produce -/

/-- The im2col array at `(b, j, n)` with `j = 64·kt + ch` and `n = 128·t + v` is the input at `(b, ch, t + kt, v)`:
    copy `kt` of the input holds the band of time steps from `kt` on. -/
theorem R_v4_apply_of_eq (b : Fin 64) (j : Fin 192) (n : Fin 1792) (kt : Fin 3) (ch : Fin 64) (t : Fin 14) (v : Fin 128)
    (s : Fin 16) (hj : j.val = 64 * kt.val + ch.val) (hn : n.val = 128 * t.val + v.val) (hs : s.val = t.val + kt.val) :
    R0 m c main_v4 (ix3 b j n)
      = (m ((c : Thread nD τ).loc main_arg0) : S64x64x16x128.Idx → EReal) (ix4 b ch s v) := by
  rw [R_v4_eq]
  refine (shapeCast_apply _ _ (ix3 b j n) (ix4 b j t v) ?_).trans ?_
  · rw [Shape.rowMajor_val_four, Shape.rowMajor_val_three]
    show ((b.val * 192 + j.val) * 14 + t.val) * 128 + v.val = (b.val * 192 + j.val) * 1792 + n.val
    omega
  have hkt := kt.isLt
  have hch := ch.isLt
  rcases (by omega : kt.val = 0 ∨ kt.val = 1 ∨ kt.val = 2) with h0 | h1 | h2
  · rw [concat3_apply_0 _ _ _ _ b j t v ch (by omega)]
    exact slice4_axis2_apply 0 _ _ b ch t v s (by omega)
  · rw [concat3_apply_1 _ _ _ _ b j t v ch (by omega)]
    exact slice4_axis2_apply 1 _ _ b ch t v s (by omega)
  · rw [concat3_apply_2 _ _ _ _ b j t v ch (by omega)]
    exact slice4_axis2_apply 2 _ _ b ch t v s (by omega)

/-- R0. The im2col array at `(b, 64·kt + ch, 128·t + v)` is the input at `(b, ch, t + kt, v)`. -/
theorem R_v4_apply (b ch : Fin 64) (kt : Fin 3) (t : Fin 14) (v : Fin 128) :
    R0 m c main_v4
        (ix3 b (⟨64 * kt.val + ch.val, by have := kt.isLt; have := ch.isLt; omega⟩ : Fin 192)
          (⟨128 * t.val + v.val, by have := t.isLt; have := v.isLt; omega⟩ : Fin 1792))
      = (m ((c : Thread nD τ).loc main_arg0) : S64x64x16x128.Idx → EReal)
          (ix4 b ch (⟨t.val + kt.val, by have := t.isLt; have := kt.isLt; omega⟩ : Fin 16) v) :=
  R_v4_apply_of_eq m c b _ _ kt ch t v _ rfl rfl rfl

/-- The re-laid convolution weight at `(o, j)` with `j = 64·kt + ch` is the weight at `(o, ch, kt, 0)`. -/
theorem R_v7_apply_of_eq (o : Fin 64) (j : Fin 192) (kt : Fin 3) (ch : Fin 64) (hj : j.val = 64 * kt.val + ch.val) :
    R0 m c main_v7 (ix2 o j)
      = (m ((c : Thread nD τ).loc main_arg1) : S64x64x3x1.Idx → EReal) (ix4 o ch kt (0 : Fin 1)) := by
  rw [R_v7_eq]
  refine (shapeCast_apply _ _ (ix2 o j) (ix3 o kt ch) ?_).trans ?_
  · rw [Shape.rowMajor_val_three, Shape.rowMajor_val_two]
    show (o.val * 3 + kt.val) * 64 + ch.val = o.val * 192 + j.val
    omega
  rw [transpose_ix3_021_apply]
  refine shapeCast_apply _ _ (ix3 o ch kt) (ix4 o ch kt (0 : Fin 1)) ?_
  rw [Shape.rowMajor_val_four, Shape.rowMajor_val_three]
  show ((o.val * 64 + ch.val) * 3 + kt.val) * 1 + 0 = (o.val * 64 + ch.val) * 3 + kt.val
  omega

/-- R1. The re-laid convolution weight at `(o, 64·kt + ch)` is the weight at `(o, ch, kt, 0)`. -/
theorem R_v7_apply (o ch : Fin 64) (kt : Fin 3) :
    R0 m c main_v7 (ix2 o (⟨64 * kt.val + ch.val, by have := kt.isLt; have := ch.isLt; omega⟩ : Fin 192))
      = (m ((c : Thread nD τ).loc main_arg1) : S64x64x3x1.Idx → EReal) (ix4 o ch kt (0 : Fin 1)) :=
  R_v7_apply_of_eq m c o _ kt ch rfl

/-- R2. The bias column at `(o, 0)` is the bias at `o`. -/
theorem R_v8_apply (o : Fin 64) :
    R0 m c main_v8 (ix2 o (0 : Fin 1))
      = (m ((c : Thread nD τ).loc main_arg2) : S64.Idx → EReal) (ix1 o) := by
  rw [R_v8_eq]
  refine shapeCast_apply _ _ (ix2 o (0 : Fin 1)) (ix1 o) ?_
  rw [Shape.rowMajor_val_two, Shape.rowMajor_val_one]
  show o.val = o.val * 1 + 0
  omega

/-! ## Read at an index: the two windows a scatter produces -/

/-- R3. The scattered array at `(u, v)` is the linear weight at `(v, u)`: the one window covers the array, so no zero
    is left. -/
theorem R_v11_apply (u v : Fin 128) :
    R0 m c main_v11 (ix2 u v)
      = (m ((c : Thread nD τ).loc main_arg3) : S128x128.Idx → EReal) (ix2 v u) := by
  rw [R_v11_eq]
  refine (scatter_set_apply scatter_S128x128_S0_S128x128_01_n_n_0 _ _ _ (fun j => j)
    (fun j => resultIdx_whole _ j) Function.injective_id (ix2 u v)).trans ?_
  exact transpose_ix2_apply _ _ u v

/-- R4. The scattered row at `(0, v)` is the linear bias at `v`. -/
theorem R_v14_apply (v : Fin 128) :
    R0 m c main_v14 (ix2 (0 : Fin 1) v)
      = (m ((c : Thread nD τ).loc main_arg4) : S128.Idx → EReal) (ix1 v) := by
  rw [R_v14_eq]
  exact scatter_set_apply scatter_S1x128_S1_S128_0_0_0_0 _ _ _
    (fun j : S128.Idx => (ix2 (0 : Fin 1) (⟨(j 0).val, (j 0).isLt⟩ : Fin 128) : S1x128.Idx))
    (fun j => resultIdx_row _ (fun _ => rfl) j) row_injective (ix1 v)

end Cert.ReferenceIdeal.HostRead

end
-- ==== Proof.Bridge.lean ====
/-
  The two programs' output arrays agree, given that their argument arrays do.

  Each window's array of either program holds, at each index, one element of one argument (the host preludes read at
  an index). Through those reads the kernel's three 64-term products against three shifted columns of the flat input
  are the three runs of the reference's one 192-term product against a column of the unfolded input: tap `kt`,
  channel `ch`, time `t`, vertex `v` meet `conv_w[o, ch, kt, 0] · x[b, ch, t + kt, v]` on both sides. The vertex
  matrix and the two biases agree entry by entry. Only the re-association of a finite sum is used.
-/
import proofs.«139804_g2000702422467796_pallasbulk_817_2_alg».proof.Proof.Spec
import proofs.«139804_g2000702422467796_pallasbulk_817_2_alg».proof.Proof.KernelHost
import proofs.«139804_g2000702422467796_pallasbulk_817_2_alg».proof.Proof.RefHost

set_option maxRecDepth 16384

noncomputable section

open scoped BigOperators

namespace Cert.Bridge

open Idealize.ShloMosaic Idealize.ShloMosaic.ValueIdx
open Idealize.SL.Sem
open Cert.Spec

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev Cert.KernelIdeal.nD) (c' : Dev Cert.ReferenceIdeal.nD)

/-- The input: the kernel's flat array at column `128·kt + n` of channel `ch` is the reference's unfolded array at
    column `n` of channel `64·kt + ch`. -/
theorem x_eq (h0 : mR ((c'.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (bb ch : Fin 64) (kt : Fin 3) (n : Fin 1792) (p : Fin 2048) (j : Fin 192)
    (hp : p.val = 128 * kt.val + n.val) (hj : j.val = 64 * kt.val + ch.val) :
    Cert.KernelIdeal.Gen.V (F := Ideal) mK c Cert.KernelIdeal.main_v0 (ix3 bb ch p) = Cert.ReferenceIdeal.HostRead.R0 mR c' Cert.ReferenceIdeal.main_v4 (ix3 bb j n) := by
  have hn := n.isLt
  have hkt := kt.isLt
  rw [Cert.KernelIdeal.HostRead.V_v0_apply_of_eq mK c bb ch p
      (⟨n.val / 128 + kt.val, by omega⟩ : Fin 16) (⟨n.val % 128, Nat.mod_lt _ (by omega)⟩ : Fin 128)
      (by show p.val = 128 * (n.val / 128 + kt.val) + n.val % 128; omega),
    Cert.ReferenceIdeal.HostRead.R_v4_apply_of_eq mR c' bb j n kt ch
      (⟨n.val / 128, by omega⟩ : Fin 14) (⟨n.val % 128, Nat.mod_lt _ (by omega)⟩ : Fin 128)
      (⟨n.val / 128 + kt.val, by omega⟩ : Fin 16) hj
      (by show n.val = 128 * (n.val / 128) + n.val % 128; omega) rfl,
    h0]

/-- The convolution weight as a [64,192] matrix is the same in both programs. -/
theorem wm_eq (h1 : mR ((c'.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (o : Fin 64) (j : Fin 192) :
    Cert.KernelIdeal.Gen.V (F := Ideal) mK c Cert.KernelIdeal.main_v4 (ix2 o j) = Cert.ReferenceIdeal.HostRead.R0 mR c' Cert.ReferenceIdeal.main_v7 (ix2 o j) := by
  have hj := j.isLt
  rw [Cert.KernelIdeal.HostRead.V_v4_apply_of_eq mK c o j (⟨j.val / 64, by omega⟩ : Fin 3) (⟨j.val % 64, Nat.mod_lt _ (by omega)⟩ : Fin 64)
      (by show j.val = 64 * (j.val / 64) + j.val % 64; omega),
    Cert.ReferenceIdeal.HostRead.R_v7_apply_of_eq mR c' o j (⟨j.val / 64, by omega⟩ : Fin 3) (⟨j.val % 64, Nat.mod_lt _ (by omega)⟩ : Fin 64)
      (by show j.val = 64 * (j.val / 64) + j.val % 64; omega),
    h1]

/-- The convolution bias as a column is the same in both programs. -/
theorem b2_eq (h2 : mR ((c'.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (o : Fin 64) :
    Cert.KernelIdeal.Gen.V (F := Ideal) mK c Cert.KernelIdeal.main_v5 (ix2 o (0 : Fin 1)) = Cert.ReferenceIdeal.HostRead.R0 mR c' Cert.ReferenceIdeal.main_v8 (ix2 o (0 : Fin 1)) := by
  rw [Cert.KernelIdeal.HostRead.V_v5_apply, Cert.ReferenceIdeal.HostRead.R_v8_apply, h2]

/-- The vertex matrix is the same in both programs. -/
theorem wt_eq (h3 : mR ((c'.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (k v : Fin 128) :
    Cert.KernelIdeal.Gen.V (F := Ideal) mK c Cert.KernelIdeal.main_v7 (ix2 k v) = Cert.ReferenceIdeal.HostRead.R0 mR c' Cert.ReferenceIdeal.main_v11 (ix2 k v) := by
  rw [Cert.KernelIdeal.HostRead.V_v7_apply, Cert.ReferenceIdeal.HostRead.R_v11_apply, h3]

/-- The vertex bias as a row is the same in both programs. -/
theorem bl_eq (h4 : mR ((c'.tc : Thread Cert.ReferenceIdeal.nD Cert.ReferenceIdeal.τ).loc Cert.ReferenceIdeal.main_arg4) = mK ((c.tc : Thread Cert.KernelIdeal.nD Cert.KernelIdeal.τ).loc Cert.KernelIdeal.main_arg4))
    (v : Fin 128) :
    Cert.KernelIdeal.Gen.V (F := Ideal) mK c Cert.KernelIdeal.main_v8 (ix2 (0 : Fin 1) v) = Cert.ReferenceIdeal.HostRead.R0 mR c' Cert.ReferenceIdeal.main_v14 (ix2 (0 : Fin 1) v) := by
  rw [Cert.KernelIdeal.HostRead.V_v8_apply, Cert.ReferenceIdeal.HostRead.R_v14_apply, h4]

/-- The convolution rows agree: the reference's 192-term product taken in three runs of 64 is, run by run and term by
    term, the kernel's three products. -/
theorem conv_eq
    (h0 : mR ((c'.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c'.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c'.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (bb o : Fin 64) (n : Fin 1792) :
    convK (Cert.KernelIdeal.Gen.V (F := Ideal) mK c Cert.KernelIdeal.main_v0) (Cert.KernelIdeal.Gen.V (F := Ideal) mK c Cert.KernelIdeal.main_v4) (Cert.KernelIdeal.Gen.V (F := Ideal) mK c Cert.KernelIdeal.main_v5) bb o n
      = convR (Cert.ReferenceIdeal.HostRead.R0 mR c' Cert.ReferenceIdeal.main_v4) (Cert.ReferenceIdeal.HostRead.R0 mR c' Cert.ReferenceIdeal.main_v7) (Cert.ReferenceIdeal.HostRead.R0 mR c' Cert.ReferenceIdeal.main_v8) bb o n := by
  unfold convK convR
  rw [sum_split3]
  refine congrArg₂ (· + ·) (congrArg₂ (· + ·) (congrArg₂ (· + ·) ?_ ?_) ?_) (b2_eq mK mR c c' h2 o)
  · exact Finset.sum_congr rfl fun ch _ => congrArg₂ (· * ·) (wm_eq mK mR c c' h1 o _)
      (x_eq mK mR c c' h0 bb ch (⟨0, by omega⟩ : Fin 3) n _ _
        (by show 0 + n.val = 128 * 0 + n.val; omega) (by show 0 + ch.val = 64 * 0 + ch.val; omega))
  · exact Finset.sum_congr rfl fun ch _ => congrArg₂ (· * ·) (wm_eq mK mR c c' h1 o _)
      (x_eq mK mR c c' h0 bb ch (⟨1, by omega⟩ : Fin 3) n _ _
        (by show 128 + n.val = 128 * 1 + n.val; omega) (by show 64 + ch.val = 64 * 1 + ch.val; omega))
  · exact Finset.sum_congr rfl fun ch _ => congrArg₂ (· * ·) (wm_eq mK mR c c' h1 o _)
      (x_eq mK mR c c' h0 bb ch (⟨2, by omega⟩ : Fin 3) n _ _
        (by show 256 + n.val = 128 * 2 + n.val; omega) (by show 128 + ch.val = 64 * 2 + ch.val; omega))

/-- THE BRIDGE. The kernel's output array of its windows' arrays is the reference's of its own, when the two
    programs' argument arrays agree. -/
theorem arr_eq
    (h0 : mR ((c'.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c'.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c'.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h3 : mR ((c'.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (h4 : mR ((c'.tc : Thread Cert.ReferenceIdeal.nD Cert.ReferenceIdeal.τ).loc Cert.ReferenceIdeal.main_arg4) = mK ((c.tc : Thread Cert.KernelIdeal.nD Cert.KernelIdeal.τ).loc Cert.KernelIdeal.main_arg4)) :
    arrK (Cert.KernelIdeal.Gen.V (F := Ideal) mK c Cert.KernelIdeal.main_v0) (Cert.KernelIdeal.Gen.V (F := Ideal) mK c Cert.KernelIdeal.main_v4) (Cert.KernelIdeal.Gen.V (F := Ideal) mK c Cert.KernelIdeal.main_v5) (Cert.KernelIdeal.Gen.V (F := Ideal) mK c Cert.KernelIdeal.main_v7) (Cert.KernelIdeal.Gen.V (F := Ideal) mK c Cert.KernelIdeal.main_v8)
      = arrR (Cert.ReferenceIdeal.HostRead.R0 mR c' Cert.ReferenceIdeal.main_v4) (Cert.ReferenceIdeal.HostRead.R0 mR c' Cert.ReferenceIdeal.main_v7) (Cert.ReferenceIdeal.HostRead.R0 mR c' Cert.ReferenceIdeal.main_v8) (Cert.ReferenceIdeal.HostRead.R0 mR c' Cert.ReferenceIdeal.main_v11) (Cert.ReferenceIdeal.HostRead.R0 mR c' Cert.ReferenceIdeal.main_v14) := by
  funext i
  unfold arrK arrR arrOf vmap
  exact congrArg₂ (· + ·)
    (Finset.sum_congr rfl fun k _ => congrArg₂ (· * ·) (conv_eq mK mR c c' h0 h1 h2 _ _ _) (wt_eq mK mR c c' h3 k _))
    (bl_eq mK mR c c' h4 _)

end Cert.Bridge

end
-- ==== Proof.lean ====
/-
  The certificate of the fused temporal-convolution and vertex-linear kernel against its two-stage reference.

  Both programs compute, for an input x [64, 64, 16, 128], convolution weights w [64, 64, 3, 1] and bias [64], a vertex
  matrix L [128, 128] and bias [128], the array
      z (b, o, t, v) = sum over u of ( sum over taps kt and channels c of w (o, c, kt, 0) * x (b, c, t + kt, u) + bias o ) * L (v, u) + lbias v.
  The kernel reads x flat, [64, 64, 2048], four batches per grid point, takes the three taps as three 64-term products
  against column windows shifted by 128 kt, and multiplies the four batches' time slices stacked 256 x 128 by the
  transposed vertex matrix. The reference unfolds x on the host to [64, 192, 1792] (three time-shifted slices stacked
  along the channels), takes one 192-term product per batch, and multiplies each 64 x 128 time slice by the transposed
  vertex matrix written into a zero array. At the ideal instance every change of float format is the identity and the
  two results are the same function of the arguments: the only law used is that a sum of 192 terms is the sum of its
  three runs of 64, which holds for extended reals without any finiteness, so the precondition is never opened.

  The modules: `Spec` states the result coordinate by coordinate and the sum law; `Forms` reads the bodies' vector
  expressions at an entry; `KernelValue` and `KernelArray` read the kernel's 56 stores as one block function and
  assemble the output array from the blocks; `RefFrame` runs the reference's region, `RefValue` reads its one store
  and assembles its array; `KernelHost` and `RefHost` read the host lines before each region at an index; `Bridge`
  joins the two arrays. Here the three frame claims, the (empty) idealization ledger and the algebraic claim are put
  together: both runs end with the same array re-laid [64, 64, 1792] → [64, 64, 14, 128].
-/
import proofs.«139804_g2000702422467796_pallasbulk_817_2_alg».proof.Defs
import proofs.«139804_g2000702422467796_pallasbulk_817_2_alg».proof.Proof.Gen.Kernel.Frame
import proofs.«139804_g2000702422467796_pallasbulk_817_2_alg».proof.Proof.Gen.KernelIdeal.Frame
import proofs.«139804_g2000702422467796_pallasbulk_817_2_alg».proof.Proof.Gen.Pre_finite_inputs
import proofs.«139804_g2000702422467796_pallasbulk_817_2_alg».proof.Proof.KernelArray
import proofs.«139804_g2000702422467796_pallasbulk_817_2_alg».proof.Proof.RefArray
import proofs.«139804_g2000702422467796_pallasbulk_817_2_alg».proof.Proof.Bridge

noncomputable section

namespace Cert.Proof

open Idealize.ShloMosaic Idealize.ShloMosaic.TcCoe Idealize.SL.Sem

/-- The contents the reference's region finds are the host lines' results from the launch memory. -/
theorem refV_eq (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) :
    Cert.ReferenceIdeal.Hand.V (F := Ideal) m c b = Cert.ReferenceIdeal.HostRead.R0 m c b := by
  show StableHlo.after (List.flatten [Cert.ReferenceIdeal.Gen.hostOps0 (F := Ideal)]) (fun b => m (c, b)) (Proc.devRef .tc b)
    = StableHlo.after (Cert.ReferenceIdeal.Gen.hostOps0 (F := Ideal)) (fun b => m (c, b)) (Proc.devRef .tc b)
  rw [List.flatten_cons, List.flatten_nil, List.append_nil]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Hand.frame m ρ

/-- The ideal pass rewrote nothing in this kernel. -/
theorem preserves : Cert.preserves_Kernel_KernelIdeal := trivial

/-- From memories that agree on the arguments both programs end with the same result: each output array is its
    program's function of the arrays its region finds, the two functions agree by the sum law, and both results are the
    same re-laying of that array. -/
theorem algebraic : Cert.algebraic_KernelIdeal_ReferenceIdeal := by
  intro m ρ m' ρ' _ hagree
  refine ⟨fun c => shapeCast Cert.KernelIdeal.S64x64x14x128 (Cert.KernelIdeal.HandValue.outArr m c)
      Cert.KernelIdeal.Facts₀.shapeCasts_S64x64x1792_S64x64x14x128,
    Cert.KernelIdeal.HandValue.kernel_result m ρ, ?_⟩
  refine (θ_run Cert.ReferenceIdeal.defs _ _).mono (fun _ h c => ⟨(h c).1.trans ?_, (h c).2⟩)
    (Cert.ReferenceIdeal.HandValue.ref_result m' ρ')
  have e := Cert.Bridge.arr_eq m m' c c (hagree c).1 (hagree c).2.1 (hagree c).2.2.1 (hagree c).2.2.2.1 (hagree c).2.2.2.2
  rw [refV_eq m' c Cert.ReferenceIdeal.main_v4, refV_eq m' c Cert.ReferenceIdeal.main_v7, refV_eq m' c Cert.ReferenceIdeal.main_v8,
    refV_eq m' c Cert.ReferenceIdeal.main_v11, refV_eq m' c Cert.ReferenceIdeal.main_v14, ← e]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
